-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)) →
    ∃ (v0 : (c : Dev Cert.KernelIdeal.nD) → Buf (Elt Ideal) ((c.tc : Thread Cert.KernelIdeal.nD Cert.KernelIdeal.τ).loc Cert.KernelIdeal.main_v56)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v56) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v107) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x3 : Shape := ⟨2, ![65536, 3]⟩
abbrev S65536x64 : Shape := ⟨2, ![65536, 64]⟩
abbrev S16384x3 : Shape := ⟨2, ![16384, 3]⟩
abbrev S16384x16 : Shape := ⟨2, ![16384, 16]⟩
abbrev S16384x32 : Shape := ⟨2, ![16384, 32]⟩
abbrev S16384 : Shape := ⟨1, ![16384]⟩
abbrev S64x64 : Shape := ⟨2, ![64, 64]⟩
abbrev S64 : Shape := ⟨1, ![64]⟩
abbrev S64x6 : Shape := ⟨2, ![64, 6]⟩
abbrev S128x64 : Shape := ⟨2, ![128, 64]⟩
abbrev S128 : Shape := ⟨1, ![128]⟩
abbrev S256x256 : Shape := ⟨2, ![256, 256]⟩
abbrev S256 : Shape := ⟨1, ![256]⟩
abbrev S_ : Shape := ⟨0, ![]⟩

class Facts : Prop where
  bcast_S_S65536x3 : S_.BroadcastsInDim S65536x3 (![] : Fin 0 → Fin S65536x3.rank)
  reducesTo_S65536x3_S_d0_1 : S65536x3.ReducesTo [0, 1] S_
  h_S_ : 0 < S_.numel
  bcast_S_S65536x64 : S_.BroadcastsInDim S65536x64 (![] : Fin 0 → Fin S65536x64.rank)
  reducesTo_S65536x64_S_d0_1 : S65536x64.ReducesTo [0, 1] S_
  bcast_S_S16384x3 : S_.BroadcastsInDim S16384x3 (![] : Fin 0 → Fin S16384x3.rank)
  reducesTo_S16384x3_S_d0_1 : S16384x3.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x6 : S_.BroadcastsInDim S64x6 (![] : Fin 0 → Fin S64x6.rank)
  reducesTo_S64x6_S_d0_1 : S64x6.ReducesTo [0, 1] S_
  bcast_S_S128x64 : S_.BroadcastsInDim S128x64 (![] : Fin 0 → Fin S128x64.rank)
  reducesTo_S128x64_S_d0_1 : S128x64.ReducesTo [0, 1] S_
  bcast_S_S128 : S_.BroadcastsInDim S128 (![] : Fin 0 → Fin S128.rank)
  reducesTo_S128_S_d0 : S128.ReducesTo [0] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part6 {F : FTy → Type} [FloatOps F] (main_arg25 : FVec F S256 .f32) (main_v98 : IVec S_ 1) (main_v101 : IVec S256 1) (main_c_39 : IVec S_ 1) : IVec S_ 1 :=
  let main_v102 : IVec S_ 1 := (fun x v => Host.reduce IntOp.andi x v reducesTo_S256_S_d0 h_S_) main_v101 main_c_39
  let main_v103 : IVec S_ 1 := andi main_v98 main_v102
  let main_v104 : FVec F S256 .f32 := Host.absf main_arg25
  let main_cst_40 : FVec F S_ .f32 := constant S_ .f32 0x7F800000#32
  let main_v105 : FVec F S256 .f32 := broadcastInDim S256 ![] bcast_S_S256 main_cst_40
  let main_v106 : IVec S256 1 := cmpf .olt main_v104 main_v105
  let main_c_41 : IVec S_ 1 := constantI S_ 1 1#1
  let main_v107 : IVec S_ 1 := (fun x v => Host.reduce IntOp.andi x v reducesTo_S256_S_d0 h_S_) main_v106 main_c_41
  let main_v108 : IVec S_ 1 := andi main_v103 main_v107
  main_v108

def fn_part5 {F : FTy → Type} [FloatOps F] (main_arg22 : FVec F S128 .f32) (main_arg23 : FVec F S256x256 .f32) (main_arg24 : FVec F S256 .f32) (main_arg25 : FVec F S256 .f32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_v89 : FVec F S128 .f32 := Host.absf main_arg22
  let main_cst_34 : FVec F S_ .f32 := constant S_ .f32 0x7F800000#32
  let main_v90 : FVec F S128 .f32 := broadcastInDim S128 ![] bcast_S_S128 main_cst_34
  let main_v91 : IVec S128 1 := cmpf .olt main_v89 main_v90
  let main_c_35 : IVec S_ 1 := constantI S_ 1 1#1
  let main_v92 : IVec S_ 1 := (fun x v => Host.reduce IntOp.andi x v reducesTo_S128_S_d0 h_S_) main_v91 main_c_35
  let main_v93 : IVec S_ 1 := andi main_v88 main_v92
  let main_v94 : FVec F S256x256 .f32 := Host.absf main_arg23
  let main_cst_36 : FVec F S_ .f32 := constant S_ .f32 0x7F800000#32
  let main_v95 : FVec F S256x256 .f32 := broadcastInDim S256x256 ![] bcast_S_S256x256 main_cst_36
  let main_v96 : IVec S256x256 1 := cmpf .olt main_v94 main_v95
  let main_c_37 : IVec S_ 1 := constantI S_ 1 1#1
  let main_v97 : IVec S_ 1 := (fun x v => Host.reduce IntOp.andi x v reducesTo_S256x256_S_d0_1 h_S_) main_v96 main_c_37
  let main_v98 : IVec S_ 1 := andi main_v93 main_v97
  let main_v99 : FVec F S256 .f32 := Host.absf main_arg24
  let main_cst_38 : FVec F S_ .f32 := constant S_ .f32 0x7F800000#32
  let main_v100 : FVec F S256 .f32 := broadcastInDim S256 ![] bcast_S_S256 main_cst_38
  let main_v101 : IVec S256 1 := cmpf .olt main_v99 main_v100
  let main_c_39 : IVec S_ 1 := constantI S_ 1 1#1
  fn_part6 (F := F) main_arg25 main_v98 main_v101 main_c_39

def fn_part4 {F : FTy → Type} [FloatOps F] (main_arg18 : FVec F S64 .f32) (main_arg19 : FVec F S64 .f32) (main_arg20 : FVec F S128x64 .f32) (main_arg21 : FVec F S128 .f32) (main_arg22 : FVec F S128 .f32) (main_arg23 : FVec F S256x256 .f32) (main_arg24 : FVec F S256 .f32) (main_arg25 : FVec F S256 .f32) (main_v63 : IVec S_ 1) (main_v67 : IVec S_ 1) : IVec S_ 1 :=
  let main_v68 : IVec S_ 1 := andi main_v63 main_v67
  let main_v69 : FVec F S64 .f32 := Host.absf main_arg18
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  let main_v74 : FVec F S64 .f32 := Host.absf main_arg19
  let main_cst_28 : FVec F S_ .f32 := constant S_ .f32 0x7F800000#32
  let main_v75 : FVec F S64 .f32 := broadcastInDim S64 ![] bcast_S_S64 main_cst_28
  let main_v76 : IVec S64 1 := cmpf .olt main_v74 main_v75
  let main_c_29 : IVec S_ 1 := constantI S_ 1 1#1
  let main_v77 : IVec S_ 1 := (fun x v => Host.reduce IntOp.andi x v reducesTo_S64_S_d0 h_S_) main_v76 main_c_29
  let main_v78 : IVec S_ 1 := andi main_v73 main_v77
  let main_v79 : FVec F S128x64 .f32 := Host.absf main_arg20
  let main_cst_30 : FVec F S_ .f32 := constant S_ .f32 0x7F800000#32
  let main_v80 : FVec F S128x64 .f32 := broadcastInDim S128x64 ![] bcast_S_S128x64 main_cst_30
  let main_v81 : IVec S128x64 1 := cmpf .olt main_v79 main_v80
  let main_c_31 : IVec S_ 1 := constantI S_ 1 1#1
  let main_v82 : IVec S_ 1 := (fun x v => Host.reduce IntOp.andi x v reducesTo_S128x64_S_d0_1 h_S_) main_v81 main_c_31
  let main_v83 : IVec S_ 1 := andi main_v78 main_v82
  let main_v84 : FVec F S128 .f32 := Host.absf main_arg21
  let main_cst_32 : FVec F S_ .f32 := constant S_ .f32 0x7F800000#32
  fn_part5 (F := F) main_arg22 main_arg23 main_arg24 main_arg25 main_v83 main_v84 main_cst_32

def fn_part3 {F : FTy → Type} [FloatOps F] (main_arg15 : FVec F S64x64 .f32) (main_arg16 : FVec F S64 .f32) (main_arg17 : FVec F S64x6 .f32) (main_arg18 : FVec F S64 .f32) (main_arg19 : FVec F S64 .f32) (main_arg20 : FVec F S128x64 .f32) (main_arg21 : FVec F S128 .f32) (main_arg22 : FVec F S128 .f32) (main_arg23 : FVec F S256x256 .f32) (main_arg24 : FVec F S256 .f32) (main_arg25 : FVec F S256 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S64x64 .f32 := Host.absf main_arg15
  let main_cst_20 : FVec F S_ .f32 := constant S_ .f32 0x7F800000#32
  let main_v55 : FVec F S64x64 .f32 := broadcastInDim S64x64 ![] bcast_S_S64x64 main_cst_20
  let main_v56 : IVec S64x64 1 := cmpf .olt main_v54 main_v55
  let main_c_21 : IVec S_ 1 := constantI S_ 1 1#1
  let main_v57 : IVec S_ 1 := (fun x v => Host.reduce IntOp.andi x v reducesTo_S64x64_S_d0_1 h_S_) main_v56 main_c_21
  let main_v58 : IVec S_ 1 := andi main_v53 main_v57
  let main_v59 : FVec F S64 .f32 := Host.absf main_arg16
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64x6 .f32 := Host.absf main_arg17
  let main_cst_24 : FVec F S_ .f32 := constant S_ .f32 0x7F800000#32
  let main_v65 : FVec F S64x6 .f32 := broadcastInDim S64x6 ![] bcast_S_S64x6 main_cst_24
  let main_v66 : IVec S64x6 1 := cmpf .olt main_v64 main_v65
  let main_c_25 : IVec S_ 1 := constantI S_ 1 1#1
  let main_v67 : IVec S_ 1 := (fun x v => Host.reduce IntOp.andi x v reducesTo_S64x6_S_d0_1 h_S_) main_v66 main_c_25
  fn_part4 (F := F) main_arg18 main_arg19 main_arg20 main_arg21 main_arg22 main_arg23 main_arg24 main_arg25 main_v63 main_v67

def fn_part2 {F : FTy → Type} [FloatOps F] (main_arg11 : FVec F S64 .f32) (main_arg12 : FVec F S128x64 .f32) (main_arg13 : FVec F S128 .f32) (main_arg14 : FVec F S128 .f32) (main_arg15 : FVec F S64x64 .f32) (main_arg16 : FVec F S64 .f32) (main_arg17 : FVec F S64x6 .f32) (main_arg18 : FVec F S64 .f32) (main_arg19 : FVec F S64 .f32) (main_arg20 : FVec F S128x64 .f32) (main_arg21 : FVec F S128 .f32) (main_arg22 : FVec F S128 .f32) (main_arg23 : FVec F S256x256 .f32) (main_arg24 : FVec F S256 .f32) (main_arg25 : FVec F S256 .f32) (main_v33 : IVec S_ 1) : IVec S_ 1 :=
  let main_v34 : FVec F S64 .f32 := Host.absf main_arg11
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S128x64 .f32 := Host.absf main_arg12
  let main_cst_14 : FVec F S_ .f32 := constant S_ .f32 0x7F800000#32
  let main_v40 : FVec F S128x64 .f32 := broadcastInDim S128x64 ![] bcast_S_S128x64 main_cst_14
  let main_v41 : IVec S128x64 1 := cmpf .olt main_v39 main_v40
  let main_c_15 : IVec S_ 1 := constantI S_ 1 1#1
  let main_v42 : IVec S_ 1 := (fun x v => Host.reduce IntOp.andi x v reducesTo_S128x64_S_d0_1 h_S_) main_v41 main_c_15
  let main_v43 : IVec S_ 1 := andi main_v38 main_v42
  let main_v44 : FVec F S128 .f32 := Host.absf main_arg13
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg14
  let main_cst_18 : FVec F S_ .f32 := constant S_ .f32 0x7F800000#32
  let main_v50 : FVec F S128 .f32 := broadcastInDim S128 ![] bcast_S_S128 main_cst_18
  fn_part3 (F := F) main_arg15 main_arg16 main_arg17 main_arg18 main_arg19 main_arg20 main_arg21 main_arg22 main_arg23 main_arg24 main_arg25 main_v48 main_v49 main_v50

def fn_part1 {F : FTy → Type} [FloatOps F] (main_arg8 : FVec F S64 .f32) (main_arg9 : FVec F S64x6 .f32) (main_arg10 : FVec F S64 .f32) (main_arg11 : FVec F S64 .f32) (main_arg12 : FVec F S128x64 .f32) (main_arg13 : FVec F S128 .f32) (main_arg14 : FVec F S128 .f32) (main_arg15 : FVec F S64x64 .f32) (main_arg16 : FVec F S64 .f32) (main_arg17 : FVec F S64x6 .f32) (main_arg18 : FVec F S64 .f32) (main_arg19 : FVec F S64 .f32) (main_arg20 : FVec F S128x64 .f32) (main_arg21 : FVec F S128 .f32) (main_arg22 : FVec F S128 .f32) (main_arg23 : FVec F S256x256 .f32) (main_arg24 : FVec F S256 .f32) (main_arg25 : FVec F S256 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg8
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x6 .f32 := Host.absf main_arg9
  let main_cst_8 : FVec F S_ .f32 := constant S_ .f32 0x7F800000#32
  let main_v25 : FVec F S64x6 .f32 := broadcastInDim S64x6 ![] bcast_S_S64x6 main_cst_8
  let main_v26 : IVec S64x6 1 := cmpf .olt main_v24 main_v25
  let main_c_9 : IVec S_ 1 := constantI S_ 1 1#1
  let main_v27 : IVec S_ 1 := (fun x v => Host.reduce IntOp.andi x v reducesTo_S64x6_S_d0_1 h_S_) main_v26 main_c_9
  let main_v28 : IVec S_ 1 := andi main_v23 main_v27
  let main_v29 : FVec F S64 .f32 := Host.absf main_arg10
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg11 main_arg12 main_arg13 main_arg14 main_arg15 main_arg16 main_arg17 main_arg18 main_arg19 main_arg20 main_arg21 main_arg22 main_arg23 main_arg24 main_arg25 main_v33

def fn {F : FTy → Type} [FloatOps F] (main_arg0 : FVec F S65536x3 .f32) (main_arg1 : FVec F S65536x64 .f32) (main_arg2 : FVec F S16384x3 .f32) (main_arg3 : IVec S16384x16 32) (main_arg4 : IVec S16384x32 32) (main_arg5 : IVec S16384 1) (main_arg6 : IVec S16384 1) (main_arg7 : FVec F S64x64 .f32) (main_arg8 : FVec F S64 .f32) (main_arg9 : FVec F S64x6 .f32) (main_arg10 : FVec F S64 .f32) (main_arg11 : FVec F S64 .f32) (main_arg12 : FVec F S128x64 .f32) (main_arg13 : FVec F S128 .f32) (main_arg14 : FVec F S128 .f32) (main_arg15 : FVec F S64x64 .f32) (main_arg16 : FVec F S64 .f32) (main_arg17 : FVec F S64x6 .f32) (main_arg18 : FVec F S64 .f32) (main_arg19 : FVec F S64 .f32) (main_arg20 : FVec F S128x64 .f32) (main_arg21 : FVec F S128 .f32) (main_arg22 : FVec F S128 .f32) (main_arg23 : FVec F S256x256 .f32) (main_arg24 : FVec F S256 .f32) (main_arg25 : FVec F S256 .f32) : IVec S_ 1 :=
  let main_v0 : FVec F S65536x3 .f32 := Host.absf main_arg0
  let main_cst : FVec F S_ .f32 := constant S_ .f32 0x7F800000#32
  let main_v1 : FVec F S65536x3 .f32 := broadcastInDim S65536x3 ![] bcast_S_S65536x3 main_cst
  let main_v2 : IVec S65536x3 1 := cmpf .olt main_v0 main_v1
  let main_c : IVec S_ 1 := constantI S_ 1 1#1
  let main_v3 : IVec S_ 1 := (fun x v => Host.reduce IntOp.andi x v reducesTo_S65536x3_S_d0_1 h_S_) main_v2 main_c
  let main_v4 : FVec F S65536x64 .f32 := Host.absf main_arg1
  let main_cst_0 : FVec F S_ .f32 := constant S_ .f32 0x7F800000#32
  let main_v5 : FVec F S65536x64 .f32 := broadcastInDim S65536x64 ![] bcast_S_S65536x64 main_cst_0
  let main_v6 : IVec S65536x64 1 := cmpf .olt main_v4 main_v5
  let main_c_1 : IVec S_ 1 := constantI S_ 1 1#1
  let main_v7 : IVec S_ 1 := (fun x v => Host.reduce IntOp.andi x v reducesTo_S65536x64_S_d0_1 h_S_) main_v6 main_c_1
  let main_v8 : IVec S_ 1 := andi main_v3 main_v7
  let main_v9 : FVec F S16384x3 .f32 := Host.absf main_arg2
  let main_cst_2 : FVec F S_ .f32 := constant S_ .f32 0x7F800000#32
  let main_v10 : FVec F S16384x3 .f32 := broadcastInDim S16384x3 ![] bcast_S_S16384x3 main_cst_2
  let main_v11 : IVec S16384x3 1 := cmpf .olt main_v9 main_v10
  let main_c_3 : IVec S_ 1 := constantI S_ 1 1#1
  let main_v12 : IVec S_ 1 := (fun x v => Host.reduce IntOp.andi x v reducesTo_S16384x3_S_d0_1 h_S_) main_v11 main_c_3
  let main_v13 : IVec S_ 1 := andi main_v8 main_v12
  let main_v14 : FVec F S64x64 .f32 := Host.absf main_arg7
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg8 main_arg9 main_arg10 main_arg11 main_arg12 main_arg13 main_arg14 main_arg15 main_arg16 main_arg17 main_arg18 main_arg19 main_arg20 main_arg21 main_arg22 main_arg23 main_arg24 main_arg25 main_v13 main_v16
-- ==== Kernel.lean ====
abbrev S65536x3 : Shape := ⟨2, ![65536, 3]⟩
abbrev S65536x64 : Shape := ⟨2, ![65536, 64]⟩
abbrev S16384x3 : Shape := ⟨2, ![16384, 3]⟩
abbrev S16384x16 : Shape := ⟨2, ![16384, 16]⟩
abbrev S16384x32 : Shape := ⟨2, ![16384, 32]⟩
abbrev S16384 : Shape := ⟨1, ![16384]⟩
abbrev S64x64 : Shape := ⟨2, ![64, 64]⟩
abbrev S64 : Shape := ⟨1, ![64]⟩
abbrev S64x6 : Shape := ⟨2, ![64, 6]⟩
abbrev S128x64 : Shape := ⟨2, ![128, 64]⟩
abbrev S128 : Shape := ⟨1, ![128]⟩
abbrev S256x256 : Shape := ⟨2, ![256, 256]⟩
abbrev S256 : Shape := ⟨1, ![256]⟩
abbrev S64x128 : Shape := ⟨2, ![64, 128]⟩
abbrev S65536x128 : Shape := ⟨2, ![65536, 128]⟩
abbrev S4096x64 : Shape := ⟨2, ![4096, 64]⟩
abbrev S4096x128 : Shape := ⟨2, ![4096, 128]⟩
abbrev S1x128 : Shape := ⟨2, ![1, 128]⟩
abbrev S_ : Shape := ⟨0, ![]⟩
abbrev S16384x16x1 : Shape := ⟨3, ![16384, 16, 1]⟩
abbrev S16384x16x3 : Shape := ⟨3, ![16384, 16, 3]⟩
abbrev S16384x32x1 : Shape := ⟨3, ![16384, 32, 1]⟩
abbrev S16384x32x3 : Shape := ⟨3, ![16384, 32, 3]⟩
abbrev S16384x1x3 : Shape := ⟨3, ![16384, 1, 3]⟩
abbrev S16384x16x6 : Shape := ⟨3, ![16384, 16, 6]⟩
abbrev S16384x32x6 : Shape := ⟨3, ![16384, 32, 6]⟩
abbrev S16384x16x64 : Shape := ⟨3, ![16384, 16, 64]⟩
abbrev S16384x32x64 : Shape := ⟨3, ![16384, 32, 64]⟩
abbrev S16384x1 : Shape := ⟨2, ![16384, 1]⟩
abbrev S6x64 : Shape := ⟨2, ![6, 64]⟩
abbrev S16384x256 : Shape := ⟨2, ![16384, 256]⟩
abbrev S256x16x6 : Shape := ⟨3, ![256, 16, 6]⟩
abbrev S256x32x6 : Shape := ⟨3, ![256, 32, 6]⟩
abbrev S256x16x64 : Shape := ⟨3, ![256, 16, 64]⟩
abbrev S256x32x64 : Shape := ⟨3, ![256, 32, 64]⟩
abbrev S256x1 : Shape := ⟨2, ![256, 1]⟩
abbrev S4096x6 : Shape := ⟨2, ![4096, 6]⟩
abbrev S1x64 : Shape := ⟨2, ![1, 64]⟩
abbrev S256x1x1 : Shape := ⟨3, ![256, 1, 1]⟩
abbrev S256x16x128 : Shape := ⟨3, ![256, 16, 128]⟩
abbrev S256x128 : Shape := ⟨2, ![256, 128]⟩
abbrev S8192x6 : Shape := ⟨2, ![8192, 6]⟩
abbrev S8192x64 : Shape := ⟨2, ![8192, 64]⟩
abbrev S8192x128 : Shape := ⟨2, ![8192, 128]⟩
abbrev S256x32x128 : Shape := ⟨3, ![256, 32, 128]⟩
abbrev S1x256 : Shape := ⟨2, ![1, 256]⟩

abbrev nBuf : Space → Nat
  | .hbm => 99
  | .vmem => 35
  | .smem => 0
  | _ => 0

abbrev bufTy : (tb : Table) → Fin (tcTables nBuf tb) → BufTy
  | .hbm, ⟨0, _⟩ => ⟨S65536x3, .f32⟩
  | .hbm, ⟨1, _⟩ => ⟨S65536x64, .f32⟩
  | .hbm, ⟨2, _⟩ => ⟨S16384x3, .f32⟩
  | .hbm, ⟨3, _⟩ => ⟨S16384x16, .i32⟩
  | .hbm, ⟨4, _⟩ => ⟨S16384x32, .i32⟩
  | .hbm, ⟨5, _⟩ => ⟨S16384, .i1⟩
  | .hbm, ⟨6, _⟩ => ⟨S16384, .i1⟩
  | .hbm, ⟨7, _⟩ => ⟨S64x64, .f32⟩
  | .hbm, ⟨8, _⟩ => ⟨S64, .f32⟩
  | .hbm, ⟨9, _⟩ => ⟨S64x6, .f32⟩
  | .hbm, ⟨10, _⟩ => ⟨S64, .f32⟩
  | .hbm, ⟨11, _⟩ => ⟨S64, .f32⟩
  | .hbm, ⟨12, _⟩ => ⟨S128x64, .f32⟩
  | .hbm, ⟨13, _⟩ => ⟨S128, .f32⟩
  | .hbm, ⟨14, _⟩ => ⟨S128, .f32⟩
  | .hbm, ⟨15, _⟩ => ⟨S64x64, .f32⟩
  | .hbm, ⟨16, _⟩ => ⟨S64, .f32⟩
  | .hbm, ⟨17, _⟩ => ⟨S64x6, .f32⟩
  | .hbm, ⟨18, _⟩ => ⟨S64, .f32⟩
  | .hbm, ⟨19, _⟩ => ⟨S64, .f32⟩
  | .hbm, ⟨20, _⟩ => ⟨S128x64, .f32⟩
  | .hbm, ⟨21, _⟩ => ⟨S128, .f32⟩
  | .hbm, ⟨22, _⟩ => ⟨S128, .f32⟩
  | .hbm, ⟨23, _⟩ => ⟨S256x256, .f32⟩
  | .hbm, ⟨24, _⟩ => ⟨S256, .f32⟩
  | .hbm, ⟨25, _⟩ => ⟨S256, .f32⟩
  | .hbm, ⟨26, _⟩ => ⟨S128x64, .f32⟩
  | .hbm, ⟨27, _⟩ => ⟨S64x128, .f32⟩
  | .hbm, ⟨28, _⟩ => ⟨S128, .f32⟩
  | .hbm, ⟨29, _⟩ => ⟨S65536x128, .bf16⟩
  | .hbm, ⟨30, _⟩ => ⟨S65536x64, .bf16⟩
  | .hbm, ⟨31, _⟩ => ⟨S65536x64, .bf16⟩
  | .hbm, ⟨32, _⟩ => ⟨S_, .i32⟩
  | .hbm, ⟨33, _⟩ => ⟨S16384x16, .i32⟩
  | .hbm, ⟨34, _⟩ => ⟨S16384x16, .i1⟩
  | .hbm, ⟨35, _⟩ => ⟨S_, .i32⟩
  | .hbm, ⟨36, _⟩ => ⟨S16384x16, .i32⟩
  | .hbm, ⟨37, _⟩ => ⟨S16384x16, .i32⟩
  | .hbm, ⟨38, _⟩ => ⟨S16384x16, .i32⟩
  | .hbm, ⟨39, _⟩ => ⟨S16384x16x1, .i32⟩
  | .hbm, ⟨40, _⟩ => ⟨S16384x16x3, .f32⟩
  | .hbm, ⟨41, _⟩ => ⟨S_, .i32⟩
  | .hbm, ⟨42, _⟩ => ⟨S16384x32, .i32⟩
  | .hbm, ⟨43, _⟩ => ⟨S16384x32, .i1⟩
  | .hbm, ⟨44, _⟩ => ⟨S_, .i32⟩
  | .hbm, ⟨45, _⟩ => ⟨S16384x32, .i32⟩
  | .hbm, ⟨46, _⟩ => ⟨S16384x32, .i32⟩
  | .hbm, ⟨47, _⟩ => ⟨S16384x32, .i32⟩
  | .hbm, ⟨48, _⟩ => ⟨S16384x32x1, .i32⟩
  | .hbm, ⟨49, _⟩ => ⟨S16384x32x3, .f32⟩
  | .hbm, ⟨50, _⟩ => ⟨S16384x1x3, .f32⟩
  | .hbm, ⟨51, _⟩ => ⟨S16384x16x3, .f32⟩
  | .hbm, ⟨52, _⟩ => ⟨S16384x16x3, .f32⟩
  | .hbm, ⟨53, _⟩ => ⟨S16384x16x3, .f32⟩
  | .hbm, ⟨54, _⟩ => ⟨S16384x16x6, .f32⟩
  | .hbm, ⟨55, _⟩ => ⟨S16384x16x6, .bf16⟩
  | .hbm, ⟨56, _⟩ => ⟨S16384x32x3, .f32⟩
  | .hbm, ⟨57, _⟩ => ⟨S16384x32x3, .f32⟩
  | .hbm, ⟨58, _⟩ => ⟨S16384x32x3, .f32⟩
  | .hbm, ⟨59, _⟩ => ⟨S16384x32x6, .f32⟩
  | .hbm, ⟨60, _⟩ => ⟨S16384x32x6, .bf16⟩
  | .hbm, ⟨61, _⟩ => ⟨S_, .i32⟩
  | .hbm, ⟨62, _⟩ => ⟨S16384x16, .i32⟩
  | .hbm, ⟨63, _⟩ => ⟨S16384x16, .i1⟩
  | .hbm, ⟨64, _⟩ => ⟨S_, .i32⟩
  | .hbm, ⟨65, _⟩ => ⟨S16384x16, .i32⟩
  | .hbm, ⟨66, _⟩ => ⟨S16384x16, .i32⟩
  | .hbm, ⟨67, _⟩ => ⟨S16384x16, .i32⟩
  | .hbm, ⟨68, _⟩ => ⟨S16384x16x1, .i32⟩
  | .hbm, ⟨69, _⟩ => ⟨S16384x16x64, .bf16⟩
  | .hbm, ⟨70, _⟩ => ⟨S_, .i32⟩
  | .hbm, ⟨71, _⟩ => ⟨S16384x32, .i32⟩
  | .hbm, ⟨72, _⟩ => ⟨S16384x32, .i1⟩
  | .hbm, ⟨73, _⟩ => ⟨S_, .i32⟩
  | .hbm, ⟨74, _⟩ => ⟨S16384x32, .i32⟩
  | .hbm, ⟨75, _⟩ => ⟨S16384x32, .i32⟩
  | .hbm, ⟨76, _⟩ => ⟨S16384x32, .i32⟩
  | .hbm, ⟨77, _⟩ => ⟨S16384x32x1, .i32⟩
  | .hbm, ⟨78, _⟩ => ⟨S16384x32x64, .bf16⟩
  | .hbm, ⟨79, _⟩ => ⟨S_, .f32⟩
  | .hbm, ⟨80, _⟩ => ⟨S_, .f32⟩
  | .hbm, ⟨81, _⟩ => ⟨S16384, .f32⟩
  | .hbm, ⟨82, _⟩ => ⟨S16384, .f32⟩
  | .hbm, ⟨83, _⟩ => ⟨S16384, .f32⟩
  | .hbm, ⟨84, _⟩ => ⟨S16384, .f32⟩
  | .hbm, ⟨85, _⟩ => ⟨S16384x1, .f32⟩
  | .hbm, ⟨86, _⟩ => ⟨S_, .f32⟩
  | .hbm, ⟨87, _⟩ => ⟨S_, .f32⟩
  | .hbm, ⟨88, _⟩ => ⟨S16384, .f32⟩
  | .hbm, ⟨89, _⟩ => ⟨S16384, .f32⟩
  | .hbm, ⟨90, _⟩ => ⟨S16384, .f32⟩
  | .hbm, ⟨91, _⟩ => ⟨S16384, .f32⟩
  | .hbm, ⟨92, _⟩ => ⟨S16384x1, .f32⟩
  | .hbm, ⟨93, _⟩ => ⟨S6x64, .f32⟩
  | .hbm, ⟨94, _⟩ => ⟨S6x64, .f32⟩
  | .hbm, ⟨95, _⟩ => ⟨S64x128, .f32⟩
  | .hbm, ⟨96, _⟩ => ⟨S64x128, .f32⟩
  | .hbm, ⟨97, _⟩ => ⟨S256x256, .f32⟩
  | .hbm, ⟨98, _⟩ => ⟨S16384x256, .f32⟩
  | .local _ .vmem, ⟨0, _⟩ => ⟨S4096x64, .f32⟩
  | .local _ .vmem, ⟨1, _⟩ => ⟨S4096x64, .f32⟩
  | .local _ .vmem, ⟨2, _⟩ => ⟨S64x128, .f32⟩
  | .local _ .vmem, ⟨3, _⟩ => ⟨S128, .f32⟩
  | .local _ .vmem, ⟨4, _⟩ => ⟨S4096x128, .bf16⟩
  | .local _ .vmem, ⟨5, _⟩ => ⟨S4096x128, .bf16⟩
  | .local _ .vmem, ⟨6, _⟩ => ⟨S256x16x6, .bf16⟩
  | .local _ .vmem, ⟨7, _⟩ => ⟨S256x16x6, .bf16⟩
  | .local _ .vmem, ⟨8, _⟩ => ⟨S256x32x6, .bf16⟩
  | .local _ .vmem, ⟨9, _⟩ => ⟨S256x32x6, .bf16⟩
  | .local _ .vmem, ⟨10, _⟩ => ⟨S256x16x64, .bf16⟩
  | .local _ .vmem, ⟨11, _⟩ => ⟨S256x16x64, .bf16⟩
  | .local _ .vmem, ⟨12, _⟩ => ⟨S256x32x64, .bf16⟩
  | .local _ .vmem, ⟨13, _⟩ => ⟨S256x32x64, .bf16⟩
  | .local _ .vmem, ⟨14, _⟩ => ⟨S256x1, .f32⟩
  | .local _ .vmem, ⟨15, _⟩ => ⟨S256x1, .f32⟩
  | .local _ .vmem, ⟨16, _⟩ => ⟨S256x1, .f32⟩
  | .local _ .vmem, ⟨17, _⟩ => ⟨S256x1, .f32⟩
  | .local _ .vmem, ⟨18, _⟩ => ⟨S6x64, .f32⟩
  | .local _ .vmem, ⟨19, _⟩ => ⟨S64, .f32⟩
  | .local _ .vmem, ⟨20, _⟩ => ⟨S64, .f32⟩
  | .local _ .vmem, ⟨21, _⟩ => ⟨S64x128, .f32⟩
  | .local _ .vmem, ⟨22, _⟩ => ⟨S128, .f32⟩
  | .local _ .vmem, ⟨23, _⟩ => ⟨S128, .f32⟩
  | .local _ .vmem, ⟨24, _⟩ => ⟨S6x64, .f32⟩
  | .local _ .vmem, ⟨25, _⟩ => ⟨S64, .f32⟩
  | .local _ .vmem, ⟨26, _⟩ => ⟨S64, .f32⟩
  | .local _ .vmem, ⟨27, _⟩ => ⟨S64x128, .f32⟩
  | .local _ .vmem, ⟨28, _⟩ => ⟨S128, .f32⟩
  | .local _ .vmem, ⟨29, _⟩ => ⟨S128, .f32⟩
  | .local _ .vmem, ⟨30, _⟩ => ⟨S256x256, .f32⟩
  | .local _ .vmem, ⟨31, _⟩ => ⟨S256, .f32⟩
  | .local _ .vmem, ⟨32, _⟩ => ⟨S256, .f32⟩
  | .local _ .vmem, ⟨33, _⟩ => ⟨S256x256, .f32⟩
  | .local _ .vmem, ⟨34, _⟩ => ⟨S256x256, .f32⟩
  | _, _ => ⟨S65536x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_c : Ref sig .tc := ⟨.hbm, 32, rfl⟩
abbrev main_v6 : Ref sig .tc := ⟨.hbm, 33, rfl⟩
abbrev main_v7 : Ref sig .tc := ⟨.hbm, 34, rfl⟩
abbrev main_c_0 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_c_1 : Ref sig .tc := ⟨.hbm, 41, rfl⟩
abbrev main_v13 : Ref sig .tc := ⟨.hbm, 42, rfl⟩
abbrev main_v14 : Ref sig .tc := ⟨.hbm, 43, rfl⟩
abbrev main_c_2 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_c_3 : Ref sig .tc := ⟨.hbm, 61, rfl⟩
abbrev main_v31 : Ref sig .tc := ⟨.hbm, 62, rfl⟩
abbrev main_v32 : Ref sig .tc := ⟨.hbm, 63, rfl⟩
abbrev main_c_4 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_c_5 : Ref sig .tc := ⟨.hbm, 70, rfl⟩
abbrev main_v38 : Ref sig .tc := ⟨.hbm, 71, rfl⟩
abbrev main_v39 : Ref sig .tc := ⟨.hbm, 72, rfl⟩
abbrev main_c_6 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_cst : Ref sig .tc := ⟨.hbm, 79, rfl⟩
abbrev main_cst_7 : Ref sig .tc := ⟨.hbm, 80, rfl⟩
abbrev main_call0_v0 : Ref sig .tc := ⟨.hbm, 81, rfl⟩
abbrev main_call0_v1 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_cst_8 : Ref sig .tc := ⟨.hbm, 86, rfl⟩
abbrev main_cst_9 : Ref sig .tc := ⟨.hbm, 87, rfl⟩
abbrev main_call1_v0 : Ref sig .tc := ⟨.hbm, 88, rfl⟩
abbrev main_call1_v1 : Ref sig .tc := ⟨.hbm, 89, rfl⟩
abbrev main_v48 : Ref sig .tc := ⟨.hbm, 90, rfl⟩
abbrev main_v49 : Ref sig .tc := ⟨.hbm, 91, rfl⟩
abbrev main_v50 : Ref sig .tc := ⟨.hbm, 92, rfl⟩
abbrev main_v51 : Ref sig .tc := ⟨.hbm, 93, rfl⟩
abbrev main_v52 : Ref sig .tc := ⟨.hbm, 94, rfl⟩
abbrev main_v53 : Ref sig .tc := ⟨.hbm, 95, rfl⟩
abbrev main_v54 : Ref sig .tc := ⟨.hbm, 96, rfl⟩
abbrev main_v55 : Ref sig .tc := ⟨.hbm, 97, rfl⟩
abbrev main_v56 : Ref sig .tc := ⟨.hbm, 98, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg5_1 : Ref sig .tc := ⟨.vmem, 17, rfl⟩
abbrev cc1_stg6_0 : Ref sig .tc := ⟨.vmem, 18, rfl⟩
abbrev cc1_stg7_0 : Ref sig .tc := ⟨.vmem, 19, rfl⟩
abbrev cc1_stg8_0 : Ref sig .tc := ⟨.vmem, 20, rfl⟩
abbrev cc1_stg9_0 : Ref sig .tc := ⟨.vmem, 21, rfl⟩
abbrev cc1_stg10_0 : Ref sig .tc := ⟨.vmem, 22, rfl⟩
abbrev cc1_stg11_0 : Ref sig .tc := ⟨.vmem, 23, rfl⟩
abbrev cc1_stg12_0 : Ref sig .tc := ⟨.vmem, 24, rfl⟩
abbrev cc1_stg13_0 : Ref sig .tc := ⟨.vmem, 25, rfl⟩
abbrev cc1_stg14_0 : Ref sig .tc := ⟨.vmem, 26, rfl⟩
abbrev cc1_stg15_0 : Ref sig .tc := ⟨.vmem, 27, rfl⟩
abbrev cc1_stg16_0 : Ref sig .tc := ⟨.vmem, 28, rfl⟩
abbrev cc1_stg17_0 : Ref sig .tc := ⟨.vmem, 29, rfl⟩
abbrev cc1_stg18_0 : Ref sig .tc := ⟨.vmem, 30, rfl⟩
abbrev cc1_stg19_0 : Ref sig .tc := ⟨.vmem, 31, rfl⟩
abbrev cc1_stg20_0 : Ref sig .tc := ⟨.vmem, 32, rfl⟩
abbrev cc1_stg21_0 : Ref sig .tc := ⟨.vmem, 33, rfl⟩
abbrev cc1_stg21_1 : Ref sig .tc := ⟨.vmem, 34, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem5_1 : DmaSem sig := 17
abbrev cc1_sem6_0 : DmaSem sig := 18
abbrev cc1_sem7_0 : DmaSem sig := 19
abbrev cc1_sem8_0 : DmaSem sig := 20
abbrev cc1_sem9_0 : DmaSem sig := 21
abbrev cc1_sem10_0 : DmaSem sig := 22
abbrev cc1_sem11_0 : DmaSem sig := 23
abbrev cc1_sem12_0 : DmaSem sig := 24
abbrev cc1_sem13_0 : DmaSem sig := 25
abbrev cc1_sem14_0 : DmaSem sig := 26
abbrev cc1_sem15_0 : DmaSem sig := 27
abbrev cc1_sem16_0 : DmaSem sig := 28
abbrev cc1_sem17_0 : DmaSem sig := 29
abbrev cc1_sem18_0 : DmaSem sig := 30
abbrev cc1_sem19_0 : DmaSem sig := 31
abbrev cc1_sem20_0 : DmaSem sig := 32
abbrev cc1_sem21_0 : DmaSem sig := 33
abbrev cc1_sem21_1 : DmaSem sig := 34

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![64], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_8 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_11 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_14 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_15 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_16 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_17 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_18 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_19 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_20 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_21 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x16x6 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x32x6 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x16x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S256x32x64 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S256x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S256x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .vmem S6x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S64x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S128 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S128 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S6x64 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S64 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 1 → Memref sig .tc .vmem S64 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false]

abbrev stage1_15 : Fin 1 → Memref sig .tc .vmem S64x128 .f32 := fun | 0 => Memref.whole cc1_stg15_0 | ⟨_ + 1, h⟩ => absurd h (Nat.not_lt.2 (Nat.le_add_left _ _))
abbrev sem1_15 : Fin 1 → DmaSem sig := fun | 0 => cc1_sem15_0 | ⟨_ + 1, h⟩ => absurd h (Nat.not_lt.2 (Nat.le_add_left _ _))
abbrev reads1_15 : Fin grid1.rank → Bool := ![false]

abbrev stage1_16 : Fin 1 → Memref sig .tc .vmem S128 .f32 := fun | 0 => Memref.whole cc1_stg16_0 | ⟨_ + 1, h⟩ => absurd h (Nat.not_lt.2 (Nat.le_add_left _ _))
abbrev sem1_16 : Fin 1 → DmaSem sig := fun | 0 => cc1_sem16_0 | ⟨_ + 1, h⟩ => absurd h (Nat.not_lt.2 (Nat.le_add_left _ _))
abbrev reads1_16 : Fin grid1.rank → Bool := ![false]

abbrev stage1_17 : Fin 1 → Memref sig .tc .vmem S128 .f32 := fun | 0 => Memref.whole cc1_stg17_0 | ⟨_ + 1, h⟩ => absurd h (Nat.not_lt.2 (Nat.le_add_left _ _))
abbrev sem1_17 : Fin 1 → DmaSem sig := fun | 0 => cc1_sem17_0 | ⟨_ + 1, h⟩ => absurd h (Nat.not_lt.2 (Nat.le_add_left _ _))
abbrev reads1_17 : Fin grid1.rank → Bool := ![false]

abbrev stage1_18 : Fin 1 → Memref sig .tc .vmem S256x256 .f32 := fun | 0 => Memref.whole cc1_stg18_0 | ⟨_ + 1, h⟩ => absurd h (Nat.not_lt.2 (Nat.le_add_left _ _))
abbrev sem1_18 : Fin 1 → DmaSem sig := fun | 0 => cc1_sem18_0 | ⟨_ + 1, h⟩ => absurd h (Nat.not_lt.2 (Nat.le_add_left _ _))
abbrev reads1_18 : Fin grid1.rank → Bool := ![false]

abbrev stage1_19 : Fin 1 → Memref sig .tc .vmem S256 .f32 := fun | 0 => Memref.whole cc1_stg19_0 | ⟨_ + 1, h⟩ => absurd h (Nat.not_lt.2 (Nat.le_add_left _ _))
abbrev sem1_19 : Fin 1 → DmaSem sig := fun | 0 => cc1_sem19_0 | ⟨_ + 1, h⟩ => absurd h (Nat.not_lt.2 (Nat.le_add_left _ _))
abbrev reads1_19 : Fin grid1.rank → Bool := ![false]

abbrev stage1_20 : Fin 1 → Memref sig .tc .vmem S256 .f32 := fun | 0 => Memref.whole cc1_stg20_0 | ⟨_ + 1, h⟩ => absurd h (Nat.not_lt.2 (Nat.le_add_left _ _))
abbrev sem1_20 : Fin 1 → DmaSem sig := fun | 0 => cc1_sem20_0 | ⟨_ + 1, h⟩ => absurd h (Nat.not_lt.2 (Nat.le_add_left _ _))
abbrev reads1_20 : Fin grid1.rank → Bool := ![false]

abbrev stage1_21 : Fin 2 → Memref sig .tc .vmem S256x256 .f32 := fun | 0 => Memref.whole cc1_stg21_0 | 1 => Memref.whole cc1_stg21_1 | ⟨_ + 2, h⟩ => absurd h (Nat.not_lt.2 (Nat.le_add_left _ _))
abbrev sem1_21 : Fin 2 → DmaSem sig := fun | 0 => cc1_sem21_0 | 1 => cc1_sem21_1 | ⟨_ + 2, h⟩ => absurd h (Nat.not_lt.2 (Nat.le_add_left _ _))
abbrev reads1_21 : Fin grid1.rank → Bool := ![true]

class Facts₀ : Prop where
  concatenates_S64x64_S64x64_S128x64_d0 : Shape.Concatenates [S64x64, S64x64] S128x64 0
  transposes_S128x64_S64x128_1_0 : S128x64.Transposes [1, 0] S64x128
  concatenates_S64_S64_S128_d0 : Shape.Concatenates [S64, S64] S128 0
  inb_S4096x64_S4096x64_0_0 : ∀ a, (![0, 0] : Fin 2 → Nat) a + S4096x64.size a ≤ S4096x64.size a
  h_S4096x64 : 0 < S4096x64.numel
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S128_S128_0 : ∀ a, (![0] : Fin 1 → Nat) a + S128.size a ≤ S128.size a
  h_S128 : 0 < S128.numel
  shapeCasts_S128_S128 : S128.ShapeCasts S128
  shapeCasts_S128_S1x128 : S128.ShapeCasts S1x128
  broadcasts_S1x128_S4096x128 : S1x128.Broadcasts S4096x128
  inb_S4096x128_S4096x128_0_0 : ∀ a, (![0, 0] : Fin 2 → Nat) a + S4096x128.size a ≤ S4096x128.size a
  h_S4096x128 : 0 < S4096x128.numel
  packedbf16_S4096x128_S4096x128_0_0 : (Rect.unit (s := S4096x128) ![0, 0] S4096x128.size inb_S4096x128_S4096x128_0_0).PackedRows (EltTy.packing .bf16)
  slices_S65536x128_S65536x64_0_0 : S65536x128.Slices ![0, 0] S65536x64
  slices_S65536x128_S65536x64_0_64 : S65536x128.Slices ![0, 64] S65536x64
  bcast_S_S16384x16 : S_.BroadcastsInDim S16384x16 (![] : Fin 0 → Fin S16384x16.rank)
  bcast_S16384x16_S16384x16x1_0_1 : S16384x16.BroadcastsInDim S16384x16x1 (![0, 1] : Fin 2 → Fin S16384x16x1.rank)
  bcast_S_S16384x32 : S_.BroadcastsInDim S16384x32 (![] : Fin 0 → Fin S16384x32.rank)
  bcast_S16384x32_S16384x32x1_0_1 : S16384x32.BroadcastsInDim S16384x32x1 (![0, 1] : Fin 2 → Fin S16384x32x1.rank)
  bcast_S16384x3_S16384x1x3_0_2 : S16384x3.BroadcastsInDim S16384x1x3 (![0, 2] : Fin 2 → Fin S16384x1x3.rank)
  bcast_S16384x1x3_S16384x16x3_0_1_2 : S16384x1x3.BroadcastsInDim S16384x16x3 (![0, 1, 2] : Fin 3 → Fin S16384x16x3.rank)
  concatenates_S16384x16x3_S16384x16x3_S16384x16x6_d2 : Shape.Concatenates [S16384x16x3, S16384x16x3] S16384x16x6 2
  bcast_S16384x1x3_S16384x32x3_0_1_2 : S16384x1x3.BroadcastsInDim S16384x32x3 (![0, 1, 2] : Fin 3 → Fin S16384x32x3.rank)
  concatenates_S16384x32x3_S16384x32x3_S16384x32x6_d2 : Shape.Concatenates [S16384x32x3, S16384x32x3] S16384x32x6 2
  bcast_S_S16384 : S_.BroadcastsInDim S16384 (![] : Fin 0 → Fin S16384.rank)
  shapeCasts_S16384_S16384x1 : S16384.ShapeCasts S16384x1
  transposes_S64x6_S6x64_1_0 : S64x6.Transposes [1, 0] S6x64
  transposes_S256x256_S256x256_1_0 : S256x256.Transposes [1, 0] S256x256
  inb_S256x16x6_S256x16x6_0_0_0 : ∀ a, (![0, 0, 0] : Fin 3 → Nat) a + S256x16x6.size a ≤ S256x16x6.size a
  h_S256x16x6 : 0 < S256x16x6.numel
  shapeCasts_S256x16x6_S256x16x6 : S256x16x6.ShapeCasts S256x16x6
  shapeCasts_S256x16x6_S4096x6 : S256x16x6.ShapeCasts S4096x6
  inb_S6x64_S6x64_0_0 : ∀ a, (![0, 0] : Fin 2 → Nat) a + S6x64.size a ≤ S6x64.size a
  h_S6x64 : 0 < S6x64.numel
  shapeCasts_S6x64_S6x64 : S6x64.ShapeCasts S6x64
  inb_S64_S64_0 : ∀ a, (![0] : Fin 1 → Nat) a + S64.size a ≤ S64.size a
  h_S64 : 0 < S64.numel
  shapeCasts_S64_S1x64 : S64.ShapeCasts S1x64
  broadcasts_S1x64_S4096x64 : S1x64.Broadcasts S4096x64
  shapeCasts_S4096x64_S256x16x64 : S4096x64.ShapeCasts S256x16x64
  inb_S256x16x64_S256x16x64_0_0_0 : ∀ a, (![0, 0, 0] : Fin 3 → Nat) a + S256x16x64.size a ≤ S256x16x64.size a
  h_S256x16x64 : 0 < S256x16x64.numel
  shapeCasts_S256x16x64_S256x16x64 : S256x16x64.ShapeCasts S256x16x64
  inb_S256x1_S256x1_0_0 : ∀ a, (![0, 0] : Fin 2 → Nat) a + S256x1.size a ≤ S256x1.size a
  h_S256x1 : 0 < S256x1.numel
  shapeCasts_S256x1_S256x1 : S256x1.ShapeCasts S256x1
  shapeCasts_S256x1_S256x1x1 : S256x1.ShapeCasts S256x1x1
  shapeCasts_S256x1x1_S256x1x1 : S256x1x1.ShapeCasts S256x1x1
  broadcasts_S256x1x1_S256x16x64 : S256x1x1.Broadcasts S256x16x64
  shapeCasts_S256x16x64_S4096x64 : S256x16x64.ShapeCasts S4096x64
  shapeCasts_S4096x128_S256x16x128 : S4096x128.ShapeCasts S256x16x128
  reduces_S256x16x128_S256x128 : S256x16x128.Reduces [1] S256x128
  inb_S256x32x6_S256x32x6_0_0_0 : ∀ a, (![0, 0, 0] : Fin 3 → Nat) a + S256x32x6.size a ≤ S256x32x6.size a
  h_S256x32x6 : 0 < S256x32x6.numel
  shapeCasts_S256x32x6_S256x32x6 : S256x32x6.ShapeCasts S256x32x6
  shapeCasts_S256x32x6_S8192x6 : S256x32x6.ShapeCasts S8192x6
  broadcasts_S1x64_S8192x64 : S1x64.Broadcasts S8192x64
  shapeCasts_S8192x64_S256x32x64 : S8192x64.ShapeCasts S256x32x64
  inb_S256x32x64_S256x32x64_0_0_0 : ∀ a, (![0, 0, 0] : Fin 3 → Nat) a + S256x32x64.size a ≤ S256x32x64.size a
  h_S256x32x64 : 0 < S256x32x64.numel
  shapeCasts_S256x32x64_S256x32x64 : S256x32x64.ShapeCasts S256x32x64
  broadcasts_S256x1x1_S256x32x64 : S256x1x1.Broadcasts S256x32x64
  shapeCasts_S256x32x64_S8192x64 : S256x32x64.ShapeCasts S8192x64
  broadcasts_S1x128_S8192x128 : S1x128.Broadcasts S8192x128
  shapeCasts_S8192x128_S256x32x128 : S8192x128.ShapeCasts S256x32x128
  reduces_S256x32x128_S256x128 : S256x32x128.Reduces [1] S256x128
  concatenates_S256x128_S256x128_S256x256_d1 : Shape.Concatenates [S256x128, S256x128] S256x256 1
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256_S256_0 : ∀ a, (![0] : Fin 1 → Nat) a + S256.size a ≤ S256.size a
  h_S256 : 0 < S256.numel
  shapeCasts_S256_S1x256 : S256.ShapeCasts S1x256
  broadcasts_S1x256_S256x256 : S1x256.Broadcasts S256x256
  dot_S4096x64_S64x128_S4096x128_1_0_0_1_n_n_wf : DotDims.WF S4096x64 S64x128 S4096x128 [1] [0] [0] [1] [] []
  gather_S65536x3_S16384x16x1_S16384x16x3_2_0_n_n_0_2_13_wf : GatherDims.WF S65536x3 S16384x16x1 S16384x16x3 [2] [0] [] [0] [] 2 ![1, 3]
  gather_S65536x3_S16384x32x1_S16384x32x3_2_0_n_n_0_2_13_wf : GatherDims.WF S65536x3 S16384x32x1 S16384x32x3 [2] [0] [] [0] [] 2 ![1, 3]
  gather_S65536x64_S16384x16x1_S16384x16x64_2_0_n_n_0_2_164_wf : GatherDims.WF S65536x64 S16384x16x1 S16384x16x64 [2] [0] [] [0] [] 2 ![1, 64]
  gather_S65536x64_S16384x32x1_S16384x32x64_2_0_n_n_0_2_164_wf : GatherDims.WF S65536x64 S16384x32x1 S16384x32x64 [2] [0] [] [0] [] 2 ![1, 64]
  dot_S4096x6_S6x64_S4096x64_1_0_0_1_n_n_wf : DotDims.WF S4096x6 S6x64 S4096x64 [1] [0] [0] [1] [] []
  dot_S8192x6_S6x64_S8192x64_1_0_0_1_n_n_wf : DotDims.WF S8192x6 S6x64 S8192x64 [1] [0] [0] [1] [] []
  dot_S8192x64_S64x128_S8192x128_1_0_0_1_n_n_wf : DotDims.WF S8192x64 S64x128 S8192x128 [1] [0] [0] [1] [] []
  dot_S256x256_S256x256_S256x256_1_0_0_1_n_n_wf : DotDims.WF S256x256 S256x256 S256x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x64.size a ≤ S65536x64.size a
  hwx0_0 : ∀ i : grid0.Coords, EltTy.bits .f32 = 32 ∨ (Rect.block (s := S65536x64) S4096x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x128.size a ≤ S65536x128.size a
  hwx0_3 : ∀ i : grid0.Coords, EltTy.bits .bf16 = 32 ∨ (Rect.block (s := S65536x128) S4096x128.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x16x6.size a ≤ S16384x16x6.size a
  hwx1_0 : ∀ i : grid1.Coords, EltTy.bits .bf16 = 32 ∨ (Rect.block (s := S16384x16x6) S256x16x6.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x32x6.size a ≤ S16384x32x6.size a
  hwx1_1 : ∀ i : grid1.Coords, EltTy.bits .bf16 = 32 ∨ (Rect.block (s := S16384x32x6) S256x32x6.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x16x64.size a ≤ S16384x16x64.size a
  hwx1_2 : ∀ i : grid1.Coords, EltTy.bits .bf16 = 32 ∨ (Rect.block (s := S16384x16x64) S256x16x64.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x32x64.size a ≤ S16384x32x64.size a
  hwx1_3 : ∀ i : grid1.Coords, EltTy.bits .bf16 = 32 ∨ (Rect.block (s := S16384x32x64) S256x32x64.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S256x1.size a ≤ S16384x1.size a
  hwx1_4 : ∀ i : grid1.Coords, EltTy.bits .f32 = 32 ∨ (Rect.block (s := S16384x1) S256x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S256x1.size a ≤ S16384x1.size a
  hwx1_5 : ∀ i : grid1.Coords, EltTy.bits .f32 = 32 ∨ (Rect.block (s := S16384x1) S256x1.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S6x64.size a ≤ S6x64.size a
  hwx1_6 : ∀ i : grid1.Coords, EltTy.bits .f32 = 32 ∨ (Rect.block (s := S6x64) S6x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S64.size a ≤ S64.size a
  hwx1_7 : ∀ i : grid1.Coords, EltTy.bits .f32 = 32 ∨ (Rect.block (s := S64) S64.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S64.size a ≤ S64.size a
  hwx1_8 : ∀ i : grid1.Coords, EltTy.bits .f32 = 32 ∨ (Rect.block (s := S64) S64.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S64x128.size a ≤ S64x128.size a
  hwx1_9 : ∀ i : grid1.Coords, EltTy.bits .f32 = 32 ∨ (Rect.block (s := S64x128) S64x128.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S128.size a ≤ S128.size a
  hwx1_10 : ∀ i : grid1.Coords, EltTy.bits .f32 = 32 ∨ (Rect.block (s := S128) S128.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S128.size a ≤ S128.size a
  hwx1_11 : ∀ i : grid1.Coords, EltTy.bits .f32 = 32 ∨ (Rect.block (s := S128) S128.size (cc1_transform_11 i) (hinb1_11 i)).WholeWords (EltTy.packing .f32)
  hstage1_12 : ∀ j, (stage1_12 j).IsWhole
  nbuf1_12 : grid1.bufCount reads1_12 true = 1
  hreads1_12 : ∀ i i' : grid1.Coords, (∀ a, reads1_12 a = true → i a = i' a) → cc1_transform_12 i = cc1_transform_12 i'
  hinb1_12 : ∀ (i : grid1.Coords) a, (cc1_transform_12 i a + 1) * S6x64.size a ≤ S6x64.size a
  hwx1_12 : ∀ i : grid1.Coords, EltTy.bits .f32 = 32 ∨ (Rect.block (s := S6x64) S6x64.size (cc1_transform_12 i) (hinb1_12 i)).WholeWords (EltTy.packing .f32)
  hstage1_13 : ∀ j, (stage1_13 j).IsWhole
  nbuf1_13 : grid1.bufCount reads1_13 true = 1
  hreads1_13 : ∀ i i' : grid1.Coords, (∀ a, reads1_13 a = true → i a = i' a) → cc1_transform_13 i = cc1_transform_13 i'
  hinb1_13 : ∀ (i : grid1.Coords) a, (cc1_transform_13 i a + 1) * S64.size a ≤ S64.size a
  hwx1_13 : ∀ i : grid1.Coords, EltTy.bits .f32 = 32 ∨ (Rect.block (s := S64) S64.size (cc1_transform_13 i) (hinb1_13 i)).WholeWords (EltTy.packing .f32)
  hstage1_14 : ∀ j, (stage1_14 j).IsWhole
  nbuf1_14 : grid1.bufCount reads1_14 true = 1
  hreads1_14 : ∀ i i' : grid1.Coords, (∀ a, reads1_14 a = true → i a = i' a) → cc1_transform_14 i = cc1_transform_14 i'
  hinb1_14 : ∀ (i : grid1.Coords) a, (cc1_transform_14 i a + 1) * S64.size a ≤ S64.size a
  hwx1_14 : ∀ i : grid1.Coords, EltTy.bits .f32 = 32 ∨ (Rect.block (s := S64) S64.size (cc1_transform_14 i) (hinb1_14 i)).WholeWords (EltTy.packing .f32)
  hstage1_15 : ∀ j, (stage1_15 j).IsWhole
  nbuf1_15 : grid1.bufCount reads1_15 true = 1
  hreads1_15 : ∀ i i' : grid1.Coords, (∀ a, reads1_15 a = true → i a = i' a) → cc1_transform_15 i = cc1_transform_15 i'
  hinb1_15 : ∀ (i : grid1.Coords) a, (cc1_transform_15 i a + 1) * S64x128.size a ≤ S64x128.size a
  hwx1_15 : ∀ i : grid1.Coords, EltTy.bits .f32 = 32 ∨ (Rect.block (s := S64x128) S64x128.size (cc1_transform_15 i) (hinb1_15 i)).WholeWords (EltTy.packing .f32)
  hstage1_16 : ∀ j, (stage1_16 j).IsWhole
  nbuf1_16 : grid1.bufCount reads1_16 true = 1
  hreads1_16 : ∀ i i' : grid1.Coords, (∀ a, reads1_16 a = true → i a = i' a) → cc1_transform_16 i = cc1_transform_16 i'
  hinb1_16 : ∀ (i : grid1.Coords) a, (cc1_transform_16 i a + 1) * S128.size a ≤ S128.size a
  hwx1_16 : ∀ i : grid1.Coords, EltTy.bits .f32 = 32 ∨ (Rect.block (s := S128) S128.size (cc1_transform_16 i) (hinb1_16 i)).WholeWords (EltTy.packing .f32)
  hstage1_17 : ∀ j, (stage1_17 j).IsWhole
  nbuf1_17 : grid1.bufCount reads1_17 true = 1
  hreads1_17 : ∀ i i' : grid1.Coords, (∀ a, reads1_17 a = true → i a = i' a) → cc1_transform_17 i = cc1_transform_17 i'
  hinb1_17 : ∀ (i : grid1.Coords) a, (cc1_transform_17 i a + 1) * S128.size a ≤ S128.size a
  hwx1_17 : ∀ i : grid1.Coords, EltTy.bits .f32 = 32 ∨ (Rect.block (s := S128) S128.size (cc1_transform_17 i) (hinb1_17 i)).WholeWords (EltTy.packing .f32)
  hstage1_18 : ∀ j, (stage1_18 j).IsWhole
  nbuf1_18 : grid1.bufCount reads1_18 true = 1
  hreads1_18 : ∀ i i' : grid1.Coords, (∀ a, reads1_18 a = true → i a = i' a) → cc1_transform_18 i = cc1_transform_18 i'
  hinb1_18 : ∀ (i : grid1.Coords) a, (cc1_transform_18 i a + 1) * S256x256.size a ≤ S256x256.size a
  hwx1_18 : ∀ i : grid1.Coords, EltTy.bits .f32 = 32 ∨ (Rect.block (s := S256x256) S256x256.size (cc1_transform_18 i) (hinb1_18 i)).WholeWords (EltTy.packing .f32)
  hstage1_19 : ∀ j, (stage1_19 j).IsWhole
  nbuf1_19 : grid1.bufCount reads1_19 true = 1
  hreads1_19 : ∀ i i' : grid1.Coords, (∀ a, reads1_19 a = true → i a = i' a) → cc1_transform_19 i = cc1_transform_19 i'
  hinb1_19 : ∀ (i : grid1.Coords) a, (cc1_transform_19 i a + 1) * S256.size a ≤ S256.size a
  hwx1_19 : ∀ i : grid1.Coords, EltTy.bits .f32 = 32 ∨ (Rect.block (s := S256) S256.size (cc1_transform_19 i) (hinb1_19 i)).WholeWords (EltTy.packing .f32)
  hstage1_20 : ∀ j, (stage1_20 j).IsWhole
  nbuf1_20 : grid1.bufCount reads1_20 true = 1
  hreads1_20 : ∀ i i' : grid1.Coords, (∀ a, reads1_20 a = true → i a = i' a) → cc1_transform_20 i = cc1_transform_20 i'
  hinb1_20 : ∀ (i : grid1.Coords) a, (cc1_transform_20 i a + 1) * S256.size a ≤ S256.size a
  hwx1_20 : ∀ i : grid1.Coords, EltTy.bits .f32 = 32 ∨ (Rect.block (s := S256) S256.size (cc1_transform_20 i) (hinb1_20 i)).WholeWords (EltTy.packing .f32)
  hstage1_21 : ∀ j, (stage1_21 j).IsWhole
  nbuf1_21 : grid1.bufCount reads1_21 false = 2
  hreads1_21 : ∀ i i' : grid1.Coords, (∀ a, reads1_21 a = true → i a = i' a) → cc1_transform_21 i = cc1_transform_21 i'
  hinb1_21 : ∀ (i : grid1.Coords) a, (cc1_transform_21 i a + 1) * S256x256.size a ≤ S16384x256.size a
  hwx1_21 : ∀ i : grid1.Coords, EltTy.bits .f32 = 32 ∨ (Rect.block (s := S16384x256) S256x256.size (cc1_transform_21 i) (hinb1_21 i)).WholeWords (EltTy.packing .f32)

variable [Facts₀]

def dot_S4096x64_S64x128_S4096x128_1_0_0_1_n_n : DotDims S4096x64 S64x128 S4096x128 where
  lhsContracting := [1]
  rhsContracting := [0]
  lhsNonContracting := [0]
  rhsNonContracting := [1]
  lhsBatch := []
  rhsBatch := []
  wf := dot_S4096x64_S64x128_S4096x128_1_0_0_1_n_n_wf
def gather_S65536x3_S16384x16x1_S16384x16x3_2_0_n_n_0_2_13 : GatherDims S65536x3 S16384x16x1 S16384x16x3 where
  offsetDims := [2]
  collapsedSliceDims := [0]
  operandBatchingDims := []
  startIndicesBatchingDims := []
  startIndexMap := [0]
  indexVectorDim := 2
  sliceSizes := ![1, 3]
  wf := gather_S65536x3_S16384x16x1_S16384x16x3_2_0_n_n_0_2_13_wf
def gather_S65536x3_S16384x32x1_S16384x32x3_2_0_n_n_0_2_13 : GatherDims S65536x3 S16384x32x1 S16384x32x3 where
  offsetDims := [2]
  collapsedSliceDims := [0]
  operandBatchingDims := []
  startIndicesBatchingDims := []
  startIndexMap := [0]
  indexVectorDim := 2
  sliceSizes := ![1, 3]
  wf := gather_S65536x3_S16384x32x1_S16384x32x3_2_0_n_n_0_2_13_wf
def gather_S65536x64_S16384x16x1_S16384x16x64_2_0_n_n_0_2_164 : GatherDims S65536x64 S16384x16x1 S16384x16x64 where
  offsetDims := [2]
  collapsedSliceDims := [0]
  operandBatchingDims := []
  startIndicesBatchingDims := []
  startIndexMap := [0]
  indexVectorDim := 2
  sliceSizes := ![1, 64]
  wf := gather_S65536x64_S16384x16x1_S16384x16x64_2_0_n_n_0_2_164_wf
def gather_S65536x64_S16384x32x1_S16384x32x64_2_0_n_n_0_2_164 : GatherDims S65536x64 S16384x32x1 S16384x32x64 where
  offsetDims := [2]
  collapsedSliceDims := [0]
  operandBatchingDims := []
  startIndicesBatchingDims := []
  startIndexMap := [0]
  indexVectorDim := 2
  sliceSizes := ![1, 64]
  wf := gather_S65536x64_S16384x32x1_S16384x32x64_2_0_n_n_0_2_164_wf
def dot_S4096x6_S6x64_S4096x64_1_0_0_1_n_n : DotDims S4096x6 S6x64 S4096x64 where
  lhsContracting := [1]
  rhsContracting := [0]
  lhsNonContracting := [0]
  rhsNonContracting := [1]
  lhsBatch := []
  rhsBatch := []
  wf := dot_S4096x6_S6x64_S4096x64_1_0_0_1_n_n_wf
def dot_S8192x6_S6x64_S8192x64_1_0_0_1_n_n : DotDims S8192x6 S6x64 S8192x64 where
  lhsContracting := [1]
  rhsContracting := [0]
  lhsNonContracting := [0]
  rhsNonContracting := [1]
  lhsBatch := []
  rhsBatch := []
  wf := dot_S8192x6_S6x64_S8192x64_1_0_0_1_n_n_wf
def dot_S8192x64_S64x128_S8192x128_1_0_0_1_n_n : DotDims S8192x64 S64x128 S8192x128 where
  lhsContracting := [1]
  rhsContracting := [0]
  lhsNonContracting := [0]
  rhsNonContracting := [1]
  lhsBatch := []
  rhsBatch := []
  wf := dot_S8192x64_S64x128_S8192x128_1_0_0_1_n_n_wf
def dot_S256x256_S256x256_S256x256_1_0_0_1_n_n : DotDims S256x256 S256x256 S256x256 where
  lhsContracting := [1]
  rhsContracting := [0]
  lhsNonContracting := [0]
  rhsNonContracting := [1]
  lhsBatch := []
  rhsBatch := []
  wf := dot_S256x256_S256x256_S256x256_1_0_0_1_n_n_wf

abbrev win0_0 : Pipeline.Window sig grid0 :=
  Pipeline.Window.ofSpec (Memref.whole main_arg1) S4096x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S4096x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v25) S256x16x6.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30) S256x32x6.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v37) S256x16x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v44) S256x32x64.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v47) S256x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v50) S256x1.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v51) S6x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg10) S64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg11) S64.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v53) S64x128.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_arg13) S128.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_arg14) S128.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_v52) S6x64.size cc1_transform_12 reads1_12 false true 1 stage1_12 sem1_12
    hrank1 hreads1_12 hinb1_12 nbuf1_12 (Memref.isWhole_whole _) hwx1_12 hstage1_12

abbrev win1_13 : Pipeline.Window sig grid1 :=
  Pipeline.Window.ofSpec (Memref.whole main_arg18) S64.size cc1_transform_13 reads1_13 false true 1 stage1_13 sem1_13
    hrank1 hreads1_13 hinb1_13 nbuf1_13 (Memref.isWhole_whole _) hwx1_13 hstage1_13

abbrev win1_14 : Pipeline.Window sig grid1 :=
  Pipeline.Window.ofSpec (Memref.whole main_arg19) S64.size cc1_transform_14 reads1_14 false true 1 stage1_14 sem1_14
    hrank1 hreads1_14 hinb1_14 nbuf1_14 (Memref.isWhole_whole _) hwx1_14 hstage1_14

abbrev win1_15 : Pipeline.Window sig grid1 :=
  Pipeline.Window.ofSpec (Memref.whole main_v54) S64x128.size cc1_transform_15 reads1_15 false true 1 stage1_15 sem1_15
    hrank1 hreads1_15 hinb1_15 nbuf1_15 (Memref.isWhole_whole _) hwx1_15 hstage1_15

abbrev win1_16 : Pipeline.Window sig grid1 :=
  Pipeline.Window.ofSpec (Memref.whole main_arg21) S128.size cc1_transform_16 reads1_16 false true 1 stage1_16 sem1_16
    hrank1 hreads1_16 hinb1_16 nbuf1_16 (Memref.isWhole_whole _) hwx1_16 hstage1_16

abbrev win1_17 : Pipeline.Window sig grid1 :=
  Pipeline.Window.ofSpec (Memref.whole main_arg22) S128.size cc1_transform_17 reads1_17 false true 1 stage1_17 sem1_17
    hrank1 hreads1_17 hinb1_17 nbuf1_17 (Memref.isWhole_whole _) hwx1_17 hstage1_17

abbrev win1_18 : Pipeline.Window sig grid1 :=
  Pipeline.Window.ofSpec (Memref.whole main_v55) S256x256.size cc1_transform_18 reads1_18 false true 1 stage1_18 sem1_18
    hrank1 hreads1_18 hinb1_18 nbuf1_18 (Memref.isWhole_whole _) hwx1_18 hstage1_18

abbrev win1_19 : Pipeline.Window sig grid1 :=
  Pipeline.Window.ofSpec (Memref.whole main_arg24) S256.size cc1_transform_19 reads1_19 false true 1 stage1_19 sem1_19
    hrank1 hreads1_19 hinb1_19 nbuf1_19 (Memref.isWhole_whole _) hwx1_19 hstage1_19

abbrev win1_20 : Pipeline.Window sig grid1 :=
  Pipeline.Window.ofSpec (Memref.whole main_arg25) S256.size cc1_transform_20 reads1_20 false true 1 stage1_20 sem1_20
    hrank1 hreads1_20 hinb1_20 nbuf1_20 (Memref.isWhole_whole _) hwx1_20 hstage1_20

abbrev win1_21 : Pipeline.Window sig grid1 :=
  Pipeline.Window.ofSpec (Memref.whole main_v56) S256x256.size cc1_transform_21 reads1_21 true false 2 stage1_21 sem1_21
    hrank1 hreads1_21 hinb1_21 nbuf1_21 (Memref.isWhole_whole _) hwx1_21 hstage1_21

abbrev win1 : Fin 22 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | 14 => win1_14 | 15 => win1_15 | 16 => win1_16 | 17 => win1_17 | 18 => win1_18 | 19 => win1_19 | 20 => win1_20 | 21 => win1_21 | ⟨_ + 22, h⟩ => absurd h (Nat.not_lt.2 (Nat.le_add_left _ _))
abbrev spec1 : Fin 22 → Pipeline.WinSpec sig grid1.rank := fun w => (win1 w).toWinSpec

class Facts : Prop extends Facts₀ where

variable [Facts]
-- ==== ReferenceIdeal.lean ====
abbrev S65536x3 : Shape := ⟨2, ![65536, 3]⟩
abbrev S65536x64 : Shape := ⟨2, ![65536, 64]⟩
abbrev S16384x3 : Shape := ⟨2, ![16384, 3]⟩
abbrev S16384x16 : Shape := ⟨2, ![16384, 16]⟩
abbrev S16384x32 : Shape := ⟨2, ![16384, 32]⟩
abbrev S16384 : Shape := ⟨1, ![16384]⟩
abbrev S64x64 : Shape := ⟨2, ![64, 64]⟩
abbrev S64 : Shape := ⟨1, ![64]⟩
abbrev S64x6 : Shape := ⟨2, ![64, 6]⟩
abbrev S128x64 : Shape := ⟨2, ![128, 64]⟩
abbrev S128 : Shape := ⟨1, ![128]⟩
abbrev S256x256 : Shape := ⟨2, ![256, 256]⟩
abbrev S256 : Shape := ⟨1, ![256]⟩
abbrev S1x64 : Shape := ⟨2, ![1, 64]⟩
abbrev S_ : Shape := ⟨0, ![]⟩
abbrev S16384x16x1 : Shape := ⟨3, ![16384, 16, 1]⟩
abbrev S16384x16x3 : Shape := ⟨3, ![16384, 16, 3]⟩
abbrev S16384x1x3 : Shape := ⟨3, ![16384, 1, 3]⟩
abbrev S16384x16x6 : Shape := ⟨3, ![16384, 16, 6]⟩
abbrev S16384x16x64 : Shape := ⟨3, ![16384, 16, 64]⟩
abbrev S1x1x64 : Shape := ⟨3, ![1, 1, 64]⟩
abbrev S16384x1x1 : Shape := ⟨3, ![16384, 1, 1]⟩
abbrev S16384x16x128 : Shape := ⟨3, ![16384, 16, 128]⟩
abbrev S1x1x128 : Shape := ⟨3, ![1, 1, 128]⟩
abbrev S16384x128 : Shape := ⟨2, ![16384, 128]⟩
abbrev S16384x32x1 : Shape := ⟨3, ![16384, 32, 1]⟩
abbrev S16384x32x3 : Shape := ⟨3, ![16384, 32, 3]⟩
abbrev S16384x32x6 : Shape := ⟨3, ![16384, 32, 6]⟩
abbrev S16384x32x64 : Shape := ⟨3, ![16384, 32, 64]⟩
abbrev S16384x32x128 : Shape := ⟨3, ![16384, 32, 128]⟩
abbrev S16384x256 : Shape := ⟨2, ![16384, 256]⟩
abbrev S1x256 : Shape := ⟨2, ![1, 256]⟩

abbrev nBuf : Space → Nat
  | .hbm => 179
  | .vmem => 0
  | .smem => 0
  | _ => 0

abbrev hbmTy0_0 (i : Nat) : BufTy := match i % 128 with
  | 0 => ⟨S65536x3, .f32⟩
  | 1 => ⟨S65536x64, .f32⟩
  | 2 => ⟨S16384x3, .f32⟩
  | 3 => ⟨S16384x16, .i32⟩
  | 4 => ⟨S16384x32, .i32⟩
  | 5 => ⟨S16384, .i1⟩
  | 6 => ⟨S16384, .i1⟩
  | 7 => ⟨S64x64, .f32⟩
  | 8 => ⟨S64, .f32⟩
  | 9 => ⟨S64x6, .f32⟩
  | 10 => ⟨S64, .f32⟩
  | 11 => ⟨S64, .f32⟩
  | 12 => ⟨S128x64, .f32⟩
  | 13 => ⟨S128, .f32⟩
  | 14 => ⟨S128, .f32⟩
  | 15 => ⟨S64x64, .f32⟩
  | 16 => ⟨S64, .f32⟩
  | 17 => ⟨S64x6, .f32⟩
  | 18 => ⟨S64, .f32⟩
  | 19 => ⟨S64, .f32⟩
  | 20 => ⟨S128x64, .f32⟩
  | 21 => ⟨S128, .f32⟩
  | 22 => ⟨S128, .f32⟩
  | 23 => ⟨S256x256, .f32⟩
  | 24 => ⟨S256, .f32⟩
  | 25 => ⟨S256, .f32⟩
  | 26 => ⟨S64x64, .f32⟩
  | 27 => ⟨S65536x64, .f32⟩
  | 28 => ⟨S1x64, .f32⟩
  | 29 => ⟨S65536x64, .f32⟩
  | 30 => ⟨S65536x64, .f32⟩
  | 31 => ⟨S64x64, .f32⟩
  | 32 => ⟨S65536x64, .f32⟩
  | 33 => ⟨S1x64, .f32⟩
  | 34 => ⟨S65536x64, .f32⟩
  | 35 => ⟨S65536x64, .f32⟩
  | 36 => ⟨S_, .i32⟩
  | 37 => ⟨S16384x16, .i32⟩
  | 38 => ⟨S16384x16, .i1⟩
  | 39 => ⟨S_, .i32⟩
  | 40 => ⟨S16384x16, .i32⟩
  | 41 => ⟨S16384x16, .i32⟩
  | 42 => ⟨S16384x16, .i32⟩
  | 43 => ⟨S16384x16x1, .i32⟩
  | 44 => ⟨S16384x16x3, .f32⟩
  | 45 => ⟨S16384x1x3, .f32⟩
  | 46 => ⟨S16384x16x3, .f32⟩
  | 47 => ⟨S16384x16x3, .f32⟩
  | 48 => ⟨S16384x16x3, .f32⟩
  | 49 => ⟨S16384x16x6, .f32⟩
  | 50 => ⟨S16384x16x64, .f32⟩
  | 51 => ⟨S_, .f32⟩
  | 52 => ⟨S64, .f32⟩
  | 53 => ⟨S64, .f32⟩
  | 54 => ⟨S1x1x64, .f32⟩
  | 55 => ⟨S16384x16x64, .f32⟩
  | 56 => ⟨S16384x16x64, .f32⟩
  | 57 => ⟨S1x1x64, .f32⟩
  | 58 => ⟨S16384x16x64, .f32⟩
  | 59 => ⟨S16384x16x64, .f32⟩
  | 60 => ⟨S16384x16x64, .f32⟩
  | 61 => ⟨S16384x16x64, .f32⟩
  | 62 => ⟨S_, .f32⟩
  | 63 => ⟨S16384x16x64, .f32⟩
  | 64 => ⟨S16384x16x64, .f32⟩
  | 65 => ⟨S_, .f32⟩
  | 66 => ⟨S16384x16x64, .f32⟩
  | 67 => ⟨S16384x16x64, .f32⟩
  | 68 => ⟨S16384x16x64, .f32⟩
  | 69 => ⟨S_, .i32⟩
  | 70 => ⟨S16384x16, .i32⟩
  | 71 => ⟨S16384x16, .i1⟩
  | 72 => ⟨S_, .i32⟩
  | 73 => ⟨S16384x16, .i32⟩
  | 74 => ⟨S16384x16, .i32⟩
  | 75 => ⟨S16384x16, .i32⟩
  | 76 => ⟨S16384x16x1, .i32⟩
  | 77 => ⟨S16384x16x64, .f32⟩
  | 78 => ⟨S16384x16x64, .f32⟩
  | 79 => ⟨S16384x1x1, .i1⟩
  | 80 => ⟨S_, .f32⟩
  | 81 => ⟨S_, .f32⟩
  | 82 => ⟨S16384x16x64, .i1⟩
  | 83 => ⟨S16384x16x64, .f32⟩
  | 84 => ⟨S16384x16x64, .f32⟩
  | 85 => ⟨S16384x16x128, .f32⟩
  | 86 => ⟨S_, .f32⟩
  | 87 => ⟨S128, .f32⟩
  | 88 => ⟨S128, .f32⟩
  | 89 => ⟨S1x1x128, .f32⟩
  | 90 => ⟨S16384x16x128, .f32⟩
  | 91 => ⟨S16384x16x128, .f32⟩
  | 92 => ⟨S1x1x128, .f32⟩
  | 93 => ⟨S16384x16x128, .f32⟩
  | 94 => ⟨S16384x16x128, .f32⟩
  | 95 => ⟨S_, .f32⟩
  | 96 => ⟨S16384x16x128, .f32⟩
  | 97 => ⟨S16384x16x128, .f32⟩
  | 98 => ⟨S_, .f32⟩
  | 99 => ⟨S16384x128, .f32⟩
  | 100 => ⟨S_, .i32⟩
  | 101 => ⟨S16384x32, .i32⟩
  | 102 => ⟨S16384x32, .i1⟩
  | 103 => ⟨S_, .i32⟩
  | 104 => ⟨S16384x32, .i32⟩
  | 105 => ⟨S16384x32, .i32⟩
  | 106 => ⟨S16384x32, .i32⟩
  | 107 => ⟨S16384x32x1, .i32⟩
  | 108 => ⟨S16384x32x3, .f32⟩
  | 109 => ⟨S16384x1x3, .f32⟩
  | 110 => ⟨S16384x32x3, .f32⟩
  | 111 => ⟨S16384x32x3, .f32⟩
  | 112 => ⟨S16384x32x3, .f32⟩
  | 113 => ⟨S16384x32x6, .f32⟩
  | 114 => ⟨S16384x32x64, .f32⟩
  | 115 => ⟨S_, .f32⟩
  | 116 => ⟨S64, .f32⟩
  | 117 => ⟨S64, .f32⟩
  | 118 => ⟨S1x1x64, .f32⟩
  | 119 => ⟨S16384x32x64, .f32⟩
  | 120 => ⟨S16384x32x64, .f32⟩
  | 121 => ⟨S1x1x64, .f32⟩
  | 122 => ⟨S16384x32x64, .f32⟩
  | 123 => ⟨S16384x32x64, .f32⟩
  | 124 => ⟨S16384x32x64, .f32⟩
  | 125 => ⟨S16384x32x64, .f32⟩
  | 126 => ⟨S_, .f32⟩
  | 127 => ⟨S16384x32x64, .f32⟩
  | _ => ⟨S65536x3, .f32⟩

abbrev hbmTy0_1 (i : Nat) : BufTy := match i % 128 with
  | 0 => ⟨S16384x32x64, .f32⟩
  | 1 => ⟨S_, .f32⟩
  | 2 => ⟨S16384x32x64, .f32⟩
  | 3 => ⟨S16384x32x64, .f32⟩
  | 4 => ⟨S16384x32x64, .f32⟩
  | 5 => ⟨S_, .i32⟩
  | 6 => ⟨S16384x32, .i32⟩
  | 7 => ⟨S16384x32, .i1⟩
  | 8 => ⟨S_, .i32⟩
  | 9 => ⟨S16384x32, .i32⟩
  | 10 => ⟨S16384x32, .i32⟩
  | 11 => ⟨S16384x32, .i32⟩
  | 12 => ⟨S16384x32x1, .i32⟩
  | 13 => ⟨S16384x32x64, .f32⟩
  | 14 => ⟨S16384x32x64, .f32⟩
  | 15 => ⟨S16384x1x1, .i1⟩
  | 16 => ⟨S_, .f32⟩
  | 17 => ⟨S_, .f32⟩
  | 18 => ⟨S16384x32x64, .i1⟩
  | 19 => ⟨S16384x32x64, .f32⟩
  | 20 => ⟨S16384x32x64, .f32⟩
  | 21 => ⟨S16384x32x128, .f32⟩
  | 22 => ⟨S_, .f32⟩
  | 23 => ⟨S128, .f32⟩
  | 24 => ⟨S128, .f32⟩
  | 25 => ⟨S1x1x128, .f32⟩
  | 26 => ⟨S16384x32x128, .f32⟩
  | 27 => ⟨S16384x32x128, .f32⟩
  | 28 => ⟨S1x1x128, .f32⟩
  | 29 => ⟨S16384x32x128, .f32⟩
  | 30 => ⟨S16384x32x128, .f32⟩
  | 31 => ⟨S_, .f32⟩
  | 32 => ⟨S16384x32x128, .f32⟩
  | 33 => ⟨S16384x32x128, .f32⟩
  | 34 => ⟨S_, .f32⟩
  | 35 => ⟨S16384x128, .f32⟩
  | 36 => ⟨S16384x256, .f32⟩
  | 37 => ⟨S256x256, .f32⟩
  | 38 => ⟨S16384x256, .f32⟩
  | 39 => ⟨S_, .f32⟩
  | 40 => ⟨S256, .f32⟩
  | 41 => ⟨S256, .f32⟩
  | 42 => ⟨S1x256, .f32⟩
  | 43 => ⟨S16384x256, .f32⟩
  | 44 => ⟨S16384x256, .f32⟩
  | 45 => ⟨S1x256, .f32⟩
  | 46 => ⟨S16384x256, .f32⟩
  | 47 => ⟨S16384x256, .f32⟩
  | 48 => ⟨S_, .f32⟩
  | 49 => ⟨S16384x256, .f32⟩
  | 50 => ⟨S16384x256, .f32⟩
  | _ => ⟨S65536x3, .f32⟩

abbrev hbmTy (i : Nat) : BufTy := match i / 128 with
  | 0 => hbmTy0_0 i
  | 1 => hbmTy0_1 i
  | _ => ⟨S65536x3, .f32⟩

abbrev bufTy : (tb : Table) → Fin (tcTables nBuf tb) → BufTy
  | .hbm, ⟨i, _⟩ => hbmTy i
  | _, _ => ⟨S65536x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_c : Ref sig .tc := ⟨.hbm, 36, rfl⟩
abbrev main_v10 : Ref sig .tc := ⟨.hbm, 37, rfl⟩
abbrev main_v11 : Ref sig .tc := ⟨.hbm, 38, rfl⟩
abbrev main_c_0 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_cst : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_call0_v0 : Ref sig .tc := ⟨.hbm, 60, rfl⟩
abbrev main_call0_v1 : Ref sig .tc := ⟨.hbm, 61, rfl⟩
abbrev main_call0_cst : Ref sig .tc := ⟨.hbm, 62, rfl⟩
abbrev main_call0_v2 : Ref sig .tc := ⟨.hbm, 63, rfl⟩
abbrev main_call0_v3 : Ref sig .tc := ⟨.hbm, 64, rfl⟩
abbrev main_call0_cst_0 : Ref sig .tc := ⟨.hbm, 65, rfl⟩
abbrev main_call0_v4 : Ref sig .tc := ⟨.hbm, 66, rfl⟩
abbrev main_call0_v5 : Ref sig .tc := ⟨.hbm, 67, rfl⟩
abbrev main_v31 : Ref sig .tc := ⟨.hbm, 68, rfl⟩
abbrev main_c_1 : Ref sig .tc := ⟨.hbm, 69, rfl⟩
abbrev main_v32 : Ref sig .tc := ⟨.hbm, 70, rfl⟩
abbrev main_v33 : Ref sig .tc := ⟨.hbm, 71, rfl⟩
abbrev main_c_2 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_v40 : Ref sig .tc := ⟨.hbm, 79, rfl⟩
abbrev main_cst_3 : Ref sig .tc := ⟨.hbm, 80, rfl⟩
abbrev main_call1_v0 : Ref sig .tc := ⟨.hbm, 81, rfl⟩
abbrev main_call1_v1 : Ref sig .tc := ⟨.hbm, 82, rfl⟩
abbrev main_call1_v2 : Ref sig .tc := ⟨.hbm, 83, rfl⟩
abbrev main_v41 : Ref sig .tc := ⟨.hbm, 84, rfl⟩
abbrev main_v42 : Ref sig .tc := ⟨.hbm, 85, rfl⟩
abbrev main_cst_4 : Ref sig .tc := ⟨.hbm, 86, rfl⟩
abbrev main_v43 : Ref sig .tc := ⟨.hbm, 87, rfl⟩
abbrev main_v44 : Ref sig .tc := ⟨.hbm, 88, rfl⟩
abbrev main_v45 : Ref sig .tc := ⟨.hbm, 89, rfl⟩
abbrev main_v46 : Ref sig .tc := ⟨.hbm, 90, rfl⟩
abbrev main_v47 : Ref sig .tc := ⟨.hbm, 91, rfl⟩
abbrev main_v48 : Ref sig .tc := ⟨.hbm, 92, rfl⟩
abbrev main_v49 : Ref sig .tc := ⟨.hbm, 93, rfl⟩
abbrev main_v50 : Ref sig .tc := ⟨.hbm, 94, rfl⟩
abbrev main_call2_cst : Ref sig .tc := ⟨.hbm, 95, rfl⟩
abbrev main_call2_v0 : Ref sig .tc := ⟨.hbm, 96, rfl⟩
abbrev main_v51 : Ref sig .tc := ⟨.hbm, 97, rfl⟩
abbrev main_cst_5 : Ref sig .tc := ⟨.hbm, 98, rfl⟩
abbrev main_v52 : Ref sig .tc := ⟨.hbm, 99, rfl⟩
abbrev main_c_6 : Ref sig .tc := ⟨.hbm, 100, rfl⟩
abbrev main_v53 : Ref sig .tc := ⟨.hbm, 101, rfl⟩
abbrev main_v54 : Ref sig .tc := ⟨.hbm, 102, rfl⟩
abbrev main_c_7 : Ref sig .tc := ⟨.hbm, 103, rfl⟩
abbrev main_v55 : Ref sig .tc := ⟨.hbm, 104, rfl⟩
abbrev main_v56 : Ref sig .tc := ⟨.hbm, 105, rfl⟩
abbrev main_v57 : Ref sig .tc := ⟨.hbm, 106, rfl⟩
abbrev main_v58 : Ref sig .tc := ⟨.hbm, 107, rfl⟩
abbrev main_v59 : Ref sig .tc := ⟨.hbm, 108, rfl⟩
abbrev main_v60 : Ref sig .tc := ⟨.hbm, 109, rfl⟩
abbrev main_v61 : Ref sig .tc := ⟨.hbm, 110, rfl⟩
abbrev main_v62 : Ref sig .tc := ⟨.hbm, 111, rfl⟩
abbrev main_v63 : Ref sig .tc := ⟨.hbm, 112, rfl⟩
abbrev main_v64 : Ref sig .tc := ⟨.hbm, 113, rfl⟩
abbrev main_v65 : Ref sig .tc := ⟨.hbm, 114, rfl⟩
abbrev main_cst_8 : Ref sig .tc := ⟨.hbm, 115, rfl⟩
abbrev main_v66 : Ref sig .tc := ⟨.hbm, 116, rfl⟩
abbrev main_v67 : Ref sig .tc := ⟨.hbm, 117, rfl⟩
abbrev main_v68 : Ref sig .tc := ⟨.hbm, 118, rfl⟩
abbrev main_v69 : Ref sig .tc := ⟨.hbm, 119, rfl⟩
abbrev main_v70 : Ref sig .tc := ⟨.hbm, 120, rfl⟩
abbrev main_v71 : Ref sig .tc := ⟨.hbm, 121, rfl⟩
abbrev main_v72 : Ref sig .tc := ⟨.hbm, 122, rfl⟩
abbrev main_v73 : Ref sig .tc := ⟨.hbm, 123, rfl⟩
abbrev main_call3_v0 : Ref sig .tc := ⟨.hbm, 124, rfl⟩
abbrev main_call3_v1 : Ref sig .tc := ⟨.hbm, 125, rfl⟩
abbrev main_call3_cst : Ref sig .tc := ⟨.hbm, 126, rfl⟩
abbrev main_call3_v2 : Ref sig .tc := ⟨.hbm, 127, rfl⟩
abbrev main_call3_v3 : Ref sig .tc := ⟨.hbm, 128, rfl⟩
abbrev main_call3_cst_0 : Ref sig .tc := ⟨.hbm, 129, rfl⟩
abbrev main_call3_v4 : Ref sig .tc := ⟨.hbm, 130, rfl⟩
abbrev main_call3_v5 : Ref sig .tc := ⟨.hbm, 131, rfl⟩
abbrev main_v74 : Ref sig .tc := ⟨.hbm, 132, rfl⟩
abbrev main_c_9 : Ref sig .tc := ⟨.hbm, 133, rfl⟩
abbrev main_v75 : Ref sig .tc := ⟨.hbm, 134, rfl⟩
abbrev main_v76 : Ref sig .tc := ⟨.hbm, 135, rfl⟩
abbrev main_c_10 : Ref sig .tc := ⟨.hbm, 136, rfl⟩
abbrev main_v77 : Ref sig .tc := ⟨.hbm, 137, rfl⟩
abbrev main_v78 : Ref sig .tc := ⟨.hbm, 138, rfl⟩
abbrev main_v79 : Ref sig .tc := ⟨.hbm, 139, rfl⟩
abbrev main_v80 : Ref sig .tc := ⟨.hbm, 140, rfl⟩
abbrev main_v81 : Ref sig .tc := ⟨.hbm, 141, rfl⟩
abbrev main_v82 : Ref sig .tc := ⟨.hbm, 142, rfl⟩
abbrev main_v83 : Ref sig .tc := ⟨.hbm, 143, rfl⟩
abbrev main_cst_11 : Ref sig .tc := ⟨.hbm, 144, rfl⟩
abbrev main_call4_v0 : Ref sig .tc := ⟨.hbm, 145, rfl⟩
abbrev main_call4_v1 : Ref sig .tc := ⟨.hbm, 146, rfl⟩
abbrev main_call4_v2 : Ref sig .tc := ⟨.hbm, 147, rfl⟩
abbrev main_v84 : Ref sig .tc := ⟨.hbm, 148, rfl⟩
abbrev main_v85 : Ref sig .tc := ⟨.hbm, 149, rfl⟩
abbrev main_cst_12 : Ref sig .tc := ⟨.hbm, 150, rfl⟩
abbrev main_v86 : Ref sig .tc := ⟨.hbm, 151, rfl⟩
abbrev main_v87 : Ref sig .tc := ⟨.hbm, 152, rfl⟩
abbrev main_v88 : Ref sig .tc := ⟨.hbm, 153, rfl⟩
abbrev main_v89 : Ref sig .tc := ⟨.hbm, 154, rfl⟩
abbrev main_v90 : Ref sig .tc := ⟨.hbm, 155, rfl⟩
abbrev main_v91 : Ref sig .tc := ⟨.hbm, 156, rfl⟩
abbrev main_v92 : Ref sig .tc := ⟨.hbm, 157, rfl⟩
abbrev main_v93 : Ref sig .tc := ⟨.hbm, 158, rfl⟩
abbrev main_call5_cst : Ref sig .tc := ⟨.hbm, 159, rfl⟩
abbrev main_call5_v0 : Ref sig .tc := ⟨.hbm, 160, rfl⟩
abbrev main_v94 : Ref sig .tc := ⟨.hbm, 161, rfl⟩
abbrev main_cst_13 : Ref sig .tc := ⟨.hbm, 162, rfl⟩
abbrev main_v95 : Ref sig .tc := ⟨.hbm, 163, rfl⟩
abbrev main_v96 : Ref sig .tc := ⟨.hbm, 164, rfl⟩
abbrev main_v97 : Ref sig .tc := ⟨.hbm, 165, rfl⟩
abbrev main_v98 : Ref sig .tc := ⟨.hbm, 166, rfl⟩
abbrev main_cst_14 : Ref sig .tc := ⟨.hbm, 167, rfl⟩
abbrev main_v99 : Ref sig .tc := ⟨.hbm, 168, rfl⟩
abbrev main_v100 : Ref sig .tc := ⟨.hbm, 169, rfl⟩
abbrev main_v101 : Ref sig .tc := ⟨.hbm, 170, rfl⟩
abbrev main_v102 : Ref sig .tc := ⟨.hbm, 171, rfl⟩
abbrev main_v103 : Ref sig .tc := ⟨.hbm, 172, rfl⟩
abbrev main_v104 : Ref sig .tc := ⟨.hbm, 173, rfl⟩
abbrev main_v105 : Ref sig .tc := ⟨.hbm, 174, rfl⟩
abbrev main_v106 : Ref sig .tc := ⟨.hbm, 175, rfl⟩
abbrev main_call6_cst : Ref sig .tc := ⟨.hbm, 176, rfl⟩
abbrev main_call6_v0 : Ref sig .tc := ⟨.hbm, 177, rfl⟩
abbrev main_v107 : Ref sig .tc := ⟨.hbm, 178, rfl⟩

abbrev nD : Nat := 1
abbrev τ : Topo := Topo.v7x

variable {F : FTy → Type} [FloatOps F]

class Facts₀ : Prop where
  transposes_S64x64_S64x64_1_0 : S64x64.Transposes [1, 0] S64x64
  bcast_S64_S1x64_1 : S64.BroadcastsInDim S1x64 (![1] : Fin 1 → Fin S1x64.rank)
  bcast_S1x64_S65536x64_0_1 : S1x64.BroadcastsInDim S65536x64 (![0, 1] : Fin 2 → Fin S65536x64.rank)
  bcast_S_S16384x16 : S_.BroadcastsInDim S16384x16 (![] : Fin 0 → Fin S16384x16.rank)
  bcast_S16384x16_S16384x16x1_0_1 : S16384x16.BroadcastsInDim S16384x16x1 (![0, 1] : Fin 2 → Fin S16384x16x1.rank)
  bcast_S16384x3_S16384x1x3_0_2 : S16384x3.BroadcastsInDim S16384x1x3 (![0, 2] : Fin 2 → Fin S16384x1x3.rank)
  bcast_S16384x1x3_S16384x16x3_0_1_2 : S16384x1x3.BroadcastsInDim S16384x16x3 (![0, 1, 2] : Fin 3 → Fin S16384x16x3.rank)
  concatenates_S16384x16x3_S16384x16x3_S16384x16x6_d2 : Shape.Concatenates [S16384x16x3, S16384x16x3] S16384x16x6 2
  bcast_S_S64 : S_.BroadcastsInDim S64 (![] : Fin 0 → Fin S64.rank)
  bcast_S64_S1x1x64_2 : S64.BroadcastsInDim S1x1x64 (![2] : Fin 1 → Fin S1x1x64.rank)
  bcast_S1x1x64_S16384x16x64_0_1_2 : S1x1x64.BroadcastsInDim S16384x16x64 (![0, 1, 2] : Fin 3 → Fin S16384x16x64.rank)
  bcast_S_S16384x16x64 : S_.BroadcastsInDim S16384x16x64 (![] : Fin 0 → Fin S16384x16x64.rank)
  bcast_S16384_S16384x1x1_0 : S16384.BroadcastsInDim S16384x1x1 (![0] : Fin 1 → Fin S16384x1x1.rank)
  bcast_S16384x1x1_S16384x16x64_0_1_2 : S16384x1x1.BroadcastsInDim S16384x16x64 (![0, 1, 2] : Fin 3 → Fin S16384x16x64.rank)
  bcast_S_S128 : S_.BroadcastsInDim S128 (![] : Fin 0 → Fin S128.rank)
  bcast_S128_S1x1x128_2 : S128.BroadcastsInDim S1x1x128 (![2] : Fin 1 → Fin S1x1x128.rank)
  bcast_S1x1x128_S16384x16x128_0_1_2 : S1x1x128.BroadcastsInDim S16384x16x128 (![0, 1, 2] : Fin 3 → Fin S16384x16x128.rank)
  bcast_S_S16384x16x128 : S_.BroadcastsInDim S16384x16x128 (![] : Fin 0 → Fin S16384x16x128.rank)
  reducesTo_S16384x16x128_S16384x128_d1 : S16384x16x128.ReducesTo [1] S16384x128
  h_S_ : 0 < S_.numel
  bcast_S_S16384x32 : S_.BroadcastsInDim S16384x32 (![] : Fin 0 → Fin S16384x32.rank)
  bcast_S16384x32_S16384x32x1_0_1 : S16384x32.BroadcastsInDim S16384x32x1 (![0, 1] : Fin 2 → Fin S16384x32x1.rank)
  bcast_S16384x1x3_S16384x32x3_0_1_2 : S16384x1x3.BroadcastsInDim S16384x32x3 (![0, 1, 2] : Fin 3 → Fin S16384x32x3.rank)
  concatenates_S16384x32x3_S16384x32x3_S16384x32x6_d2 : Shape.Concatenates [S16384x32x3, S16384x32x3] S16384x32x6 2
  bcast_S1x1x64_S16384x32x64_0_1_2 : S1x1x64.BroadcastsInDim S16384x32x64 (![0, 1, 2] : Fin 3 → Fin S16384x32x64.rank)
  bcast_S_S16384x32x64 : S_.BroadcastsInDim S16384x32x64 (![] : Fin 0 → Fin S16384x32x64.rank)
  bcast_S16384x1x1_S16384x32x64_0_1_2 : S16384x1x1.BroadcastsInDim S16384x32x64 (![0, 1, 2] : Fin 3 → Fin S16384x32x64.rank)
  bcast_S1x1x128_S16384x32x128_0_1_2 : S1x1x128.BroadcastsInDim S16384x32x128 (![0, 1, 2] : Fin 3 → Fin S16384x32x128.rank)
  bcast_S_S16384x32x128 : S_.BroadcastsInDim S16384x32x128 (![] : Fin 0 → Fin S16384x32x128.rank)
  reducesTo_S16384x32x128_S16384x128_d1 : S16384x32x128.ReducesTo [1] S16384x128
  concatenates_S16384x128_S16384x128_S16384x256_d1 : Shape.Concatenates [S16384x128, S16384x128] S16384x256 1
  transposes_S256x256_S256x256_1_0 : S256x256.Transposes [1, 0] S256x256
  bcast_S_S256 : S_.BroadcastsInDim S256 (![] : Fin 0 → Fin S256.rank)
  bcast_S256_S1x256_1 : S256.BroadcastsInDim S1x256 (![1] : Fin 1 → Fin S1x256.rank)
  bcast_S1x256_S16384x256_0_1 : S1x256.BroadcastsInDim S16384x256 (![0, 1] : Fin 2 → Fin S16384x256.rank)
  bcast_S_S16384x256 : S_.BroadcastsInDim S16384x256 (![] : Fin 0 → Fin S16384x256.rank)
  dot_S65536x64_S64x64_S65536x64_1_0_0_1_n_n_wf : DotDims.WF S65536x64 S64x64 S65536x64 [1] [0] [0] [1] [] []
  gather_S65536x3_S16384x16x1_S16384x16x3_2_0_n_n_0_2_13_wf : GatherDims.WF S65536x3 S16384x16x1 S16384x16x3 [2] [0] [] [0] [] 2 ![1, 3]
  dot_S16384x16x6_S64x6_S16384x16x64_2_1_01_0_n_n_wf : DotDims.WF S16384x16x6 S64x6 S16384x16x64 [2] [1] [0, 1] [0] [] []
  gather_S65536x64_S16384x16x1_S16384x16x64_2_0_n_n_0_2_164_wf : GatherDims.WF S65536x64 S16384x16x1 S16384x16x64 [2] [0] [] [0] [] 2 ![1, 64]
  dot_S16384x16x64_S128x64_S16384x16x128_2_1_01_0_n_n_wf : DotDims.WF S16384x16x64 S128x64 S16384x16x128 [2] [1] [0, 1] [0] [] []
  gather_S65536x3_S16384x32x1_S16384x32x3_2_0_n_n_0_2_13_wf : GatherDims.WF S65536x3 S16384x32x1 S16384x32x3 [2] [0] [] [0] [] 2 ![1, 3]
  dot_S16384x32x6_S64x6_S16384x32x64_2_1_01_0_n_n_wf : DotDims.WF S16384x32x6 S64x6 S16384x32x64 [2] [1] [0, 1] [0] [] []
  gather_S65536x64_S16384x32x1_S16384x32x64_2_0_n_n_0_2_164_wf : GatherDims.WF S65536x64 S16384x32x1 S16384x32x64 [2] [0] [] [0] [] 2 ![1, 64]
  dot_S16384x32x64_S128x64_S16384x32x128_2_1_01_0_n_n_wf : DotDims.WF S16384x32x64 S128x64 S16384x32x128 [2] [1] [0, 1] [0] [] []
  dot_S16384x256_S256x256_S16384x256_1_0_0_1_n_n_wf : DotDims.WF S16384x256 S256x256 S16384x256 [1] [0] [0] [1] [] []

variable [Facts₀]

def dot_S65536x64_S64x64_S65536x64_1_0_0_1_n_n : DotDims S65536x64 S64x64 S65536x64 where
  lhsContracting := [1]
  rhsContracting := [0]
  lhsNonContracting := [0]
  rhsNonContracting := [1]
  lhsBatch := []
  rhsBatch := []
  wf := dot_S65536x64_S64x64_S65536x64_1_0_0_1_n_n_wf
def gather_S65536x3_S16384x16x1_S16384x16x3_2_0_n_n_0_2_13 : GatherDims S65536x3 S16384x16x1 S16384x16x3 where
  offsetDims := [2]
  collapsedSliceDims := [0]
  operandBatchingDims := []
  startIndicesBatchingDims := []
  startIndexMap := [0]
  indexVectorDim := 2
  sliceSizes := ![1, 3]
  wf := gather_S65536x3_S16384x16x1_S16384x16x3_2_0_n_n_0_2_13_wf
def dot_S16384x16x6_S64x6_S16384x16x64_2_1_01_0_n_n : DotDims S16384x16x6 S64x6 S16384x16x64 where
  lhsContracting := [2]
  rhsContracting := [1]
  lhsNonContracting := [0, 1]
  rhsNonContracting := [0]
  lhsBatch := []
  rhsBatch := []
  wf := dot_S16384x16x6_S64x6_S16384x16x64_2_1_01_0_n_n_wf
def gather_S65536x64_S16384x16x1_S16384x16x64_2_0_n_n_0_2_164 : GatherDims S65536x64 S16384x16x1 S16384x16x64 where
  offsetDims := [2]
  collapsedSliceDims := [0]
  operandBatchingDims := []
  startIndicesBatchingDims := []
  startIndexMap := [0]
  indexVectorDim := 2
  sliceSizes := ![1, 64]
  wf := gather_S65536x64_S16384x16x1_S16384x16x64_2_0_n_n_0_2_164_wf
def dot_S16384x16x64_S128x64_S16384x16x128_2_1_01_0_n_n : DotDims S16384x16x64 S128x64 S16384x16x128 where
  lhsContracting := [2]
  rhsContracting := [1]
  lhsNonContracting := [0, 1]
  rhsNonContracting := [0]
  lhsBatch := []
  rhsBatch := []
  wf := dot_S16384x16x64_S128x64_S16384x16x128_2_1_01_0_n_n_wf
def gather_S65536x3_S16384x32x1_S16384x32x3_2_0_n_n_0_2_13 : GatherDims S65536x3 S16384x32x1 S16384x32x3 where
  offsetDims := [2]
  collapsedSliceDims := [0]
  operandBatchingDims := []
  startIndicesBatchingDims := []
  startIndexMap := [0]
  indexVectorDim := 2
  sliceSizes := ![1, 3]
  wf := gather_S65536x3_S16384x32x1_S16384x32x3_2_0_n_n_0_2_13_wf
def dot_S16384x32x6_S64x6_S16384x32x64_2_1_01_0_n_n : DotDims S16384x32x6 S64x6 S16384x32x64 where
  lhsContracting := [2]
  rhsContracting := [1]
  lhsNonContracting := [0, 1]
  rhsNonContracting := [0]
  lhsBatch := []
  rhsBatch := []
  wf := dot_S16384x32x6_S64x6_S16384x32x64_2_1_01_0_n_n_wf
def gather_S65536x64_S16384x32x1_S16384x32x64_2_0_n_n_0_2_164 : GatherDims S65536x64 S16384x32x1 S16384x32x64 where
  offsetDims := [2]
  collapsedSliceDims := [0]
  operandBatchingDims := []
  startIndicesBatchingDims := []
  startIndexMap := [0]
  indexVectorDim := 2
  sliceSizes := ![1, 64]
  wf := gather_S65536x64_S16384x32x1_S16384x32x64_2_0_n_n_0_2_164_wf
def dot_S16384x32x64_S128x64_S16384x32x128_2_1_01_0_n_n : DotDims S16384x32x64 S128x64 S16384x32x128 where
  lhsContracting := [2]
  rhsContracting := [1]
  lhsNonContracting := [0, 1]
  rhsNonContracting := [0]
  lhsBatch := []
  rhsBatch := []
  wf := dot_S16384x32x64_S128x64_S16384x32x128_2_1_01_0_n_n_wf
def dot_S16384x256_S256x256_S16384x256_1_0_0_1_n_n : DotDims S16384x256 S256x256 S16384x256 where
  lhsContracting := [1]
  rhsContracting := [0]
  lhsNonContracting := [0]
  rhsNonContracting := [1]
  lhsBatch := []
  rhsBatch := []
  wf := dot_S16384x256_S256x256_S16384x256_1_0_0_1_n_n_wf

class Facts : Prop extends Facts₀ where

variable [Facts]
-- ==== Proof.KRun.lean ====
/-
  The idealized kernel program's run, with its result named.

  The program is two accelerator regions among stretches of host operations. Its run is the launch theorem for such a
  chain of segments: from any memory with zero counters every weakly fair execution terminates without a fault, and the
  contents of every buffer that outlives the regions are, at the end, the fold `W8` of the segments' effects over the
  launch memory. Reading that fold at the argument arrays gives the frame; reading it ALSO at the result buffer gives
  the statement below: the result holds `W8 m ρ c` at its reference, and the arguments are as launched.
-/
import proofs.«141855_j52682068853185_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting; the result buffer ends at the last
    boundary's contents and every argument array as launched. -/
theorem run_value : θ_run defs (onTc (τ := τ) (main (F := F))) ⟨m, fun _ => 0, ρ⟩ (fun r => ∀ c : Dev nD,
      r.2.mem ((c.tc : Thread nD τ).loc main_v56) = W8 m ρ c (Proc.devRef .tc main_v56)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v56 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c),
       (h c _ (mem_uc main_arg12 (by decide))).trans (W8_main_arg12 m ρ c),
       (h c _ (mem_uc main_arg13 (by decide))).trans (W8_main_arg13 m ρ c),
       (h c _ (mem_uc main_arg14 (by decide))).trans (W8_main_arg14 m ρ c),
       (h c _ (mem_uc main_arg15 (by decide))).trans (W8_main_arg15 m ρ c),
       (h c _ (mem_uc main_arg16 (by decide))).trans (W8_main_arg16 m ρ c),
       (h c _ (mem_uc main_arg17 (by decide))).trans (W8_main_arg17 m ρ c),
       (h c _ (mem_uc main_arg18 (by decide))).trans (W8_main_arg18 m ρ c),
       (h c _ (mem_uc main_arg19 (by decide))).trans (W8_main_arg19 m ρ c),
       (h c _ (mem_uc main_arg20 (by decide))).trans (W8_main_arg20 m ρ c),
       (h c _ (mem_uc main_arg21 (by decide))).trans (W8_main_arg21 m ρ c),
       (h c _ (mem_uc main_arg22 (by decide))).trans (W8_main_arg22 m ρ c),
       (h c _ (mem_uc main_arg23 (by decide))).trans (W8_main_arg23 m ρ c),
       (h c _ (mem_uc main_arg24 (by decide))).trans (W8_main_arg24 m ρ c),
       (h c _ (mem_uc main_arg25 (by decide))).trans (W8_main_arg25 m ρ c)⟩)

end Cert.KernelIdeal.Run

end
-- ==== Proof.Encoder.lean ====
/-
  The mathematics of the encoder, free of any program: a point-set abstraction with two neighbourhood scales.

  For a destination point `m` and a scale with `S` neighbours, each neighbour `s` carries six geometric numbers
  `f6 s c` (the offset to the neighbour and the point's own position) and a gathered feature row `ci s d`.
  The geometric numbers pass through a small linear map, an affine normalisation `x ↦ x · (g · κ) + b` (a batch
  normalisation at evaluation time: `κ` is the fixed scale 1/√(1+ε) as a binary32 constant) and the sigmoid-weighted
  unit `x ↦ x · σ(x)`; the feature row is added; a point flagged as having no neighbours contributes exactly zero.
  A second linear map, the same normalisation and a rectifier follow, and the neighbours are pooled by a maximum
  (from -∞). The two scales' pooled rows are laid side by side (128 + 128 channels) and go through a last linear
  map, normalisation and rectifier. Everything is over the extended reals.
-/
import Idealize.ShloMosaic.PureOps.Ideal
import Mathlib

noncomputable section

namespace Cert.Encoder

open Idealize.ShloMosaic

/-- The normalisation's fixed scale, the binary32 number nearest 1/√(1 + 10⁻⁵), as an extended real. -/
def κ : EReal := Ideal.ofBits .f32 0x3F7FFFAC#32

/-- Evaluation-time batch normalisation of one number: scale by `g · κ`, shift by `b`. -/
def bn (x g b : EReal) : EReal := x * (g * κ) + b

/-- The sigmoid-weighted linear unit `x · σ(x)`, with `σ` the logistic function on the extended reals. -/
def silu (x : EReal) : EReal := x * Ideal.logistic x

/-- One neighbour's feature in channel `d`: the six geometric numbers through the linear map's row `pw`, normalised,
    through `silu`, plus the gathered feature; exactly zero when the point is not kept. -/
def nbr (keep : Prop) [Decidable keep] (f6 : Fin 6 → EReal) (ci : EReal) (pw : Fin 6 → EReal) (pg pb : EReal) : EReal :=
  if keep then silu (bn (∑ c, f6 c * pw c) pg pb) + ci else 0

/-- One channel `h` of a scale's pooled row: every neighbour's 64 features through the second linear map's row `mw`,
    normalised and rectified, then the maximum over the neighbours, from -∞. -/
def pooled {S : ℕ} (x : Fin S → Fin 64 → EReal) (mw : Fin 64 → EReal) (mg mb : EReal) : EReal :=
  Finset.univ.fold max ⊥ (fun s : Fin S => max (bn (∑ d, x s d * mw d) mg mb) 0)

/-- The two pooled rows side by side: channels 0…127 from the first scale, 128…255 from the second. -/
def side (f0 f1 : Fin 128 → EReal) (j : Fin 256) : EReal :=
  if h : j.val < 128 then f0 ⟨j.val, h⟩ else f1 ⟨j.val - 128, by omega⟩

/-- One output channel: the 256 pooled channels through the last linear map's row `ow`, normalised and rectified. -/
def head (feats : Fin 256 → EReal) (ow : Fin 256 → EReal) (og ob : EReal) : EReal :=
  max (bn (∑ j, feats j * ow j) og ob) 0

/-- The encoder's output for ONE destination point, channel `o`, from that point's own data (its neighbours'
    geometric numbers `f60`, `f61` and gathered rows `c0`, `c1` at the two scales, whether it is kept at each scale)
    and the weights (`pKw d c`, `mKw h d`, `ow o j`: output channel first, as the model stores them). -/
def row (keep0 keep1 : Prop) [Decidable keep0] [Decidable keep1]
    (f60 : Fin 16 → Fin 6 → EReal) (f61 : Fin 32 → Fin 6 → EReal)
    (c0 : Fin 16 → Fin 64 → EReal) (c1 : Fin 32 → Fin 64 → EReal)
    (p0w : Fin 64 → Fin 6 → EReal) (p0g p0b : Fin 64 → EReal) (m0w : Fin 128 → Fin 64 → EReal) (m0g m0b : Fin 128 → EReal)
    (p1w : Fin 64 → Fin 6 → EReal) (p1g p1b : Fin 64 → EReal) (m1w : Fin 128 → Fin 64 → EReal) (m1g m1b : Fin 128 → EReal)
    (ow : Fin 256 → Fin 256 → EReal) (og ob : Fin 256 → EReal) (o : Fin 256) : EReal :=
  head (side
      (fun h => pooled (fun s d => nbr keep0 (f60 s) (c0 s d) (p0w d) (p0g d) (p0b d)) (m0w h) (m0g h) (m0b h))
      (fun h => pooled (fun s d => nbr keep1 (f61 s) (c1 s d) (p1w d) (p1g d) (p1b d)) (m1w h) (m1g h) (m1b h)))
    (ow o) (og o) (ob o)

/-- The per-source-point linear layer that produces the rows to be gathered: `∑ c, x c · w c + b`. -/
def fc (x : Fin 64 → EReal) (w : Fin 64 → EReal) (b : EReal) : EReal := (∑ c, x c * w c) + b

/-- The output depends on the two "kept" conditions only through their truth. -/
theorem row_congr_keep {k0 k0' k1 k1' : Prop} [Decidable k0] [Decidable k0'] [Decidable k1] [Decidable k1']
    (h0 : k0 ↔ k0') (h1 : k1 ↔ k1')
    (f60 : Fin 16 → Fin 6 → EReal) (f61 : Fin 32 → Fin 6 → EReal)
    (c0 : Fin 16 → Fin 64 → EReal) (c1 : Fin 32 → Fin 64 → EReal)
    (p0w : Fin 64 → Fin 6 → EReal) (p0g p0b : Fin 64 → EReal) (m0w : Fin 128 → Fin 64 → EReal) (m0g m0b : Fin 128 → EReal)
    (p1w : Fin 64 → Fin 6 → EReal) (p1g p1b : Fin 64 → EReal) (m1w : Fin 128 → Fin 64 → EReal) (m1g m1b : Fin 128 → EReal)
    (ow : Fin 256 → Fin 256 → EReal) (og ob : Fin 256 → EReal) (o : Fin 256) :
    row k0 k1 f60 f61 c0 c1 p0w p0g p0b m0w m0g m0b p1w p1g p1b m1w m1g m1b ow og ob o
      = row k0' k1' f60 f61 c0 c1 p0w p0g p0b m0w m0g m0b p1w p1g p1b m1w m1g m1b ow og ob o := by
  simp only [row, nbr, h0, h1]

end Cert.Encoder

end
-- ==== Proof.LibKeepdims3.lean ====
/-
  Keepdims forms of rank 3 read at an index given by coordinates, and the one-axis reductions of a rank-3
  vector read at the ideal values.

  A reduction that keeps the reduced axis as a unit axis prints as three operations: the reduction itself, a
  shape cast that puts the unit axis back, and a broadcast of the unit axis over the original extent. Read at
  an index `(i, k, j)` the cast and the broadcast only forget the coordinate on the unit axis; the reduction is
  the sum (or the fold of `max`) over that axis's coordinate with the other two held. Each lemma below says this
  for one operation, with the extents `a`, `b`, `c` arbitrary and every index written by its coordinates.
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Keepdims3

open Idealize.ShloMosaic Idealize.ShloMosaic.ValueIdx

variable {α : Type}

/-! ## A unit axis put back by a shape cast -/

/-- An `[a, c]` array cast to `[a, 1, c]` reads, at `(i, u, j)`, the operand at `(i, j)`: both have row-major
    position `i * c + j`. -/
theorem shapeCast_ac_a1c_apply {a c : ℕ} (x : (⟨2, ![a, c]⟩ : Shape).Idx → α)
    (h : (⟨2, ![a, c]⟩ : Shape).ShapeCasts ⟨3, ![a, 1, c]⟩) (i : Fin a) (u : Fin 1) (j : Fin c) :
    shapeCast ⟨3, ![a, 1, c]⟩ x h (ix3 i u j) = x (ix2 i j) :=
  shapeCast_apply x h _ _ (by
    have hu : u.val = 0 := by omega
    rw [Shape.rowMajor_val_three, Shape.rowMajor_val_two]
    show i.val * c + j.val = (i.val * 1 + u.val) * c + j.val
    rw [hu, Nat.mul_one, Nat.add_zero])

/-- An `[a, b]` array cast to `[a, b, 1]` reads, at `(i, j, u)`, the operand at `(i, j)`: both have row-major
    position `i * b + j`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-! ## A unit axis broadcast over an extent -/

/-- An `[a, 1, c]` array broadcast to `[a, b, c]` reads, at `(i, k, j)`, the operand at `(i, 0, j)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (k : Fin b) (j : Fin c) :
    broadcastTo ⟨3, ![a, b, c]⟩ v h (ix3 i k j) = v (ix3 i (0 : Fin 1) j) := by
  refine broadcastTo_apply v h (ix3 i k j) (ix3 i (0 : Fin 1) j) fun ax => ?_
  match ax with
  | ⟨0, _⟩ =>
    show i.val = if a = 1 then 0 else i.val
    split
    · have := i.isLt; omega
    · rfl
  | ⟨1, _⟩ =>
    exact (if_pos rfl).symm
  | ⟨2, _⟩ =>
    show j.val = if c = 1 then 0 else j.val
    split
    · have := j.isLt; omega
    · rfl

/-- An `[a, b, 1]` array broadcast to `[a, b, c]` reads, at `(i, j, k)`, the operand at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ =>
    exact (if_pos rfl).symm

/-- A `[1, b, c]` array broadcast to `[a, b, c]` reads, at `(k, i, j)`, the operand's one matrix at `(i, j)`. -/
theorem broadcastTo_1bc_abc_apply {a b c : ℕ} (v : (⟨3, ![1, b, c]⟩ : Shape).Idx → α)
    (h : (⟨3, ![1, b, c]⟩ : Shape).Broadcasts ⟨3, ![a, b, c]⟩) (k : Fin a) (i : Fin b) (j : Fin c) :
    broadcastTo ⟨3, ![a, b, c]⟩ v h (ix3 k i j) = v (ix3 (0 : Fin 1) i j) := by
  refine broadcastTo_apply v h (ix3 k i j) (ix3 (0 : Fin 1) i j) fun ax => ?_
  match ax with
  | ⟨0, _⟩ =>
    exact (if_pos rfl).symm
  | ⟨1, _⟩ =>
    show i.val = if b = 1 then 0 else i.val
    split
    · have := i.isLt; omega
    · rfl
  | ⟨2, _⟩ =>
    show j.val = if c = 1 then 0 else j.val
    split
    · have := j.isLt; omega
    · rfl

/-! ## The index a one-axis reduction of a rank-3 vector reads -/

/-- Reducing the middle axis: the source index over result index `(i, j)` with middle coordinate `k` is `(i, k, j)`. -/
theorem lift_axis1 {a b c : ℕ} (h : (⟨3, ![a, b, c]⟩ : Shape).Reduces [1] (⟨2, ![a, c]⟩ : Shape)) (i : Fin a) (j : Fin c)
    (k : Fin ((⟨3, ![a, b, c]⟩ : Shape).size 1)) : h.lift (ix2 i j) k = ix3 i (⟨k.val, k.isLt⟩ : Fin b) j := by
  funext e; apply Fin.ext
  fin_cases e <;> rfl

/-- Reducing the last axis: the source index over result index `(i, j)` with last coordinate `k` is `(i, j, k)`. -/
theorem lift_axis2 {a b c : ℕ} (h : (⟨3, ![a, b, c]⟩ : Shape).Reduces [2] (⟨2, ![a, b]⟩ : Shape)) (i : Fin a) (j : Fin b)
    (k : Fin ((⟨3, ![a, b, c]⟩ : Shape).size 2)) : h.lift (ix2 i j) k = ix3 i j (⟨k.val, k.isLt⟩ : Fin c) := by
  funext e; apply Fin.ext
  fin_cases e <;> rfl

/-! ## One-axis reductions of a rank-3 vector at the ideal values -/

/-- The sum over the middle axis, read at `(i, j)`, is `∑ k, src (i, k, j)`. -/
theorem multiReduction_add_axis1_apply {a b c : ℕ} {φ : FTy} (src : FVec Ideal ⟨3, ![a, b, c]⟩ φ) (acc : BitVec φ.bits)
    (h : (⟨3, ![a, b, c]⟩ : Shape).Reduces [1] (⟨2, ![a, c]⟩ : Shape)) (hφ : FKind.Formats φ)
    (hacc : acc = FKind.add.neutral φ hφ) (i : Fin a) (j : Fin c) :
    multiReduction .add [1] ⟨2, ![a, c]⟩ src acc h hφ hacc (ix2 i j) = ∑ k : Fin b, src (ix3 i k j) :=
  (Ideal.multiReduction_add_single src acc h hφ hacc (ix2 i j)).trans
    (Finset.sum_congr rfl fun k _ => congrArg src (lift_axis1 h i j k))

/-- The sum over the last axis, read at `(i, j)`, is `∑ k, src (i, j, k)`. -/
theorem multiReduction_add_axis2_apply {a b c : ℕ} {φ : FTy} (src : FVec Ideal ⟨3, ![a, b, c]⟩ φ) (acc : BitVec φ.bits)
    (h : (⟨3, ![a, b, c]⟩ : Shape).Reduces [2] (⟨2, ![a, b]⟩ : Shape)) (hφ : FKind.Formats φ)
    (hacc : acc = FKind.add.neutral φ hφ) (i : Fin a) (j : Fin b) :
    multiReduction .add [2] ⟨2, ![a, b]⟩ src acc h hφ hacc (ix2 i j) = ∑ k : Fin c, src (ix3 i j k) :=
  (Ideal.multiReduction_add_single src acc h hφ hacc (ix2 i j)).trans
    (Finset.sum_congr rfl fun k _ => congrArg src (lift_axis2 h i j k))

/-- The maximum over the middle axis, read at `(i, j)`, is the fold of `max` from the accumulator's value over
    `src (i, k, j)`. -/
theorem multiReduction_maximumf_axis1_apply {a b c : ℕ} {φ : FTy} (src : FVec Ideal ⟨3, ![a, b, c]⟩ φ) (acc : BitVec φ.bits)
    (h : (⟨3, ![a, b, c]⟩ : Shape).Reduces [1] (⟨2, ![a, c]⟩ : Shape)) (hφ : FKind.Formats φ)
    (hacc : acc = FKind.maximumf.neutral φ hφ) (i : Fin a) (j : Fin c) :
    multiReduction .maximumf [1] ⟨2, ![a, c]⟩ src acc h hφ hacc (ix2 i j)
      = (Finset.univ : Finset (Fin b)).fold max (Ideal.ofBits φ acc) (fun k => src (ix3 i k j)) :=
  (Ideal.multiReduction_maximumf_single src acc h hφ hacc (ix2 i j)).trans
    (congrArg (fun f => (Finset.univ : Finset (Fin b)).fold max (Ideal.ofBits φ acc) f)
      (funext fun k => congrArg src (lift_axis1 h i j k)))

end Cert.Keepdims3

end
-- ==== Proof.LibPlainMatmul.lean ====
/-
  Two families of small facts about arrays read at coordinates, over literal rank-2 and rank-3 shapes of any sizes.

  * A plain rows-by-columns matrix product — the left operand contracted on its columns, the right on its rows, no
    batch axis — into the zero accumulator, over the extended reals: at `(p, q)` it is the sum over the shared axis
    of the products of row `p` of the left operand and column `q` of the right. A product record of any program
    with these dimension numbers unifies with `plainDims` by unfolding, so the lemma applies to it through
    `refine (matmul_zero_plain _ _ _ p q).trans ?_`.
  * Unit axes added by a shape cast (`[a, c] → [a, 1, c]`, `[c] → [1, 1, c]`) and broadcasts along one or two unit
    axes (`[a, 1, c]`, `[1, b, c]`, `[1, 1, c] → [a, b, c]`), each read at explicit coordinates: a unit axis
    contributes nothing to the row-major position, and a broadcast reads its operand at coordinate zero of the
    axes it spreads.
-/
import Idealize.ShloMosaic.Lib.ValueIdx
import Idealize.ShloMosaic.Lib.Pipeline.Value
import Idealize.ShloMosaic.Lib.ValueLayout
import Idealize.ShloMosaic.PureOps.Ideal.Laws

noncomputable section

namespace Cert.LibPlainMatmul

open Idealize.ShloMosaic Idealize.ShloMosaic.ValueIdx
open scoped BigOperators

/-! ## A rows-by-columns product into the zero accumulator -/

/-- The dimension numbers of a plain m × k by k × n product: the left operand contracted on its columns, the right on
    its rows, no batch axis. -/
abbrev plainDims {m k n : Nat} (wf : DotDims.WF (⟨2, ![m, k]⟩ : Shape) ⟨2, ![k, n]⟩ ⟨2, ![m, n]⟩ [1] [0] [0] [1] [] []) :
    DotDims ⟨2, ![m, k]⟩ ⟨2, ![k, n]⟩ ⟨2, ![m, n]⟩ := ⟨[1], [0], [0], [1], [], [], wf⟩

section PlainDims
variable {m k n : Nat} (wf : DotDims.WF (⟨2, ![m, k]⟩ : Shape) ⟨2, ![k, n]⟩ ⟨2, ![m, n]⟩ [1] [0] [0] [1] [] [])

/-- The left operand is read in the result's row … -/
theorem plain_lhs_row (j : (⟨2, ![m, n]⟩ : Shape).Idx) (c : (plainDims wf).contr.Idx) :
    ((plainDims wf).lhsIdx j c 0).val = (j 0).val := by
  unfold DotDims.lhsIdx
  rw [dif_neg (show ¬(0 : Fin (⟨2, ![m, k]⟩ : Shape).rank) ∈ (plainDims wf).lhsBatch from List.not_mem_nil),
    dif_pos (show (0 : Fin (⟨2, ![m, k]⟩ : Shape).rank) ∈ (plainDims wf).lhsNonContracting from List.mem_singleton.mpr rfl)]
  rfl

/-- … and the right operand in the result's column. -/
theorem plain_rhs_col (j : (⟨2, ![m, n]⟩ : Shape).Idx) (c : (plainDims wf).contr.Idx) :
    ((plainDims wf).rhsIdx j c 1).val = (j 1).val := by
  unfold DotDims.rhsIdx
  rw [dif_neg (show ¬(1 : Fin (⟨2, ![k, n]⟩ : Shape).rank) ∈ (plainDims wf).rhsBatch from List.not_mem_nil),
    dif_pos (show (1 : Fin (⟨2, ![k, n]⟩ : Shape).rank) ∈ (plainDims wf).rhsNonContracting from List.mem_singleton.mpr rfl)]
  rfl

/-- Such a product into the zero accumulator reads, at (p, q), the sum over the shared axis of the products of row p
    of the left operand and column q of the right. -/
theorem matmul_zero_plain {φ₁ φ₂ : FTy} (l : FVec Ideal ⟨2, ![m, k]⟩ φ₁) (r : FVec Ideal ⟨2, ![k, n]⟩ φ₂)
    (p : Fin m) (q : Fin n) :
    FloatOps.matmul (plainDims wf) none l r (constant (F := Ideal) ⟨2, ![m, n]⟩ .f32 0x00000000#32) (ix2 p q)
      = ∑ c : Fin k, l (ix2 p c) * r (ix2 c q) := by
  rw [Ideal.matmul_constant_zero_apply, ← Equiv.sum_comp (contrEquiv1 (plainDims wf) k rfl rfl).symm]
  refine Finset.sum_congr rfl fun c _ => ?_
  have hc := contrEquiv1_symm_val (plainDims wf) k rfl rfl c
  have el : (plainDims wf).lhsIdx (ix2 p q) ((contrEquiv1 (plainDims wf) k rfl rfl).symm c) = ix2 p c :=
    funext fun a => Fin.ext (by
      match a with
      | ⟨0, _⟩ => exact plain_lhs_row wf _ _
      | ⟨1, _⟩ => exact ((plainDims wf).lhsIdx_val_of_single rfl _ _).trans hc)
  have er : (plainDims wf).rhsIdx (ix2 p q) ((contrEquiv1 (plainDims wf) k rfl rfl).symm c) = ix2 c q :=
    funext fun a => Fin.ext (by
      match a with
      | ⟨0, _⟩ => exact ((plainDims wf).rhsIdx_val_of_single rfl _ _).trans hc
      | ⟨1, _⟩ => exact plain_rhs_col wf _ _)
  rw [el, er]

end PlainDims

/-! ## Unit axes added, and broadcasts along an axis, read at coordinates -/

section Layout
variable {α : Type}

/-- An [a, c] array cast to [a, 1, c] reads, at (p, z, s), the operand at (p, s). -/
theorem shapeCast_ac_a1c_apply {a c : ℕ} (x : (⟨2, ![a, c]⟩ : Shape).Idx → α)
    (h : (⟨2, ![a, c]⟩ : Shape).ShapeCasts ⟨3, ![a, 1, c]⟩) (p : Fin a) (z : Fin 1) (s : Fin c) :
    shapeCast ⟨3, ![a, 1, c]⟩ x h (ix3 p z s) = x (ix2 p s) :=
  shapeCast_apply x h _ _ (by
    have hz : z.val = 0 := by omega
    rw [Shape.rowMajor_val_three, Shape.rowMajor_val_two]
    show p.val * c + s.val = (p.val * 1 + z.val) * c + s.val
    rw [hz, Nat.mul_one, Nat.add_zero])

/-- A [c] array cast to [1, 1, c] reads, at (y, z, s), the operand at s. -/
theorem shapeCast_c_11c_apply {c : ℕ} (x : (⟨1, ![c]⟩ : Shape).Idx → α)
    (h : (⟨1, ![c]⟩ : Shape).ShapeCasts ⟨3, ![1, 1, c]⟩) (y z : Fin 1) (s : Fin c) :
    shapeCast ⟨3, ![1, 1, c]⟩ x h (ix3 y z s) = x (ix1 s) :=
  shapeCast_apply x h _ _ (by
    have hy : y.val = 0 := by omega
    have hz : z.val = 0 := by omega
    rw [Shape.rowMajor_val_three, Shape.rowMajor_val_one]
    show s.val = (y.val * 1 + z.val) * c + s.val
    simp only [hy, hz, Nat.zero_mul, Nat.zero_add, Nat.mul_one])

/-- An [a, 1, c] array broadcast to [a, b, c] reads, at (p, q, s), the operand at (p, 0, s). -/
theorem broadcastTo_a1c_abc_apply {a b c : ℕ} (x : (⟨3, ![a, 1, c]⟩ : Shape).Idx → α)
    (h : (⟨3, ![a, 1, c]⟩ : Shape).Broadcasts ⟨3, ![a, b, c]⟩) (p : Fin a) (q : Fin b) (s : Fin c) :
    broadcastTo ⟨3, ![a, b, c]⟩ x h (ix3 p q s) = x (ix3 p (0 : Fin 1) s) := by
  refine broadcastTo_apply x h (ix3 p q s) (ix3 p (0 : Fin 1) s) fun ax => ?_
  match ax with
  | ⟨0, _⟩ =>
    show p.val = if a = 1 then 0 else p.val
    split
    · have := p.isLt; omega
    · rfl
  | ⟨1, _⟩ => rfl
  | ⟨2, _⟩ =>
    show s.val = if c = 1 then 0 else s.val
    split
    · have := s.isLt; omega
    · rfl

/-- A [1, b, c] array broadcast to [a, b, c] reads, at (p, q, s), the operand at (0, q, s). -/
theorem broadcastTo_1bc_abc_apply {a b c : ℕ} (x : (⟨3, ![1, b, c]⟩ : Shape).Idx → α)
    (h : (⟨3, ![1, b, c]⟩ : Shape).Broadcasts ⟨3, ![a, b, c]⟩) (p : Fin a) (q : Fin b) (s : Fin c) :
    broadcastTo ⟨3, ![a, b, c]⟩ x h (ix3 p q s) = x (ix3 (0 : Fin 1) q s) := by
  refine broadcastTo_apply x h (ix3 p q s) (ix3 (0 : Fin 1) q s) fun ax => ?_
  match ax with
  | ⟨0, _⟩ => rfl
  | ⟨1, _⟩ =>
    show q.val = if b = 1 then 0 else q.val
    split
    · have := q.isLt; omega
    · rfl
  | ⟨2, _⟩ =>
    show s.val = if c = 1 then 0 else s.val
    split
    · have := s.isLt; omega
    · rfl

/-- A [1, 1, c] array broadcast to [a, b, c] reads, at (p, q, s), the operand at (0, 0, s). -/
theorem broadcastTo_11c_abc_apply {a b c : ℕ} (x : (⟨3, ![1, 1, c]⟩ : Shape).Idx → α)
    (h : (⟨3, ![1, 1, c]⟩ : Shape).Broadcasts ⟨3, ![a, b, c]⟩) (p : Fin a) (q : Fin b) (s : Fin c) :
    broadcastTo ⟨3, ![a, b, c]⟩ x h (ix3 p q s) = x (ix3 (0 : Fin 1) (0 : Fin 1) s) := by
  refine broadcastTo_apply x h (ix3 p q s) (ix3 (0 : Fin 1) (0 : Fin 1) s) fun ax => ?_
  match ax with
  | ⟨0, _⟩ => rfl
  | ⟨1, _⟩ => rfl
  | ⟨2, _⟩ =>
    show s.val = if c = 1 then 0 else s.val
    split
    · have := s.isLt; omega
    · rfl

end Layout

end Cert.LibPlainMatmul

end
-- ==== Proof.LibConcat2.lean ====
/-
  A concatenation of two arrays, named.

  The printed programs write a two-operand `concatenate` over a list of two (shape, array) pairs, and the shape fact it
  takes is stated about that list, so its type mentions the two arrays. Naming the concatenation as a function of the
  two arrays, with the shape fact stated about the two shapes alone, makes the arrays ordinary arguments on which
  nothing else depends, which rewriting reaches.
-/
import Idealize.ShloMosaic.PureOps.ShapeOps

namespace Cert.LibConcat2

open Idealize.ShloMosaic

/-- The concatenation of `x` (of shape `s₁`) and `y` (of shape `s₂`) along axis `a` into shape `t`. -/
def concat2 {α : Type} (t : Shape) (a : Fin t.rank) (s₁ s₂ : Shape) (h : Shape.Concatenates [s₁, s₂] t a)
    (x : s₁.Idx → α) (y : s₂.Idx → α) : t.Idx → α :=
  concatenate t a [⟨s₁, x⟩, ⟨s₂, y⟩] h

/-- A two-operand `concatenate` is `concat2` of its operands. -/
theorem concatenate_pair {α : Type} (t : Shape) (a : Fin t.rank) (s₁ s₂ : Shape) (x : s₁.Idx → α) (y : s₂.Idx → α)
    (h : Shape.Concatenates (List.map (fun p : (s : Shape) × (s.Idx → α) => p.1) [⟨s₁, x⟩, ⟨s₂, y⟩]) t a) :
    concatenate t a [⟨s₁, x⟩, ⟨s₂, y⟩] h = concat2 t a s₁ s₂ h x y := rfl

end Cert.LibConcat2
-- ==== Proof.BodyRow.lean ====
import proofs.«141855_j52682068853185_2_alg».proof.Proof.Gen.KernelIdeal.Frame
import proofs.«141855_j52682068853185_2_alg».proof.Proof.Encoder
import proofs.«141855_j52682068853185_2_alg».proof.Proof.LibKeepdims3
import proofs.«141855_j52682068853185_2_alg».proof.Proof.LibPlainMatmul
import proofs.«141855_j52682068853185_2_alg».proof.Proof.LibConcat2

/-!
  The fused encoder body, read one output entry at a time.

  The body takes a block of 256 destination points. For each of the two neighbourhood scales it flattens the
  (point, neighbour) pairs into the rows of a matrix, applies a 6 → 64 linear map, an affine normalisation and the
  sigmoid-weighted unit, adds the gathered features, zeroes the rows of points that are not kept, applies a
  64 → 128 linear map, the normalisation and a rectifier, and pools over the neighbours by a maximum. The two pooled
  rows are laid side by side and go through a last 256 → 256 linear map, normalisation and rectifier.

  Every step is either pointwise, or a relabelling of indices (a row `p * S + s` of the flattened matrix is the pair
  `(p, s)`), or a sum over the contracted axis of a matrix product, or a maximum over the neighbour axis. Reading the
  result at the entry `(p, o)` therefore gives exactly the specification's `row` at the data of point `p`.
-/

noncomputable section

namespace Cert.KernelIdeal.BodyValue

open Idealize.ShloMosaic Idealize.ShloMosaic.ValueIdx Cert.KernelIdeal Cert.KernelIdeal.Gen
open Cert.Encoder
open scoped BigOperators

/-! ## Relabellings of indices -/

section Layout
variable {α : Type}

/-- A matrix with `n = a * b` rows viewed as an `[a, b, c]` array: the entry `(p, s, d)` is row `p * b + s`, column `d`. -/
theorem shapeCast_rows_split_apply {n a b c : ℕ} (x : (⟨2, ![n, c]⟩ : Shape).Idx → α)
    (h : (⟨2, ![n, c]⟩ : Shape).ShapeCasts ⟨3, ![a, b, c]⟩) (p : Fin a) (s : Fin b) (d : Fin c)
    (hlt : p.val * b + s.val < n) :
    shapeCast ⟨3, ![a, b, c]⟩ x h (ix3 p s d) = x (ix2 ⟨p.val * b + s.val, hlt⟩ d) :=
  shapeCast_apply x h _ _ (by
    rw [Shape.rowMajor_val_three, Shape.rowMajor_val_two]
    rfl)

/-- An `[a, b, c]` array viewed as a matrix with `n = a * b` rows: row `p * b + s`, column `d` is the entry `(p, s, d)`. -/
theorem shapeCast_rows_merge_apply {n a b c : ℕ} (x : (⟨3, ![a, b, c]⟩ : Shape).Idx → α)
    (h : (⟨3, ![a, b, c]⟩ : Shape).ShapeCasts ⟨2, ![n, c]⟩) (p : Fin a) (s : Fin b) (d : Fin c)
    (hlt : p.val * b + s.val < n) :
    shapeCast ⟨2, ![n, c]⟩ x h (ix2 ⟨p.val * b + s.val, hlt⟩ d) = x (ix3 p s d) :=
  shapeCast_apply x h _ _ (by
    rw [Shape.rowMajor_val_three, Shape.rowMajor_val_two]
    rfl)

/-- A vector of `c` numbers laid as one row and repeated over `n` rows: the entry `(r, d)` is the vector's entry `d`. -/
theorem rowBroadcast_apply {n c : ℕ} (v : (⟨1, ![c]⟩ : Shape).Idx → α)
    (h₁ : (⟨1, ![c]⟩ : Shape).ShapeCasts ⟨2, ![1, c]⟩) (h₂ : (⟨2, ![1, c]⟩ : Shape).Broadcasts ⟨2, ![n, c]⟩)
    (r : Fin n) (d : Fin c) :
    broadcastTo ⟨2, ![n, c]⟩ (shapeCast ⟨2, ![1, c]⟩ v h₁) h₂ (ix2 r d) = v (ix1 d) :=
  (broadcastTo_1b_ab_apply _ h₂ r d).trans (shapeCast_a_1a_apply v h₁ 0 d)

/-- An `[a, 1, 1]` array repeated over the two unit axes: the entry `(p, s, d)` is the operand's entry `(p, 0, 0)`. -/
theorem broadcastTo_a11_abc_apply {a b c : ℕ} (v : (⟨3, ![a, 1, 1]⟩ : Shape).Idx → α)
    (h : (⟨3, ![a, 1, 1]⟩ : Shape).Broadcasts ⟨3, ![a, b, c]⟩) (p : Fin a) (s : Fin b) (d : Fin c) :
    broadcastTo ⟨3, ![a, b, c]⟩ v h (ix3 p s d) = v (ix3 p (0 : Fin 1) (0 : Fin 1)) := by
  refine broadcastTo_apply v h (ix3 p s d) (ix3 p (0 : Fin 1) (0 : Fin 1)) fun ax => ?_
  match ax with
  | ⟨0, _⟩ =>
    show p.val = if a = 1 then 0 else p.val
    split
    · have := p.isLt; omega
    · rfl
  | ⟨1, _⟩ => rfl
  | ⟨2, _⟩ => rfl

end Layout

/-! ## The constants -/

/-- The word `0xFF800000` is -∞. -/
theorem ofBits_negInf : Ideal.ofBits .f32 0xFF800000#32 = (⊥ : EReal) := by simp [Ideal.ofBits, Ideal.ieee]

/-- The comparison "differs from zero" followed by a selection against zero is an `if`. -/
theorem select_ne_zero (a x : EReal) :
    Scalar.select (Ideal.cmp .one a (Ideal.ofBits .f32 0x00000000#32)) x (Ideal.ofBits .f32 0x00000000#32)
      = if a ≠ 0 then x else 0 := by
  rw [Ideal.ofBits_zero_f32]
  unfold Ideal.cmp
  by_cases h : a ≠ 0
  · rw [if_pos h, decide_eq_true h]; exact select_one _ _
  · rw [if_neg h, decide_eq_false h]; exact select_zero _ _

/-! ## The kept flag, as the body spreads it -/

/-- The flag column viewed as `[256, 1, 1]`: the entry `(p, 0, 0)` is the flag of point `p`. -/
theorem flag_apply (v77 : Vec Ideal S256x1 .f32) (p : Fin 256) :
    k1_pay4 (F := Ideal) v77 (ix3 p (0 : Fin 1) (0 : Fin 1)) = v77 (ix2 p (0 : Fin 1)) := by
  unfold k1_pay4
  rw [shapeCast_self, shapeCast_self]
  exact Cert.Keepdims3.shapeCast_ab_ab1_apply _ _ p 0 0

/-! ## Steps shared by every stage -/

/-- The logistic function applied entry by entry. -/
theorem logistic_apply {s : Shape} {φ : FTy} (a : FVec Ideal s φ) (i : s.Idx) : logistic a i = Ideal.logistic (a i) := rfl

/-- Row `p * 16 + s` of the flattened 16-neighbour matrices. -/
abbrev row16 (p : Fin 256) (s : Fin 16) : Fin 4096 := ⟨p.val * 16 + s.val, by have := p.isLt; have := s.isLt; omega⟩

/-- Row `p * 32 + s` of the flattened 32-neighbour matrices. -/
abbrev row32 (p : Fin 256) (s : Fin 32) : Fin 8192 := ⟨p.val * 32 + s.val, by have := p.isLt; have := s.isLt; omega⟩

/-- The affine normalisation of a matrix by per-column scale `g · κ` and shift `b`, read at `(r, d)`. -/
theorem affine_apply {n c : ℕ} (lin : FVec Ideal ⟨2, ![n, c]⟩ .f32) (g b : FVec Ideal ⟨1, ![c]⟩ .f32)
    (h₁ : (⟨1, ![c]⟩ : Shape).ShapeCasts ⟨2, ![1, c]⟩) (h₂ : (⟨2, ![1, c]⟩ : Shape).Broadcasts ⟨2, ![n, c]⟩)
    (r : Fin n) (d : Fin c) :
    addf (mulf lin (broadcastTo ⟨2, ![n, c]⟩
            (shapeCast ⟨2, ![1, c]⟩ (mulf g (broadcast ⟨1, ![c]⟩ (Scalar.ofBits .f32 0x3F7FFFAC#32))) h₁) h₂))
        (broadcastTo ⟨2, ![n, c]⟩ (shapeCast ⟨2, ![1, c]⟩ b h₁) h₂) (ix2 r d)
      = bn (lin (ix2 r d)) (g (ix1 d)) (b (ix1 d)) := by
  show lin (ix2 r d) * broadcastTo ⟨2, ![n, c]⟩ (shapeCast ⟨2, ![1, c]⟩ _ h₁) h₂ (ix2 r d)
      + broadcastTo ⟨2, ![n, c]⟩ (shapeCast ⟨2, ![1, c]⟩ b h₁) h₂ (ix2 r d) = _
  rw [rowBroadcast_apply, rowBroadcast_apply]
  rfl

/-- A linear map applied to the rows of a flattened `[a, b, k]` array: row `p * b + s`, column `q` of the product is
    the sum over the contracted axis of entry `(p, s, c)` times the weight `(c, q)`. -/
theorem linear_rows_apply {N a b k n : ℕ} {φ₁ φ₂ : FTy}
    (wf : DotDims.WF (⟨2, ![N, k]⟩ : Shape) ⟨2, ![k, n]⟩ ⟨2, ![N, n]⟩ [1] [0] [0] [1] [] [])
    (x : FVec Ideal ⟨3, ![a, b, k]⟩ φ₁) (w : FVec Ideal ⟨2, ![k, n]⟩ φ₂)
    (h : (⟨3, ![a, b, k]⟩ : Shape).ShapeCasts ⟨2, ![N, k]⟩) (p : Fin a) (s : Fin b) (q : Fin n)
    (hlt : p.val * b + s.val < N) :
    matmul (Cert.LibPlainMatmul.plainDims wf) none (shapeCast ⟨2, ![N, k]⟩ x h) w
        (constant (F := Ideal) ⟨2, ![N, n]⟩ .f32 0x00000000#32) (ix2 ⟨p.val * b + s.val, hlt⟩ q)
      = ∑ c : Fin k, x (ix3 p s c) * w (ix2 c q) :=
  (Cert.LibPlainMatmul.matmul_zero_plain wf _ _ _ q).trans
    (Finset.sum_congr rfl fun c _ => congrArg (· * w (ix2 c q)) (shapeCast_rows_merge_apply x h p s c hlt))

/-- The same with the flattened array first rounded to the narrower format, which over the extended reals changes
    nothing. -/
theorem linear_rows_trunc_apply {N a b k n : ℕ} {φ₂ : FTy}
    (wf : DotDims.WF (⟨2, ![N, k]⟩ : Shape) ⟨2, ![k, n]⟩ ⟨2, ![N, n]⟩ [1] [0] [0] [1] [] [])
    (x : FVec Ideal ⟨3, ![a, b, k]⟩ .f32) (w : FVec Ideal ⟨2, ![k, n]⟩ φ₂)
    (h : (⟨3, ![a, b, k]⟩ : Shape).ShapeCasts ⟨2, ![N, k]⟩) (hb : FTy.bits .bf16 < FTy.bits .f32)
    (p : Fin a) (s : Fin b) (q : Fin n) (hlt : p.val * b + s.val < N) :
    matmul (Cert.LibPlainMatmul.plainDims wf) none (truncf .bf16 (shapeCast ⟨2, ![N, k]⟩ x h) hb) w
        (constant (F := Ideal) ⟨2, ![N, n]⟩ .f32 0x00000000#32) (ix2 ⟨p.val * b + s.val, hlt⟩ q)
      = ∑ c : Fin k, x (ix3 p s c) * w (ix2 c q) :=
  (Cert.LibPlainMatmul.matmul_zero_plain wf _ _ _ q).trans
    (Finset.sum_congr rfl fun c _ => congrArg (· * w (ix2 c q)) (shapeCast_rows_merge_apply x h p s c hlt))

/-! ## The first stage at one (point, neighbour, channel) -/

/-- The 32-neighbour scale before the kept flag: the six geometric numbers through the linear map, normalised,
    through the sigmoid-weighted unit, plus the gathered feature. -/
theorem feat32_apply (v53 : Vec Ideal S256x32x6 .bf16) (v56 : Vec Ideal S6x64 .f32) (v60 v66 : Vec Ideal S64 .f32)
    (v73 : Vec Ideal S256x32x64 .bf16) (p : Fin 256) (s : Fin 32) (d : Fin 64) :
    k1_pay3 (F := Ideal) v53 v56 v60 v66 v73 (ix3 p s d)
      = silu (bn (∑ c : Fin 6, v53 (ix3 p s c) * v56 (ix2 c d)) (v60 (ix1 d)) (v66 (ix1 d))) + v73 (ix3 p s d) := by
  unfold k1_pay3
  refine congrArg₂ (· + ·) ?_ (congrFun (shapeCast_self v73 _) _)
  refine (shapeCast_rows_split_apply _ _ p s d (row32 p s).isLt).trans ?_
  unfold silu
  refine congrArg (fun x : EReal => x * Ideal.logistic x) ?_
  refine (affine_apply _ v60 v66 _ _ (row32 p s) d).trans (congrArg (fun x : EReal => bn x _ _) ?_)
  refine (linear_rows_apply _ _ _ _ p s d (row32 p s).isLt).trans (Finset.sum_congr rfl fun c _ => ?_)
  exact congrArg₂ (· * ·) (congrFun (shapeCast_self v53 _) _) (congrFun (shapeCast_self v56 _) _)

/-- The kept flag spread over neighbours and channels, then "differs from zero" and a selection against zero: the
    entry is kept when the point's flag is not zero, and is zero otherwise. -/
theorem masked_apply {b c : ℕ} (flag : FVec Ideal ⟨3, ![256, 1, 1]⟩ .f32) (x : FVec Ideal ⟨3, ![256, b, c]⟩ .f32)
    (h : (⟨3, ![256, 1, 1]⟩ : Shape).Broadcasts ⟨3, ![256, b, c]⟩) (p : Fin 256) (s : Fin b) (d : Fin c) :
    select (cmpf .one (broadcastTo ⟨3, ![256, b, c]⟩ flag h) (broadcast ⟨3, ![256, b, c]⟩ (Scalar.ofBits .f32 0x00000000#32)))
        x (broadcast ⟨3, ![256, b, c]⟩ (Scalar.ofBits .f32 0x00000000#32)) (ix3 p s d)
      = if flag (ix3 p (0 : Fin 1) (0 : Fin 1)) ≠ 0 then x (ix3 p s d) else 0 := by
  refine (select_ne_zero _ _).trans ?_
  rw [broadcastTo_a11_abc_apply flag h p s d]

/-- The 16-neighbour scale up to the second linear map: row `p * 16 + s`, channel `h` is the sum over the 64
    features of neighbour `s` of point `p` (zero when the point is not kept) times the weights. -/
theorem lin16_apply (v0 : Vec Ideal S256x16x6 .bf16) (v3 : Vec Ideal S6x64 .f32) (v7 v13 : Vec Ideal S64 .f32)
    (v20 : Vec Ideal S256x16x64 .bf16) (v24 : Vec Ideal S256x1 .f32) (v35 : Vec Ideal S64x128 .f32)
    (p : Fin 256) (s : Fin 16) (h : Fin 128) :
    k1_pay1 (F := Ideal) v0 v3 v7 v13 v20 v24 v35 (ix2 (row16 p s) h)
      = ∑ d : Fin 64, nbr ((v24 (ix2 p (0 : Fin 1)) : EReal) ≠ 0) (fun c => v0 (ix3 p s c)) (v20 (ix3 p s d))
            (fun c => v3 (ix2 c d)) (v7 (ix1 d)) (v13 (ix1 d)) * v35 (ix2 d h) := by
  unfold k1_pay1
  refine (linear_rows_trunc_apply _ _ _ _ _ p s h (row16 p s).isLt).trans (Finset.sum_congr rfl fun d _ => ?_)
  refine congrArg₂ (· * ·) ?_ (congrFun (shapeCast_self v35 _) _)
  refine (masked_apply _ _ _ p s d).trans ?_
  unfold nbr
  refine if_congr (Iff.of_eq (congrArg (fun a : EReal => a ≠ 0) (flag_apply v24 p))) ?_ rfl
  refine congrArg₂ (· + ·) ?_ (congrFun (shapeCast_self v20 _) _)
  refine (shapeCast_rows_split_apply _ _ p s d (row16 p s).isLt).trans ?_
  unfold silu
  refine congrArg (fun x : EReal => x * Ideal.logistic x) ?_
  refine (affine_apply _ v7 v13 _ _ (row16 p s) d).trans (congrArg (fun x : EReal => bn x _ _) ?_)
  refine (linear_rows_apply _ _ _ _ p s d (row16 p s).isLt).trans (Finset.sum_congr rfl fun c _ => ?_)
  exact congrArg₂ (· * ·) (congrFun (shapeCast_self v0 _) _) (congrFun (shapeCast_self v3 _) _)

/-! ## The second stage: normalise, rectify, pool over the neighbours -/

/-- The 16-neighbour pooled row: channel `h` of point `p` is the maximum, from -∞, over the neighbours of the
    normalised and rectified entries of rows `p * 16 + s`. -/
theorem pooled16_apply (v38 : FVec Ideal S4096x128 .f32) (v39 v45 : Vec Ideal S128 .f32) (p : Fin 256) (h : Fin 128) :
    k1_pay2 (F := Ideal) v38 v39 v45 (ix2 p h)
      = Finset.univ.fold max ⊥ (fun s : Fin 16 => max (bn (v38 (ix2 (row16 p s) h)) (v39 (ix1 h)) (v45 (ix1 h))) 0) := by
  unfold k1_pay2
  refine (Cert.Keepdims3.multiReduction_maximumf_axis1_apply _ _ _ _ _ p h).trans ?_
  rw [ofBits_negInf]
  refine congrArg (Finset.univ.fold max ⊥) (funext fun s => ?_)
  refine (shapeCast_rows_split_apply _ _ p s h (row16 p s).isLt).trans ?_
  refine congrArg₂ max ?_ Ideal.ofBits_zero_f32
  exact affine_apply v38 v39 v45 _ _ (row16 p s) h

/-! ## The two pooled rows side by side, and the last stage -/

/-- Two 128-channel rows laid side by side, read at channel `j`. -/
theorem concat_side_apply (x y : FVec Ideal S256x128 .f32)
    (hc : Shape.Concatenates [S256x128, S256x128] S256x256 1) (p j : Fin 256) :
    concatenate S256x256 1 [⟨S256x128, x⟩, ⟨S256x128, y⟩] hc (ix2 p j)
      = side (fun h => x (ix2 p h)) (fun h => y (ix2 p h)) j := by
  unfold side
  split
  · next hj =>
    exact concatenate_pair_apply_left (t := S256x256) (s₁ := S256x128) (s₂ := S256x128) (1 : Fin 2) x y hc (ix2 p j) rfl
      (ix2 p ⟨j.val, hj⟩) (fun b => by match b with | ⟨0, _⟩ => rfl | ⟨1, _⟩ => rfl)
  · next hj =>
    exact concatenate_pair_apply_right (t := S256x256) (s₁ := S256x128) (s₂ := S256x128) (1 : Fin 2) x y hc (ix2 p j) rfl rfl
      (ix2 p ⟨j.val - 128, by have := j.isLt; omega⟩)
      (fun b hb => by match b, hb with | ⟨0, _⟩, _ => rfl | ⟨1, _⟩, hb => exact absurd rfl hb)
      (by show (j.val - 128) + 128 = j.val; omega)

/-- The last stage at `(p, o)`: the first scale's pooled row beside the second scale's (the masked features through
    the second linear map, normalised, rectified and pooled), through the last linear map, normalised and rectified. -/
theorem head_apply (v52 : FVec Ideal S256x128 .f32) (v76 : FVec Ideal S256x32x64 .f32) (v80 : FVec Ideal S256x1x1 .f32)
    (v88 : Vec Ideal S64x128 .f32) (v92 v98 : Vec Ideal S128 .f32) (v108 : Vec Ideal S256x256 .f32)
    (v112 v118 : Vec Ideal S256 .f32) (p o : Fin 256) :
    k1_pay5 (F := Ideal) v52 v76 v80 v88 v92 v98 v108 v112 v118 (ix2 p o)
      = head (side (fun h => v52 (ix2 p h))
            (fun h => Finset.univ.fold max ⊥ (fun s : Fin 32 =>
              max (bn (∑ d : Fin 64, (if v80 (ix3 p (0 : Fin 1) (0 : Fin 1)) ≠ 0 then v76 (ix3 p s d) else 0) * v88 (ix2 d h))
                (v92 (ix1 h)) (v98 (ix1 h))) 0)))
          (fun j => v108 (ix2 j o)) (v112 (ix1 o)) (v118 (ix1 o)) := by
  unfold k1_pay5 head
  refine congrArg₂ max ?_ Ideal.ofBits_zero_f32
  refine (affine_apply _ v112 v118 _ _ p o).trans (congrArg (fun x : EReal => bn x _ _) ?_)
  refine (Cert.LibPlainMatmul.matmul_zero_plain _ _ _ p o).trans (Finset.sum_congr rfl fun j _ => ?_)
  refine congrArg₂ (· * ·) ?_ (congrFun (shapeCast_self v108 _) _)
  refine (truncf_apply (ψ := .bf16) (φ := .f32) _ bitsLt_bf16_f32 (ix2 p j)).trans ((concat_side_apply _ _ _ p j).trans ?_)
  refine congrArg (fun f => side (fun h => v52 (ix2 p h)) f j) (funext fun h => ?_)
  refine (Cert.Keepdims3.multiReduction_maximumf_axis1_apply _ _ _ _ _ p h).trans ?_
  rw [ofBits_negInf]
  refine congrArg (Finset.univ.fold max ⊥) (funext fun s => ?_)
  refine (shapeCast_rows_split_apply _ _ p s h (row32 p s).isLt).trans ?_
  refine congrArg₂ max ?_ Ideal.ofBits_zero_f32
  refine (affine_apply _ v92 v98 _ _ (row32 p s) h).trans (congrArg (fun x : EReal => bn x _ _) ?_)
  refine (linear_rows_trunc_apply _ _ _ _ _ p s h (row32 p s).isLt).trans (Finset.sum_congr rfl fun d _ => ?_)
  exact congrArg₂ (· * ·) (masked_apply v80 v76 _ p s d) (congrFun (shapeCast_self v88 _) _)

/-! ## The whole body at one output entry -/

/-- The output block after the body, read at point `p` of the block and channel `o`, is the encoder's output for that
    point from the point's own rows of the input blocks and the weights. -/
theorem out_row
    (x0 : Vec Ideal S256x16x6 .bf16) (x1 : Vec Ideal S256x32x6 .bf16) (x2 : Vec Ideal S256x16x64 .bf16) (x3 : Vec Ideal S256x32x64 .bf16)
    (x4 x5 : Vec Ideal S256x1 .f32) (x6 : Vec Ideal S6x64 .f32) (x7 x8 : Vec Ideal S64 .f32) (x9 : Vec Ideal S64x128 .f32) (x10 x11 : Vec Ideal S128 .f32)
    (x12 : Vec Ideal S6x64 .f32) (x13 x14 : Vec Ideal S64 .f32) (x15 : Vec Ideal S64x128 .f32) (x16 x17 : Vec Ideal S128 .f32)
    (x18 : Vec Ideal S256x256 .f32) (x19 x20 : Vec Ideal S256 .f32) (p o : Fin 256) :
    Gen.out1_21 (F := Ideal) x0 x1 x2 x3 x4 x5 x6 x7 x8 x9 x10 x11 x12 x13 x14 x15 x16 x17 x18 x19 x20 (ix2 p o)
      = Cert.Encoder.row ((x4 (ix2 p (0 : Fin 1)) : EReal) ≠ 0) ((x5 (ix2 p (0 : Fin 1)) : EReal) ≠ 0)
          (fun s c => x0 (ix3 p s c)) (fun s c => x1 (ix3 p s c)) (fun s d => x2 (ix3 p s d)) (fun s d => x3 (ix3 p s d))
          (fun d c => x6 (ix2 c d)) (fun d => x7 (ix1 d)) (fun d => x8 (ix1 d)) (fun h d => x9 (ix2 d h)) (fun h => x10 (ix1 h)) (fun h => x11 (ix1 h))
          (fun d c => x12 (ix2 c d)) (fun d => x13 (ix1 d)) (fun d => x14 (ix1 d)) (fun h d => x15 (ix2 d h)) (fun h => x16 (ix1 h)) (fun h => x17 (ix1 h))
          (fun o' j => x18 (ix2 j o')) (fun o' => x19 (ix1 o')) (fun o' => x20 (ix1 o')) o := by
  have hz3 : (![0, 0, 0] : Fin 3 → ℕ) = fun _ => 0 := by funext a; fin_cases a <;> rfl
  have hz2 : (![0, 0] : Fin 2 → ℕ) = fun _ => 0 := by funext a; fin_cases a <;> rfl
  have hz1 : (![0] : Fin 1 → ℕ) = fun _ => 0 := by funext a; fin_cases a <;> rfl
  unfold Gen.out1_21
  rw [View.canon_unit_zero hz2]
  simp only [View.ld_unit_zero (S := S256x16x6) hz3, View.ld_unit_zero (S := S256x32x6) hz3,
    View.ld_unit_zero (S := S256x16x64) hz3, View.ld_unit_zero (S := S256x32x64) hz3,
    View.ld_unit_zero (S := S256x1) hz2, View.ld_unit_zero (S := S6x64) hz2, View.ld_unit_zero (S := S64x128) hz2,
    View.ld_unit_zero (S := S256x256) hz2, View.ld_unit_zero (S := S64) hz1, View.ld_unit_zero (S := S128) hz1,
    View.ld_unit_zero (S := S256) hz1]
  refine (head_apply _ _ _ x15 x16 x17 x18 x19 x20 p o).trans ?_
  unfold row
  refine congrArg (fun f => head f _ _ _) ?_
  refine congrArg₂ side (funext fun h => ?_) (funext fun h => ?_)
  · refine (pooled16_apply _ x10 x11 p h).trans ?_
    unfold pooled
    refine congrArg (Finset.univ.fold max ⊥) (funext fun s => ?_)
    exact congrArg (fun x : EReal => max (bn x _ _) 0) (lin16_apply x0 x6 x7 x8 x2 x4 x9 p s h)
  · unfold pooled
    refine congrArg (Finset.univ.fold max ⊥) (funext fun s => ?_)
    refine congrArg (fun x : EReal => max (bn x _ _) 0) (Finset.sum_congr rfl fun d _ => ?_)
    refine congrArg (· * x15 (ix2 d h)) ?_
    unfold nbr
    refine if_congr (Iff.of_eq (congrArg (fun a : EReal => a ≠ 0) (flag_apply x5 p))) ?_ rfl
    exact feat32_apply x1 x12 x13 x14 x3 p s d

end Cert.KernelIdeal.BodyValue

end
-- ==== Proof.KBlocks.lean ====
/-
  From the second region's blocks to its whole result array.

  The region's grid has 64 points; point t handles the 256 destination points t·256 … t·256 + 255: its blocks of the
  neighbour arrays, of the "kept" columns and of the result are those rows, and its blocks of the weights and of the
  normalisation vectors are the whole arrays. What the body leaves in the result's block at (p, o) is the encoder's
  output for destination point t·256 + p, channel o, computed from the region's operand arrays at that row; the 64 blocks
  tile the [16384, 256] result, so after the region it holds the encoder's output everywhere.
-/
import proofs.«141855_j52682068853185_2_alg».proof.Proof.Gen.KernelIdeal.Frame
import proofs.«141855_j52682068853185_2_alg».proof.Proof.BodyRow
import proofs.«141855_j52682068853185_2_alg».proof.Proof.Encoder
import Idealize.ShloMosaic.Lib.ValueIdx
import Idealize.ShloMosaic.Lib.Pipeline.Value

set_option maxRecDepth 16384

noncomputable section

namespace Cert.KernelIdeal.Blocks

open Cert.KernelIdeal Cert.KernelIdeal.Gen
open Idealize.ShloMosaic Idealize.ShloMosaic.TcCoe Idealize.SL.Sem Idealize.ShloMosaic.ValueIdx

/-! ## The printed index maps, decided over the 64 grid points -/

/-- The row-blocked windows move with the grid point on their first axis and sit at block 0 on the others. -/
theorem idx_rows : ∀ t : Fin cfg1.N,
    win1_0.index t (0 : Fin 3) = t.val
    ∧ win1_0.index t (1 : Fin 3) = 0
    ∧ win1_0.index t (2 : Fin 3) = 0
    ∧ win1_1.index t (0 : Fin 3) = t.val
    ∧ win1_1.index t (1 : Fin 3) = 0
    ∧ win1_1.index t (2 : Fin 3) = 0
    ∧ win1_2.index t (0 : Fin 3) = t.val
    ∧ win1_2.index t (1 : Fin 3) = 0
    ∧ win1_2.index t (2 : Fin 3) = 0
    ∧ win1_3.index t (0 : Fin 3) = t.val
    ∧ win1_3.index t (1 : Fin 3) = 0
    ∧ win1_3.index t (2 : Fin 3) = 0
    ∧ win1_4.index t (0 : Fin 2) = t.val
    ∧ win1_4.index t (1 : Fin 2) = 0
    ∧ win1_5.index t (0 : Fin 2) = t.val
    ∧ win1_5.index t (1 : Fin 2) = 0 :=
  (by decide +kernel : ∀ t : Fin grid1.N, _)

/-- The weights' and vectors' windows are the whole arrays at every point. -/
theorem idx_whole : ∀ t : Fin cfg1.N,
    win1_6.index t (0 : Fin 2) = 0
    ∧ win1_6.index t (1 : Fin 2) = 0
    ∧ win1_7.index t (0 : Fin 1) = 0
    ∧ win1_8.index t (0 : Fin 1) = 0
    ∧ win1_9.index t (0 : Fin 2) = 0
    ∧ win1_9.index t (1 : Fin 2) = 0
    ∧ win1_10.index t (0 : Fin 1) = 0
    ∧ win1_11.index t (0 : Fin 1) = 0
    ∧ win1_12.index t (0 : Fin 2) = 0
    ∧ win1_12.index t (1 : Fin 2) = 0
    ∧ win1_13.index t (0 : Fin 1) = 0
    ∧ win1_14.index t (0 : Fin 1) = 0
    ∧ win1_15.index t (0 : Fin 2) = 0
    ∧ win1_15.index t (1 : Fin 2) = 0
    ∧ win1_16.index t (0 : Fin 1) = 0
    ∧ win1_17.index t (0 : Fin 1) = 0
    ∧ win1_18.index t (0 : Fin 2) = 0
    ∧ win1_18.index t (1 : Fin 2) = 0
    ∧ win1_19.index t (0 : Fin 1) = 0
    ∧ win1_20.index t (0 : Fin 1) = 0 :=
  (by decide +kernel : ∀ t : Fin grid1.N, _)

/-- The result's window moves with the grid point on its rows. -/
theorem idx_out : ∀ t : Fin cfg1.N, win1_21.index t (0 : Fin 2) = t.val ∧ win1_21.index t (1 : Fin 2) = 0 :=
  (by decide +kernel : ∀ t : Fin grid1.N, _)

/-- The destination point that row p of point t's blocks stands for. -/
def rowOf (t : Fin cfg1.N) (p : Fin 256) : Fin 16384 := ⟨t.val * 256 + p.val, by
  have h1 : t.val < 64 := lt_of_lt_of_eq t.isLt N_1
  have h2 := p.isLt
  omega⟩

variable (V : (c : Dev nD) → (b : Ref sig .tc) → Buf (Elt Ideal) ((c : Thread nD τ).loc b)) (c : Dev nD)

/-! ## Each input window's block, read where the array has it -/

theorem blk0 (t : Fin cfg1.N) (p : Fin 256) (s : Fin 16) (k : Fin 6) :
    iblk1 V c 0 t (ix3 p s k) = (V c main_v25 : S16384x16x6.Idx → EReal) (ix3 (rowOf t p) s k) := by
  obtain ⟨e0, e1, e2, -, -, -, -, -, -, -, -, -, -, -, -, -⟩ := idx_rows t
  show (V c main_v25 : S16384x16x6.Idx → EReal) (((cfg1.win 0).blk t).view.emb (ix3 p s k)) = _
  congr 1
  funext a; apply Fin.ext
  match a with
  | ⟨0, _⟩ => show win1_0.index t (0 : Fin 3) * 256 + 1 * p.val = t.val * 256 + p.val; rw [e0]; omega
  | ⟨1, _⟩ => show win1_0.index t (1 : Fin 3) * 16 + 1 * s.val = s.val; rw [e1]; omega
  | ⟨2, _⟩ => show win1_0.index t (2 : Fin 3) * 6 + 1 * k.val = k.val; rw [e2]; omega

theorem blk1 (t : Fin cfg1.N) (p : Fin 256) (s : Fin 32) (k : Fin 6) :
    iblk1 V c 1 t (ix3 p s k) = (V c main_v30 : S16384x32x6.Idx → EReal) (ix3 (rowOf t p) s k) := by
  obtain ⟨-, -, -, e0, e1, e2, -, -, -, -, -, -, -, -, -, -⟩ := idx_rows t
  show (V c main_v30 : S16384x32x6.Idx → EReal) (((cfg1.win 1).blk t).view.emb (ix3 p s k)) = _
  congr 1
  funext a; apply Fin.ext
  match a with
  | ⟨0, _⟩ => show win1_1.index t (0 : Fin 3) * 256 + 1 * p.val = t.val * 256 + p.val; rw [e0]; omega
  | ⟨1, _⟩ => show win1_1.index t (1 : Fin 3) * 32 + 1 * s.val = s.val; rw [e1]; omega
  | ⟨2, _⟩ => show win1_1.index t (2 : Fin 3) * 6 + 1 * k.val = k.val; rw [e2]; omega

theorem blk2 (t : Fin cfg1.N) (p : Fin 256) (s : Fin 16) (k : Fin 64) :
    iblk1 V c 2 t (ix3 p s k) = (V c main_v37 : S16384x16x64.Idx → EReal) (ix3 (rowOf t p) s k) := by
  obtain ⟨-, -, -, -, -, -, e0, e1, e2, -, -, -, -, -, -, -⟩ := idx_rows t
  show (V c main_v37 : S16384x16x64.Idx → EReal) (((cfg1.win 2).blk t).view.emb (ix3 p s k)) = _
  congr 1
  funext a; apply Fin.ext
  match a with
  | ⟨0, _⟩ => show win1_2.index t (0 : Fin 3) * 256 + 1 * p.val = t.val * 256 + p.val; rw [e0]; omega
  | ⟨1, _⟩ => show win1_2.index t (1 : Fin 3) * 16 + 1 * s.val = s.val; rw [e1]; omega
  | ⟨2, _⟩ => show win1_2.index t (2 : Fin 3) * 64 + 1 * k.val = k.val; rw [e2]; omega

theorem blk3 (t : Fin cfg1.N) (p : Fin 256) (s : Fin 32) (k : Fin 64) :
    iblk1 V c 3 t (ix3 p s k) = (V c main_v44 : S16384x32x64.Idx → EReal) (ix3 (rowOf t p) s k) := by
  obtain ⟨-, -, -, -, -, -, -, -, -, e0, e1, e2, -, -, -, -⟩ := idx_rows t
  show (V c main_v44 : S16384x32x64.Idx → EReal) (((cfg1.win 3).blk t).view.emb (ix3 p s k)) = _
  congr 1
  funext a; apply Fin.ext
  match a with
  | ⟨0, _⟩ => show win1_3.index t (0 : Fin 3) * 256 + 1 * p.val = t.val * 256 + p.val; rw [e0]; omega
  | ⟨1, _⟩ => show win1_3.index t (1 : Fin 3) * 32 + 1 * s.val = s.val; rw [e1]; omega
  | ⟨2, _⟩ => show win1_3.index t (2 : Fin 3) * 64 + 1 * k.val = k.val; rw [e2]; omega

theorem blk4 (t : Fin cfg1.N) (p : Fin 256) (u : Fin 1) :
    iblk1 V c 4 t (ix2 p u) = (V c main_v47 : S16384x1.Idx → EReal) (ix2 (rowOf t p) u) := by
  obtain ⟨-, -, -, -, -, -, -, -, -, -, -, -, e0, e1, -, -⟩ := idx_rows t
  show (V c main_v47 : S16384x1.Idx → EReal) (((cfg1.win 4).blk t).view.emb (ix2 p u)) = _
  congr 1
  funext a; apply Fin.ext
  match a with
  | ⟨0, _⟩ => show win1_4.index t (0 : Fin 2) * 256 + 1 * p.val = t.val * 256 + p.val; rw [e0]; omega
  | ⟨1, _⟩ => show win1_4.index t (1 : Fin 2) * 1 + 1 * u.val = u.val; rw [e1]; omega

theorem blk5 (t : Fin cfg1.N) (p : Fin 256) (u : Fin 1) :
    iblk1 V c 5 t (ix2 p u) = (V c main_v50 : S16384x1.Idx → EReal) (ix2 (rowOf t p) u) := by
  obtain ⟨-, -, -, -, -, -, -, -, -, -, -, -, -, -, e0, e1⟩ := idx_rows t
  show (V c main_v50 : S16384x1.Idx → EReal) (((cfg1.win 5).blk t).view.emb (ix2 p u)) = _
  congr 1
  funext a; apply Fin.ext
  match a with
  | ⟨0, _⟩ => show win1_5.index t (0 : Fin 2) * 256 + 1 * p.val = t.val * 256 + p.val; rw [e0]; omega
  | ⟨1, _⟩ => show win1_5.index t (1 : Fin 2) * 1 + 1 * u.val = u.val; rw [e1]; omega

theorem blk6 (t : Fin cfg1.N) : iblk1 V c 6 t = (V c main_v51 : S6x64.Idx → EReal) := by
  obtain ⟨e0, e1, -, -, -, -, -, -, -, -, -, -, -, -, -, -, -, -, -, -⟩ := idx_whole t
  funext y
  show (V c main_v51 : S6x64.Idx → EReal) (((cfg1.win 6).blk t).view.emb y) = _
  congr 1
  funext a; apply Fin.ext
  match a with
  | ⟨0, _⟩ => show win1_6.index t (0 : Fin 2) * 6 + 1 * (y 0).val = (y 0).val; rw [e0]; omega
  | ⟨1, _⟩ => show win1_6.index t (1 : Fin 2) * 64 + 1 * (y 1).val = (y 1).val; rw [e1]; omega

theorem blk7 (t : Fin cfg1.N) : iblk1 V c 7 t = (V c main_arg10 : S64.Idx → EReal) := by
  obtain ⟨-, -, e0, -, -, -, -, -, -, -, -, -, -, -, -, -, -, -, -, -⟩ := idx_whole t
  funext y
  show (V c main_arg10 : S64.Idx → EReal) (((cfg1.win 7).blk t).view.emb y) = _
  congr 1
  funext a; apply Fin.ext
  match a with
  | ⟨0, _⟩ => show win1_7.index t (0 : Fin 1) * 64 + 1 * (y 0).val = (y 0).val; rw [e0]; omega

theorem blk8 (t : Fin cfg1.N) : iblk1 V c 8 t = (V c main_arg11 : S64.Idx → EReal) := by
  obtain ⟨-, -, -, e0, -, -, -, -, -, -, -, -, -, -, -, -, -, -, -, -⟩ := idx_whole t
  funext y
  show (V c main_arg11 : S64.Idx → EReal) (((cfg1.win 8).blk t).view.emb y) = _
  congr 1
  funext a; apply Fin.ext
  match a with
  | ⟨0, _⟩ => show win1_8.index t (0 : Fin 1) * 64 + 1 * (y 0).val = (y 0).val; rw [e0]; omega

theorem blk9 (t : Fin cfg1.N) : iblk1 V c 9 t = (V c main_v53 : S64x128.Idx → EReal) := by
  obtain ⟨-, -, -, -, e0, e1, -, -, -, -, -, -, -, -, -, -, -, -, -, -⟩ := idx_whole t
  funext y
  show (V c main_v53 : S64x128.Idx → EReal) (((cfg1.win 9).blk t).view.emb y) = _
  congr 1
  funext a; apply Fin.ext
  match a with
  | ⟨0, _⟩ => show win1_9.index t (0 : Fin 2) * 64 + 1 * (y 0).val = (y 0).val; rw [e0]; omega
  | ⟨1, _⟩ => show win1_9.index t (1 : Fin 2) * 128 + 1 * (y 1).val = (y 1).val; rw [e1]; omega

theorem blk10 (t : Fin cfg1.N) : iblk1 V c 10 t = (V c main_arg13 : S128.Idx → EReal) := by
  obtain ⟨-, -, -, -, -, -, e0, -, -, -, -, -, -, -, -, -, -, -, -, -⟩ := idx_whole t
  funext y
  show (V c main_arg13 : S128.Idx → EReal) (((cfg1.win 10).blk t).view.emb y) = _
  congr 1
  funext a; apply Fin.ext
  match a with
  | ⟨0, _⟩ => show win1_10.index t (0 : Fin 1) * 128 + 1 * (y 0).val = (y 0).val; rw [e0]; omega

theorem blk11 (t : Fin cfg1.N) : iblk1 V c 11 t = (V c main_arg14 : S128.Idx → EReal) := by
  obtain ⟨-, -, -, -, -, -, -, e0, -, -, -, -, -, -, -, -, -, -, -, -⟩ := idx_whole t
  funext y
  show (V c main_arg14 : S128.Idx → EReal) (((cfg1.win 11).blk t).view.emb y) = _
  congr 1
  funext a; apply Fin.ext
  match a with
  | ⟨0, _⟩ => show win1_11.index t (0 : Fin 1) * 128 + 1 * (y 0).val = (y 0).val; rw [e0]; omega

theorem blk12 (t : Fin cfg1.N) : iblk1 V c 12 t = (V c main_v52 : S6x64.Idx → EReal) := by
  obtain ⟨-, -, -, -, -, -, -, -, e0, e1, -, -, -, -, -, -, -, -, -, -⟩ := idx_whole t
  funext y
  show (V c main_v52 : S6x64.Idx → EReal) (((cfg1.win 12).blk t).view.emb y) = _
  congr 1
  funext a; apply Fin.ext
  match a with
  | ⟨0, _⟩ => show win1_12.index t (0 : Fin 2) * 6 + 1 * (y 0).val = (y 0).val; rw [e0]; omega
  | ⟨1, _⟩ => show win1_12.index t (1 : Fin 2) * 64 + 1 * (y 1).val = (y 1).val; rw [e1]; omega

theorem blk13 (t : Fin cfg1.N) : iblk1 V c 13 t = (V c main_arg18 : S64.Idx → EReal) := by
  obtain ⟨-, -, -, -, -, -, -, -, -, -, e0, -, -, -, -, -, -, -, -, -⟩ := idx_whole t
  funext y
  show (V c main_arg18 : S64.Idx → EReal) (((cfg1.win 13).blk t).view.emb y) = _
  congr 1
  funext a; apply Fin.ext
  match a with
  | ⟨0, _⟩ => show win1_13.index t (0 : Fin 1) * 64 + 1 * (y 0).val = (y 0).val; rw [e0]; omega

theorem blk14 (t : Fin cfg1.N) : iblk1 V c 14 t = (V c main_arg19 : S64.Idx → EReal) := by
  obtain ⟨-, -, -, -, -, -, -, -, -, -, -, e0, -, -, -, -, -, -, -, -⟩ := idx_whole t
  funext y
  show (V c main_arg19 : S64.Idx → EReal) (((cfg1.win 14).blk t).view.emb y) = _
  congr 1
  funext a; apply Fin.ext
  match a with
  | ⟨0, _⟩ => show win1_14.index t (0 : Fin 1) * 64 + 1 * (y 0).val = (y 0).val; rw [e0]; omega

theorem blk15 (t : Fin cfg1.N) : iblk1 V c 15 t = (V c main_v54 : S64x128.Idx → EReal) := by
  obtain ⟨-, -, -, -, -, -, -, -, -, -, -, -, e0, e1, -, -, -, -, -, -⟩ := idx_whole t
  funext y
  show (V c main_v54 : S64x128.Idx → EReal) (((cfg1.win 15).blk t).view.emb y) = _
  congr 1
  funext a; apply Fin.ext
  match a with
  | ⟨0, _⟩ => show win1_15.index t (0 : Fin 2) * 64 + 1 * (y 0).val = (y 0).val; rw [e0]; omega
  | ⟨1, _⟩ => show win1_15.index t (1 : Fin 2) * 128 + 1 * (y 1).val = (y 1).val; rw [e1]; omega

theorem blk16 (t : Fin cfg1.N) : iblk1 V c 16 t = (V c main_arg21 : S128.Idx → EReal) := by
  obtain ⟨-, -, -, -, -, -, -, -, -, -, -, -, -, -, e0, -, -, -, -, -⟩ := idx_whole t
  funext y
  show (V c main_arg21 : S128.Idx → EReal) (((cfg1.win 16).blk t).view.emb y) = _
  congr 1
  funext a; apply Fin.ext
  match a with
  | ⟨0, _⟩ => show win1_16.index t (0 : Fin 1) * 128 + 1 * (y 0).val = (y 0).val; rw [e0]; omega

theorem blk17 (t : Fin cfg1.N) : iblk1 V c 17 t = (V c main_arg22 : S128.Idx → EReal) := by
  obtain ⟨-, -, -, -, -, -, -, -, -, -, -, -, -, -, -, e0, -, -, -, -⟩ := idx_whole t
  funext y
  show (V c main_arg22 : S128.Idx → EReal) (((cfg1.win 17).blk t).view.emb y) = _
  congr 1
  funext a; apply Fin.ext
  match a with
  | ⟨0, _⟩ => show win1_17.index t (0 : Fin 1) * 128 + 1 * (y 0).val = (y 0).val; rw [e0]; omega

theorem blk18 (t : Fin cfg1.N) : iblk1 V c 18 t = (V c main_v55 : S256x256.Idx → EReal) := by
  obtain ⟨-, -, -, -, -, -, -, -, -, -, -, -, -, -, -, -, e0, e1, -, -⟩ := idx_whole t
  funext y
  show (V c main_v55 : S256x256.Idx → EReal) (((cfg1.win 18).blk t).view.emb y) = _
  congr 1
  funext a; apply Fin.ext
  match a with
  | ⟨0, _⟩ => show win1_18.index t (0 : Fin 2) * 256 + 1 * (y 0).val = (y 0).val; rw [e0]; omega
  | ⟨1, _⟩ => show win1_18.index t (1 : Fin 2) * 256 + 1 * (y 1).val = (y 1).val; rw [e1]; omega

theorem blk19 (t : Fin cfg1.N) : iblk1 V c 19 t = (V c main_arg24 : S256.Idx → EReal) := by
  obtain ⟨-, -, -, -, -, -, -, -, -, -, -, -, -, -, -, -, -, -, e0, -⟩ := idx_whole t
  funext y
  show (V c main_arg24 : S256.Idx → EReal) (((cfg1.win 19).blk t).view.emb y) = _
  congr 1
  funext a; apply Fin.ext
  match a with
  | ⟨0, _⟩ => show win1_19.index t (0 : Fin 1) * 256 + 1 * (y 0).val = (y 0).val; rw [e0]; omega

theorem blk20 (t : Fin cfg1.N) : iblk1 V c 20 t = (V c main_arg25 : S256.Idx → EReal) := by
  obtain ⟨-, -, -, -, -, -, -, -, -, -, -, -, -, -, -, -, -, -, -, e0⟩ := idx_whole t
  funext y
  show (V c main_arg25 : S256.Idx → EReal) (((cfg1.win 20).blk t).view.emb y) = _
  congr 1
  funext a; apply Fin.ext
  match a with
  | ⟨0, _⟩ => show win1_20.index t (0 : Fin 1) * 256 + 1 * (y 0).val = (y 0).val; rw [e0]; omega

/-- Where row p, column o of point t's result block sits in the result array. -/
theorem emb21 (t : Fin cfg1.N) (p o : Fin 256) :
    ((cfg1.win 21).blk t).view.emb (ix2 p o) = (ix2 (rowOf t p) o : S16384x256.Idx) := by
  obtain ⟨e0, e1⟩ := idx_out t
  funext x; apply Fin.ext
  match x with
  | ⟨0, _⟩ => show win1_21.index t (0 : Fin 2) * 256 + 1 * p.val = t.val * 256 + p.val; rw [e0]; omega
  | ⟨1, _⟩ => show win1_21.index t (1 : Fin 2) * 256 + 1 * o.val = o.val; rw [e1]; omega

/-! ## The result array as one function of the operand arrays -/

/-- The encoder's output over the whole operand arrays as the region finds them: entry (r, o) from row r of the
    neighbour arrays and of the "kept" columns, the weights transposed back to channel-first. -/
def encoded : S16384x256.Idx → EReal := fun i =>
  Cert.Encoder.row (@Ne EReal ((V c main_v47 : S16384x1.Idx → EReal) (ix2 (i 0) (0 : Fin 1))) 0) (@Ne EReal ((V c main_v50 : S16384x1.Idx → EReal) (ix2 (i 0) (0 : Fin 1))) 0)
    (fun s k => (V c main_v25 : S16384x16x6.Idx → EReal) (ix3 (i 0) s k)) (fun s k => (V c main_v30 : S16384x32x6.Idx → EReal) (ix3 (i 0) s k))
    (fun s d => (V c main_v37 : S16384x16x64.Idx → EReal) (ix3 (i 0) s d)) (fun s d => (V c main_v44 : S16384x32x64.Idx → EReal) (ix3 (i 0) s d))
    (fun d k => (V c main_v51 : S6x64.Idx → EReal) (ix2 k d)) (fun d => (V c main_arg10 : S64.Idx → EReal) (ix1 d)) (fun d => (V c main_arg11 : S64.Idx → EReal) (ix1 d))
    (fun h d => (V c main_v53 : S64x128.Idx → EReal) (ix2 d h)) (fun h => (V c main_arg13 : S128.Idx → EReal) (ix1 h)) (fun h => (V c main_arg14 : S128.Idx → EReal) (ix1 h))
    (fun d k => (V c main_v52 : S6x64.Idx → EReal) (ix2 k d)) (fun d => (V c main_arg18 : S64.Idx → EReal) (ix1 d)) (fun d => (V c main_arg19 : S64.Idx → EReal) (ix1 d))
    (fun h d => (V c main_v54 : S64x128.Idx → EReal) (ix2 d h)) (fun h => (V c main_arg21 : S128.Idx → EReal) (ix1 h)) (fun h => (V c main_arg22 : S128.Idx → EReal) (ix1 h))
    (fun o j => (V c main_v55 : S256x256.Idx → EReal) (ix2 j o)) (fun o => (V c main_arg24 : S256.Idx → EReal) (ix1 o)) (fun o => (V c main_arg25 : S256.Idx → EReal) (ix1 o))
    (i 1)

/-- WHAT POINT t WRITES BACK is block t of `encoded`. -/
theorem flushed_eq (t : Fin cfg1.N) :
    (dat1 V c).flushed 21 t = ((cfg1.win 21).blk t).view.read (Elt Ideal) (encoded V c) := by
  show (cfg1.win 21).cut (grid1.coords t) ((dat1 V c).after 21 t) = _
  rw [after1_21]
  funext j
  obtain ⟨p, o, rfl⟩ : ∃ (p o : Fin 256), j = ix2 p o := ⟨j 0, j 1, eq_ix2 j⟩
  show out1_21 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t) (iblk1 V c 17 t) (iblk1 V c 18 t) (iblk1 V c 19 t) (iblk1 V c 20 t) (ix2 p o)
      = encoded V c (((cfg1.win 21).blk t).view.emb (ix2 p o))
  rw [emb21, Cert.KernelIdeal.BodyValue.out_row]
  unfold encoded
  simp only [blk0, blk1, blk2, blk3, blk4, blk5, blk6, blk7, blk8, blk9, blk10, blk11, blk12, blk13, blk14, blk15, blk16, blk17, blk18, blk19, blk20]

/-- An index of the result array is in point t's block iff each coordinate is in the block's range on its axis. -/
theorem mem_blk (t : Fin cfg1.N) (i : S16384x256.Idx) :
    i ∈ ((cfg1.win 21).blk t).view.set ↔ ∀ a : Fin 2, win1_21.index t a * S256x256.size a ≤ (i a).val
      ∧ (i a).val < win1_21.index t a * S256x256.size a + S256x256.size a := by
  show i ∈ ((View.whole main_v56).slice (win1_21.rect t)).set ↔ _
  rw [View.set_slice_whole, Rect.mem_set_unit]
  exact Iff.rfl

/-- Every index of the result array is in some point's block: row r is covered by point r / 256, and every point
    writes its block back. -/
theorem cover (i : S16384x256.Idx) :
    ∃ t : Fin cfg1.N, (cfg1.win 21).flush t = true ∧ i ∈ ((cfg1.win 21).blk t).view.set := by
  have h0 : (i 0).val < 16384 := (i 0).isLt
  have h1 : (i 1).val < 256 := (i 1).isLt
  have hN : cfg1.N = 64 := N_1
  obtain ⟨t, ht⟩ : ∃ t : Fin cfg1.N, t.val = (i 0).val / 256 := ⟨⟨(i 0).val / 256, by omega⟩, rfl⟩
  obtain ⟨e0, e1⟩ := idx_out t
  refine ⟨t, flush1_21 t, ?_⟩
  rw [mem_blk]
  intro a
  match a with
  | ⟨0, _⟩ =>
    show win1_21.index t (0 : Fin 2) * 256 ≤ (i 0).val ∧ (i 0).val < win1_21.index t (0 : Fin 2) * 256 + 256
    rw [e0, ht]; omega
  | ⟨1, _⟩ =>
    show win1_21.index t (1 : Fin 2) * 256 ≤ (i 1).val ∧ (i 1).val < win1_21.index t (1 : Fin 2) * 256 + 256
    rw [e1]; omega

/-- The result array after the region: the encoder's output over the operand arrays as the region finds them. -/
theorem final : (dat1 (F := Ideal) V c).arrAt 21 cfg1.N = encoded V c :=
  (dat1 V c).arrAt_eq_of_cover 21 (encoded V c) (fun t _ => flushed_eq V c t) cover

end Cert.KernelIdeal.Blocks

end
-- ==== Proof.KHost.lean ====
/-
  What the second region finds in its operand arrays, as functions of the argument arrays.

  Between the two regions the program runs plain array operations: for each neighbourhood scale it wraps negative
  neighbour numbers (n ↦ n + 65536), gathers the neighbours' positions, subtracts the destination point's own
  position, lays the difference and the position side by side (six numbers per neighbour), gathers the neighbours'
  feature rows out of one half of the first region's result, and turns the "no neighbours" flag into a column of
  0.0 / 1.0; the weight matrices are transposed. None of these operations or regions writes an argument array, so each
  argument is read back to the launch memory.
-/
import proofs.«141855_j52682068853185_2_alg».proof.Proof.Gen.KernelIdeal.Frame
import Idealize.ShloMosaic.Lib.StableHlo.Run
import Idealize.ShloMosaic.PureOps.Ideal

set_option maxRecDepth 16384

noncomputable section

namespace Cert.KernelIdeal.Host

open Cert.KernelIdeal Cert.KernelIdeal.Gen
open Idealize.ShloMosaic Idealize.ShloMosaic.TcCoe Idealize.SL.Sem Idealize.ShloMosaic.StableHlo

/-! ## The operations' terms -/

/-- A 16-neighbour table with negative entries wrapped, as a column of row numbers. -/
def rows16 (a3 : IVec S16384x16 32) : IVec S16384x16x1 32 :=
  broadcastInDim S16384x16x1 ![0, 1] bcast_S16384x16_S16384x16x1_0_1
    (select (cmpi CmpIPredicate.slt a3 (broadcastInDim S16384x16 ![] bcast_S_S16384x16 (constantI S_ 32 0#32)))
      (addi a3 (broadcastInDim S16384x16 ![] bcast_S_S16384x16 (constantI S_ 32 65536#32))) a3)

/-- The same for the 32-neighbour table. -/
def rows32 (a4 : IVec S16384x32 32) : IVec S16384x32x1 32 :=
  broadcastInDim S16384x32x1 ![0, 1] bcast_S16384x32_S16384x32x1_0_1
    (select (cmpi CmpIPredicate.slt a4 (broadcastInDim S16384x32 ![] bcast_S_S16384x32 (constantI S_ 32 0#32)))
      (addi a4 (broadcastInDim S16384x32 ![] bcast_S_S16384x32 (constantI S_ 32 65536#32))) a4)

/-- Six geometric numbers per neighbour, 16-neighbour scale: (neighbour position − own position, own position). -/
def geom16 (a0 : FVec Ideal S65536x3 .f32) (a2 : FVec Ideal S16384x3 .f32) (a3 : IVec S16384x16 32) : FVec Ideal S16384x16x6 .bf16 :=
  truncf .bf16
    (concatenate S16384x16x6 2
      [⟨S16384x16x3, subf (Host.gather gather_S65536x3_S16384x16x1_S16384x16x3_2_0_n_n_0_2_13 a0 (rows16 a3))
          (broadcastInDim S16384x16x3 ![0, 1, 2] bcast_S16384x1x3_S16384x16x3_0_1_2
            (broadcastInDim S16384x1x3 ![0, 2] bcast_S16384x3_S16384x1x3_0_2 a2))⟩,
       ⟨S16384x16x3, broadcastInDim S16384x16x3 ![0, 1, 2] bcast_S16384x1x3_S16384x16x3_0_1_2
            (broadcastInDim S16384x1x3 ![0, 2] bcast_S16384x3_S16384x1x3_0_2 a2)⟩]
      concatenates_S16384x16x3_S16384x16x3_S16384x16x6_d2)
    bitsLt_bf16_f32

/-- The same, 32-neighbour scale. -/
def geom32 (a0 : FVec Ideal S65536x3 .f32) (a2 : FVec Ideal S16384x3 .f32) (a4 : IVec S16384x32 32) : FVec Ideal S16384x32x6 .bf16 :=
  truncf .bf16
    (concatenate S16384x32x6 2
      [⟨S16384x32x3, subf (Host.gather gather_S65536x3_S16384x32x1_S16384x32x3_2_0_n_n_0_2_13 a0 (rows32 a4))
          (broadcastInDim S16384x32x3 ![0, 1, 2] bcast_S16384x1x3_S16384x32x3_0_1_2
            (broadcastInDim S16384x1x3 ![0, 2] bcast_S16384x3_S16384x1x3_0_2 a2))⟩,
       ⟨S16384x32x3, broadcastInDim S16384x32x3 ![0, 1, 2] bcast_S16384x1x3_S16384x32x3_0_1_2
            (broadcastInDim S16384x1x3 ![0, 2] bcast_S16384x3_S16384x1x3_0_2 a2)⟩]
      concatenates_S16384x32x3_S16384x32x3_S16384x32x6_d2)
    bitsLt_bf16_f32

/-- The neighbours' feature rows, 16-neighbour scale: gathered from the LEFT 64 columns of the linear layer's result. -/
def feat16 (cur : FVec Ideal S65536x128 .bf16) (a3 : IVec S16384x16 32) : FVec Ideal S16384x16x64 .bf16 :=
  Host.gather gather_S65536x64_S16384x16x1_S16384x16x64_2_0_n_n_0_2_164
    (extractStridedSlice S65536x64 ![0, 0] cur slices_S65536x128_S65536x64_0_0) (rows16 a3)

/-- The neighbours' feature rows, 32-neighbour scale: gathered from the RIGHT 64 columns. -/
def feat32 (cur : FVec Ideal S65536x128 .bf16) (a4 : IVec S16384x32 32) : FVec Ideal S16384x32x64 .bf16 :=
  Host.gather gather_S65536x64_S16384x32x1_S16384x32x64_2_0_n_n_0_2_164
    (extractStridedSlice S65536x64 ![0, 64] cur slices_S65536x128_S65536x64_0_64) (rows32 a4)

/-- The "kept" column: 0.0 where the flag is set, 1.0 elsewhere. -/
def kept (a5 : IVec S16384 1) : FVec Ideal S16384x1 .f32 :=
  shapeCast S16384x1
    (select a5 (broadcastInDim S16384 ![] bcast_S_S16384 (constant (F := Ideal) S_ .f32 0x00000000#32))
      (broadcastInDim S16384 ![] bcast_S_S16384 (constant (F := Ideal) S_ .f32 0x3F800000#32)))
    shapeCasts_S16384_S16384x1

variable (m : (ℓ : Loc nD τ sig) → Buf (Elt Ideal) ℓ) (ρ : Dev nD → PrngReg) (c : Dev nD)

/-! ## An argument array at the first region's exit is its launch contents -/

/-- For a buffer that neither the first stretch of host operations nor the first region writes. -/
macro "read_back" b:term : tactic =>
  `(tactic| (rw [W2_of_ne _ _ _ $b (by decide)]; dsimp only [W1]; after_results; try rfl))

theorem W2_arg0 : W2 m ρ c (Proc.devRef .tc main_arg0) = m ((c : Thread nD τ).loc main_arg0) := by read_back main_arg0
theorem W2_arg2 : W2 m ρ c (Proc.devRef .tc main_arg2) = m ((c : Thread nD τ).loc main_arg2) := by read_back main_arg2
theorem W2_arg3 : W2 m ρ c (Proc.devRef .tc main_arg3) = m ((c : Thread nD τ).loc main_arg3) := by read_back main_arg3
theorem W2_arg4 : W2 m ρ c (Proc.devRef .tc main_arg4) = m ((c : Thread nD τ).loc main_arg4) := by read_back main_arg4
theorem W2_arg5 : W2 m ρ c (Proc.devRef .tc main_arg5) = m ((c : Thread nD τ).loc main_arg5) := by read_back main_arg5
theorem W2_arg6 : W2 m ρ c (Proc.devRef .tc main_arg6) = m ((c : Thread nD τ).loc main_arg6) := by read_back main_arg6

theorem W2_arg9 : W2 m ρ c (Proc.devRef .tc main_arg9) = m ((c : Thread nD τ).loc main_arg9) := by read_back main_arg9
theorem W2_arg12 : W2 m ρ c (Proc.devRef .tc main_arg12) = m ((c : Thread nD τ).loc main_arg12) := by read_back main_arg12
theorem W2_arg17 : W2 m ρ c (Proc.devRef .tc main_arg17) = m ((c : Thread nD τ).loc main_arg17) := by read_back main_arg17
theorem W2_arg20 : W2 m ρ c (Proc.devRef .tc main_arg20) = m ((c : Thread nD τ).loc main_arg20) := by read_back main_arg20
theorem W2_arg23 : W2 m ρ c (Proc.devRef .tc main_arg23) = m ((c : Thread nD τ).loc main_arg23) := by read_back main_arg23

/-- The first region's result array at its exit: what the region's write-backs leave. -/
theorem W2_cur : W2 m ρ c (Proc.devRef .tc main_v3) = (dat0 (V1 m ρ) c).arrAt 3 cfg0.N := W2_arr m ρ c 3

/-! ## The second region's operand arrays at its entry -/

/-- Through the five stretches of host operations between the regions, down to the first region's exit. -/
macro "read_entry" : tactic =>
  `(tactic| (dsimp only [V7, W7, W6, W5, W4, W3]; after_results))

set_option maxHeartbeats 40000000 in
theorem entry_geom16 : (V7 m ρ c main_v25 : S16384x16x6.Idx → EReal)
    = geom16 (m ((c : Thread nD τ).loc main_arg0)) (m ((c : Thread nD τ).loc main_arg2)) (m ((c : Thread nD τ).loc main_arg3)) := by
  read_entry
  rw [W2_arg0, W2_arg2, W2_arg3]
  rfl

set_option maxHeartbeats 40000000 in
theorem entry_geom32 : (V7 m ρ c main_v30 : S16384x32x6.Idx → EReal)
    = geom32 (m ((c : Thread nD τ).loc main_arg0)) (m ((c : Thread nD τ).loc main_arg2)) (m ((c : Thread nD τ).loc main_arg4)) := by
  read_entry
  rw [W2_arg0, W2_arg2, W2_arg4]
  rfl

end Cert.KernelIdeal.Host

end
-- ==== Proof.KHost2.lean ====
/-
  The second region's remaining operand arrays at its entry: the gathered feature rows, the "kept" columns, the
  transposed weight matrices, and the normalisation vectors, which are argument arrays as launched.
-/
import proofs.«141855_j52682068853185_2_alg».proof.Proof.KHost

set_option maxRecDepth 16384

noncomputable section

namespace Cert.KernelIdeal.Host

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- Through the five stretches of host operations in one pass (no concatenate on the way). -/
macro "read_entry_simp" : tactic =>
  `(tactic| (dsimp only [V7, W7, W6, W5, W4, W3]; after_results_simp))

set_option maxHeartbeats 4000000 in
theorem entry_feat16 : (V7 m ρ c main_v37 : S16384x16x64.Idx → EReal)
    = feat16 ((dat0 (V1 m ρ) c).arrAt 3 cfg0.N) (m ((c : Thread nD τ).loc main_arg3)) := by
  read_entry_simp
  rw [W2_arg3, W2_cur]
  rfl

set_option maxHeartbeats 4000000 in
theorem entry_feat32 : (V7 m ρ c main_v44 : S16384x32x64.Idx → EReal)
    = feat32 ((dat0 (V1 m ρ) c).arrAt 3 cfg0.N) (m ((c : Thread nD τ).loc main_arg4)) := by
  read_entry_simp
  rw [W2_arg4, W2_cur]
  rfl

set_option maxHeartbeats 4000000 in
theorem entry_kept16 : (V7 m ρ c main_v47 : S16384x1.Idx → EReal) = kept (m ((c : Thread nD τ).loc main_arg5)) := by
  read_entry_simp
  rw [W2_arg5]
  rfl

set_option maxHeartbeats 4000000 in
theorem entry_kept32 : (V7 m ρ c main_v50 : S16384x1.Idx → EReal) = kept (m ((c : Thread nD τ).loc main_arg6)) := by
  read_entry_simp
  rw [W2_arg6]
  rfl

/-! ## The transposed weights -/

set_option maxHeartbeats 4000000 in
theorem entry_p0w : (V7 m ρ c main_v51 : S6x64.Idx → EReal)
    = transpose S6x64 [1, 0] (m ((c : Thread nD τ).loc main_arg9)) transposes_S64x6_S6x64_1_0 := by
  read_entry_simp
  rw [W2_arg9]

set_option maxHeartbeats 4000000 in
theorem entry_p1w : (V7 m ρ c main_v52 : S6x64.Idx → EReal)
    = transpose S6x64 [1, 0] (m ((c : Thread nD τ).loc main_arg17)) transposes_S64x6_S6x64_1_0 := by
  read_entry_simp
  rw [W2_arg17]

set_option maxHeartbeats 4000000 in
theorem entry_m0w : (V7 m ρ c main_v53 : S64x128.Idx → EReal)
    = transpose S64x128 [1, 0] (m ((c : Thread nD τ).loc main_arg12)) transposes_S128x64_S64x128_1_0 := by
  read_entry_simp
  rw [W2_arg12]

set_option maxHeartbeats 4000000 in
theorem entry_m1w : (V7 m ρ c main_v54 : S64x128.Idx → EReal)
    = transpose S64x128 [1, 0] (m ((c : Thread nD τ).loc main_arg20)) transposes_S128x64_S64x128_1_0 := by
  read_entry_simp
  rw [W2_arg20]

set_option maxHeartbeats 4000000 in
theorem entry_ow : (V7 m ρ c main_v55 : S256x256.Idx → EReal)
    = transpose S256x256 [1, 0] (m ((c : Thread nD τ).loc main_arg23)) transposes_S256x256_S256x256_1_0 := by
  read_entry_simp
  rw [W2_arg23]

/-! ## The normalisation vectors are argument arrays as launched -/

theorem W2_arg10 : W2 m ρ c (Proc.devRef .tc main_arg10) = m ((c : Thread nD τ).loc main_arg10) := by read_back main_arg10
set_option maxHeartbeats 4000000 in
theorem entry_arg10 : V7 m ρ c main_arg10 = m ((c : Thread nD τ).loc main_arg10) := by
  read_entry_simp
  rw [W2_arg10]

theorem W2_arg11 : W2 m ρ c (Proc.devRef .tc main_arg11) = m ((c : Thread nD τ).loc main_arg11) := by read_back main_arg11
set_option maxHeartbeats 4000000 in
theorem entry_arg11 : V7 m ρ c main_arg11 = m ((c : Thread nD τ).loc main_arg11) := by
  read_entry_simp
  rw [W2_arg11]

theorem W2_arg13 : W2 m ρ c (Proc.devRef .tc main_arg13) = m ((c : Thread nD τ).loc main_arg13) := by read_back main_arg13
set_option maxHeartbeats 4000000 in
theorem entry_arg13 : V7 m ρ c main_arg13 = m ((c : Thread nD τ).loc main_arg13) := by
  read_entry_simp
  rw [W2_arg13]

theorem W2_arg14 : W2 m ρ c (Proc.devRef .tc main_arg14) = m ((c : Thread nD τ).loc main_arg14) := by read_back main_arg14
set_option maxHeartbeats 4000000 in
theorem entry_arg14 : V7 m ρ c main_arg14 = m ((c : Thread nD τ).loc main_arg14) := by
  read_entry_simp
  rw [W2_arg14]

theorem W2_arg18 : W2 m ρ c (Proc.devRef .tc main_arg18) = m ((c : Thread nD τ).loc main_arg18) := by read_back main_arg18
set_option maxHeartbeats 4000000 in
theorem entry_arg18 : V7 m ρ c main_arg18 = m ((c : Thread nD τ).loc main_arg18) := by
  read_entry_simp
  rw [W2_arg18]

theorem W2_arg19 : W2 m ρ c (Proc.devRef .tc main_arg19) = m ((c : Thread nD τ).loc main_arg19) := by read_back main_arg19
set_option maxHeartbeats 4000000 in
theorem entry_arg19 : V7 m ρ c main_arg19 = m ((c : Thread nD τ).loc main_arg19) := by
  read_entry_simp
  rw [W2_arg19]

theorem W2_arg21 : W2 m ρ c (Proc.devRef .tc main_arg21) = m ((c : Thread nD τ).loc main_arg21) := by read_back main_arg21
set_option maxHeartbeats 4000000 in
theorem entry_arg21 : V7 m ρ c main_arg21 = m ((c : Thread nD τ).loc main_arg21) := by
  read_entry_simp
  rw [W2_arg21]

theorem W2_arg22 : W2 m ρ c (Proc.devRef .tc main_arg22) = m ((c : Thread nD τ).loc main_arg22) := by read_back main_arg22
set_option maxHeartbeats 4000000 in
theorem entry_arg22 : V7 m ρ c main_arg22 = m ((c : Thread nD τ).loc main_arg22) := by
  read_entry_simp
  rw [W2_arg22]

theorem W2_arg24 : W2 m ρ c (Proc.devRef .tc main_arg24) = m ((c : Thread nD τ).loc main_arg24) := by read_back main_arg24
set_option maxHeartbeats 4000000 in
theorem entry_arg24 : V7 m ρ c main_arg24 = m ((c : Thread nD τ).loc main_arg24) := by
  read_entry_simp
  rw [W2_arg24]

theorem W2_arg25 : W2 m ρ c (Proc.devRef .tc main_arg25) = m ((c : Thread nD τ).loc main_arg25) := by read_back main_arg25
set_option maxHeartbeats 4000000 in
theorem entry_arg25 : V7 m ρ c main_arg25 = m ((c : Thread nD τ).loc main_arg25) := by
  read_entry_simp
  rw [W2_arg25]

end Cert.KernelIdeal.Host

end
-- ==== Proof.RefRow.lean ====
/-
  The reference program's result at a destination point and an output channel, as the encoder's specification.

  The reference computes, for every destination point `m`, neighbour `s` and channel, the chain
  linear map → normalisation → sigmoid-weighted unit → plus the gathered row → zero where the point has no
  neighbours → linear map → normalisation → rectifier, takes the maximum over the neighbours, lays the two scales'
  pooled rows side by side and applies a last linear map, normalisation and rectifier. Every step but the gathers
  and the geometric concatenations (which stay as they are: they are the data of the specification) is read here at
  an index, one operation at a time, and the results are assembled into `Encoder.row`.

  Three general facts come first: the binary32 patterns of 1 and of -∞ as extended reals, the host's reduction with
  body `max` over the middle axis of a rank-3 array as a fold over that axis, and two matrices laid side by side
  along the second axis read at an index.
-/
import proofs.«141855_j52682068853185_2_alg».proof.Proof.RefReadP
import proofs.«141855_j52682068853185_2_alg».proof.Proof.Encoder
import proofs.«141855_j52682068853185_2_alg».proof.Proof.LibKeepdims3
import Idealize.ShloMosaic.Lib.Pipeline.Value
import Idealize.ShloMosaic.Lib.ValueIdx
import Idealize.ShloMosaic.PureOps.Ideal.Laws

noncomputable section

namespace Cert.ReferenceIdeal.RefValue

open Idealize.ShloMosaic Idealize.ShloMosaic.ValueIdx Cert.ReferenceIdeal Cert.ReferenceIdeal.Gen

/-! ## General facts -/

/-- The binary32 pattern `0x3F800000` (sign 0, exponent 127, significand 0) is the number one. -/
theorem ofBits_one_f32 : Ideal.ofBits .f32 0x3F800000#32 = 1 := by
  simp [Ideal.ofBits, Ideal.ieee]
  rw [← EReal.coe_mul, ← EReal.coe_one, EReal.coe_eq_coe_iff]
  norm_num

/-- The binary32 pattern `0xFF800000` (sign 1, exponent all ones, significand 0) is -∞. -/
theorem ofBits_neginf_f32 : Ideal.ofBits .f32 0xFF800000#32 = ⊥ := by simp [Ideal.ofBits, Ideal.ieee]

/-- The host's reduction with body `max` of an `[a, b, c]` array over its middle axis is, at `(i, j)`, the fold of
    `max` from the initial value over the `b` entries `x (i, k, j)`: `max` is commutative and associative, so the
    order in which the definition walks the entries does not matter. -/
theorem hostReduce_maximumf_axis1 {a b c : ℕ} {φ : FTy} {u : Shape} (x : FVec Ideal ⟨3, ![a, b, c]⟩ φ) (init : u.Idx → Ideal φ)
    (h' : Shape.ReducesTo ⟨3, ![a, b, c]⟩ [1] ⟨2, ![a, c]⟩) (h : Shape.Reduces ⟨3, ![a, b, c]⟩ [1] ⟨2, ![a, c]⟩) (hu : 0 < u.numel)
    (i : Fin a) (j : Fin c) :
    Host.reduce FloatOps.maximumf x init h' hu (ix2 i j)
      = (Finset.univ : Finset (Fin b)).fold max (init (Shape.Idx.first hu)) (fun k => x (ix3 i k j)) :=
  (Host.reduce_eq_fold_single FloatOps.maximumf x init h' h hu (ix2 i j)).trans
    (congrArg (fun f => (Finset.univ : Finset (Fin b)).fold max (init (Shape.Idx.first hu)) f)
      (funext fun k => congrArg x (Cert.Keepdims3.lift_axis1 h i j k)))

/-- Two matrices with the same number of rows laid side by side, read at `(i, j)`: the first one's column `j` when
    `j` is below its width, else the second one's column `j` less that width. -/
theorem concat_cols_apply {α : Type} {a b₁ b₂ b : ℕ} (x : (⟨2, ![a, b₁]⟩ : Shape).Idx → α) (y : (⟨2, ![a, b₂]⟩ : Shape).Idx → α)
    (h : Shape.Concatenates [(⟨2, ![a, b₁]⟩ : Shape), ⟨2, ![a, b₂]⟩] ⟨2, ![a, b]⟩ 1) (i : Fin a) (j : Fin b) (hb : b₁ + b₂ = b) :
    concatenate ⟨2, ![a, b]⟩ 1 [⟨⟨2, ![a, b₁]⟩, x⟩, ⟨⟨2, ![a, b₂]⟩, y⟩] h (ix2 i j)
      = if hj : j.val < b₁ then x (ix2 i ⟨j.val, hj⟩) else y (ix2 i ⟨j.val - b₁, by omega⟩) := by
  split
  · next hj =>
    refine concatenate_pair_apply_left (1 : Fin 2) x y h (ix2 i j) rfl (ix2 i ⟨j.val, hj⟩) fun e => ?_
    match e with
    | ⟨0, _⟩ => rfl
    | ⟨1, _⟩ => rfl
  · next hj =>
    refine concatenate_pair_apply_right (1 : Fin 2) x y h (ix2 i j) rfl rfl (ix2 i ⟨j.val - b₁, by omega⟩) (fun e he => ?_) ?_
    · match e with
      | ⟨0, _⟩ => rfl
      | ⟨1, _⟩ => exact absurd rfl he
    · show (j.val - b₁) + b₁ = j.val
      omega

/-- The two pooling reductions drop the middle axis. -/
theorem reduces_a : S16384x16x128.Reduces [1] S16384x128 := by decide
theorem reduces_b : S16384x32x128.Reduces [1] S16384x128 := by decide

/-- Two indices given by coordinates are equal when their coordinates are: one case per axis. -/
local macro "idx_rfl" : tactic => `(tactic| (funext e; apply Fin.ext; fin_cases e <;> rfl))

variable
  (x0 : (⟨S65536x3, .f32⟩ : BufTy).Contents (Elt Ideal))
  (x1 : (⟨S65536x64, .f32⟩ : BufTy).Contents (Elt Ideal))
  (x2 : (⟨S16384x3, .f32⟩ : BufTy).Contents (Elt Ideal))
  (x3 : (⟨S16384x16, .i32⟩ : BufTy).Contents (Elt Ideal))
  (x4 : (⟨S16384x32, .i32⟩ : BufTy).Contents (Elt Ideal))
  (x5 : (⟨S16384, .i1⟩ : BufTy).Contents (Elt Ideal))
  (x6 : (⟨S16384, .i1⟩ : BufTy).Contents (Elt Ideal))
  (x7 : (⟨S64x64, .f32⟩ : BufTy).Contents (Elt Ideal))
  (x8 : (⟨S64, .f32⟩ : BufTy).Contents (Elt Ideal))
  (x9 : (⟨S64x6, .f32⟩ : BufTy).Contents (Elt Ideal))
  (x10 : (⟨S64, .f32⟩ : BufTy).Contents (Elt Ideal))
  (x11 : (⟨S64, .f32⟩ : BufTy).Contents (Elt Ideal))
  (x12 : (⟨S128x64, .f32⟩ : BufTy).Contents (Elt Ideal))
  (x13 : (⟨S128, .f32⟩ : BufTy).Contents (Elt Ideal))
  (x14 : (⟨S128, .f32⟩ : BufTy).Contents (Elt Ideal))
  (x15 : (⟨S64x64, .f32⟩ : BufTy).Contents (Elt Ideal))
  (x16 : (⟨S64, .f32⟩ : BufTy).Contents (Elt Ideal))
  (x17 : (⟨S64x6, .f32⟩ : BufTy).Contents (Elt Ideal))
  (x18 : (⟨S64, .f32⟩ : BufTy).Contents (Elt Ideal))
  (x19 : (⟨S64, .f32⟩ : BufTy).Contents (Elt Ideal))
  (x20 : (⟨S128x64, .f32⟩ : BufTy).Contents (Elt Ideal))
  (x21 : (⟨S128, .f32⟩ : BufTy).Contents (Elt Ideal))
  (x22 : (⟨S128, .f32⟩ : BufTy).Contents (Elt Ideal))
  (x23 : (⟨S256x256, .f32⟩ : BufTy).Contents (Elt Ideal))
  (x24 : (⟨S256, .f32⟩ : BufTy).Contents (Elt Ideal))
  (x25 : (⟨S256, .f32⟩ : BufTy).Contents (Elt Ideal))

/-! ## The scale with 16 neighbours -/

/-- The first normalisation's scale at channel `d`: the stored scale times `κ`. -/
theorem scale_a (m : Fin 16384) (s : Fin 16) (d : Fin 64) :
    ReadP.val_main_v26 (F := Ideal) x10 (ix3 m s d) = x10 (ix1 d) * Encoder.κ := by
  rw [ReadP.val_main_v26_apply, ReadP.val_main_v25_apply, ReadP.val_main_v24_apply, ReadP.val_main_v23_apply, ReadP.val_main_cst_apply]
  exact congrArg (fun j => x10 j * Encoder.κ) (by idx_rfl)

/-- The first normalisation's shift at channel `d`. -/
theorem shift_a (m : Fin 16384) (s : Fin 16) (d : Fin 64) :
    ReadP.val_main_v29 (F := Ideal) x11 (ix3 m s d) = x11 (ix1 d) := by
  rw [ReadP.val_main_v29_apply, ReadP.val_main_v28_apply]
  exact congrArg x11 (by idx_rfl)

/-- The two constants of the logistic function are the number one. -/
theorem one_a (i : S16384x16x64.Idx) : ReadP.val_main_call0_v2 (F := Ideal) i = 1 := by
  rw [ReadP.val_main_call0_v2_apply, ReadP.val_main_call0_cst_apply]; exact ofBits_one_f32
theorem one'_a (i : S16384x16x64.Idx) : ReadP.val_main_call0_v4 (F := Ideal) i = 1 := by
  rw [ReadP.val_main_call0_v4_apply, ReadP.val_main_call0_cst_0_apply]; exact ofBits_one_f32

/-- The value a point without neighbours gets is zero. -/
theorem zero_a (i : S16384x16x64.Idx) : ReadP.val_main_call1_v2 (F := Ideal) i = 0 := by
  rw [ReadP.val_main_call1_v2_apply, ReadP.val_main_call1_v0_apply, ReadP.val_main_cst_3_apply]; exact Ideal.ofBits_zero_f32

/-- The rectifier's floor is zero. -/
theorem floor_a (i : S16384x16x128.Idx) : ReadP.val_main_call2_v0 (F := Ideal) i = 0 := by
  rw [ReadP.val_main_call2_v0_apply, ReadP.val_main_call2_cst_apply]; exact Ideal.ofBits_zero_f32

/-- The "no neighbours" flag is the destination point's, whatever the neighbour and the channel. -/
theorem flag_a (m : Fin 16384) (s : Fin 16) (d : Fin 64) :
    ReadP.val_main_call1_v1 (F := Ideal) x5 (ix3 m s d) = x5 (ix1 m) := by
  rw [ReadP.val_main_call1_v1_apply, ReadP.val_main_v40_apply]
  exact congrArg x5 (by idx_rfl)

/-- The first linear map: the six geometric numbers of neighbour `s` against row `d` of the weights. -/
theorem lin6_a (m : Fin 16384) (s : Fin 16) (d : Fin 64) :
    ReadP.val_main_v22 (F := Ideal) x0 x2 x3 x9 (ix3 m s d) = (∑ c : Fin 6, ReadP.val_main_v21 (F := Ideal) x0 x2 x3 (ix3 m s c) * x9 (ix2 d c)) := by
  rw [ReadP.val_main_v22_apply]
  refine Finset.sum_congr rfl fun c _ => ?_
  rw [show ReadP.lidx_main_v22 (ix3 m s d) c = ix3 m s c from by idx_rfl,
    show ReadP.ridx_main_v22 (ix3 m s d) c = ix2 d c from by idx_rfl]

/-- The normalised first linear map. -/
theorem pre_a (m : Fin 16384) (s : Fin 16) (d : Fin 64) :
    ReadP.val_main_v30 (F := Ideal) x0 x2 x3 x9 x10 x11 (ix3 m s d) = Encoder.bn (∑ c : Fin 6, ReadP.val_main_v21 (F := Ideal) x0 x2 x3 (ix3 m s c) * x9 (ix2 d c)) (x10 (ix1 d)) (x11 (ix1 d)) := by
  rw [ReadP.val_main_v30_apply, ReadP.val_main_v27_apply, lin6_a, scale_a, shift_a]
  rfl

/-- The host spells `x · σ(x)` as `x · (1 / (1 + exp (-x)))`, which is the logistic function's definition. -/
theorem silu_a (i : S16384x16x64.Idx) :
    ReadP.val_main_v31 (F := Ideal) x0 x2 x3 x9 x10 x11 i = Encoder.silu (ReadP.val_main_v30 (F := Ideal) x0 x2 x3 x9 x10 x11 i) := by
  rw [ReadP.val_main_v31_apply, ReadP.val_main_call0_v5_apply, one'_a, ReadP.val_main_call0_v3_apply, one_a, ReadP.val_main_call0_v1_apply,
    ReadP.val_main_call0_v0_apply]
  rfl

/-- One neighbour's feature: zero at a point without neighbours, else the activated geometric part plus the gathered row. -/
theorem nbr_a (m : Fin 16384) (s : Fin 16) (d : Fin 64) :
    ReadP.val_main_v41 (F := Ideal) x0 x1 x2 x3 x5 x7 x8 x9 x10 x11 (ix3 m s d)
      = Encoder.nbr (x5 (ix1 m) ≠ 1) (fun c => ReadP.val_main_v21 (F := Ideal) x0 x2 x3 (ix3 m s c))
        (ReadP.val_main_v38 (F := Ideal) x1 x3 x7 x8 (ix3 m s d)) (fun c => x9 (ix2 d c)) (x10 (ix1 d)) (x11 (ix1 d)) := by
  rw [ReadP.val_main_v41_apply, flag_a, zero_a, ReadP.val_main_v39_apply, silu_a, pre_a]
  unfold Encoder.nbr Scalar.select
  rw [ite_not]
  rfl

/-- The second normalisation's scale and shift at channel `h`. -/
theorem scale2_a (m : Fin 16384) (s : Fin 16) (h : Fin 128) :
    ReadP.val_main_v46 (F := Ideal) x13 (ix3 m s h) = x13 (ix1 h) * Encoder.κ := by
  rw [ReadP.val_main_v46_apply, ReadP.val_main_v45_apply, ReadP.val_main_v44_apply, ReadP.val_main_v43_apply, ReadP.val_main_cst_4_apply]
  exact congrArg (fun j => x13 j * Encoder.κ) (by idx_rfl)
theorem shift2_a (m : Fin 16384) (s : Fin 16) (h : Fin 128) :
    ReadP.val_main_v49 (F := Ideal) x14 (ix3 m s h) = x14 (ix1 h) := by
  rw [ReadP.val_main_v49_apply, ReadP.val_main_v48_apply]
  exact congrArg x14 (by idx_rfl)

/-- The second linear map: neighbour `s`'s 64 features against row `h` of the weights. -/
theorem lin64_a (m : Fin 16384) (s : Fin 16) (h : Fin 128) :
    ReadP.val_main_v42 (F := Ideal) x0 x1 x2 x3 x5 x7 x8 x9 x10 x11 x12 (ix3 m s h)
      = (∑ d : Fin 64, Encoder.nbr (x5 (ix1 m) ≠ 1) (fun c => ReadP.val_main_v21 (F := Ideal) x0 x2 x3 (ix3 m s c))
        (ReadP.val_main_v38 (F := Ideal) x1 x3 x7 x8 (ix3 m s d)) (fun c => x9 (ix2 d c)) (x10 (ix1 d)) (x11 (ix1 d)) * x12 (ix2 h d)) := by
  rw [ReadP.val_main_v42_apply]
  refine Finset.sum_congr rfl fun d _ => ?_
  rw [show ReadP.lidx_main_v42 (ix3 m s h) d = ix3 m s d from by idx_rfl,
    show ReadP.ridx_main_v42 (ix3 m s h) d = ix2 h d from by idx_rfl, nbr_a]

/-- Neighbour `s`'s value in channel `h` before pooling: normalised and rectified. -/
theorem act_a (m : Fin 16384) (s : Fin 16) (h : Fin 128) :
    ReadP.val_main_v51 (F := Ideal) x0 x1 x2 x3 x5 x7 x8 x9 x10 x11 x12 x13 x14 (ix3 m s h)
      = max (Encoder.bn (∑ d : Fin 64, Encoder.nbr (x5 (ix1 m) ≠ 1) (fun c => ReadP.val_main_v21 (F := Ideal) x0 x2 x3 (ix3 m s c))
        (ReadP.val_main_v38 (F := Ideal) x1 x3 x7 x8 (ix3 m s d)) (fun c => x9 (ix2 d c)) (x10 (ix1 d)) (x11 (ix1 d)) * x12 (ix2 h d)) (x13 (ix1 h)) (x14 (ix1 h))) 0 := by
  rw [ReadP.val_main_v51_apply, floor_a, ReadP.val_main_v50_apply, ReadP.val_main_v47_apply, lin64_a, scale2_a, shift2_a]
  rfl

/-- The pooled row: the maximum over the 16 neighbours, from -∞. -/
theorem pooled_a (m : Fin 16384) (h : Fin 128) :
    ReadP.val_main_v52 (F := Ideal) x0 x1 x2 x3 x5 x7 x8 x9 x10 x11 x12 x13 x14 (ix2 m h)
      = Encoder.pooled (fun (s : Fin 16) (d : Fin 64) => Encoder.nbr (x5 (ix1 m) ≠ 1) (fun c => ReadP.val_main_v21 (F := Ideal) x0 x2 x3 (ix3 m s c))
        (ReadP.val_main_v38 (F := Ideal) x1 x3 x7 x8 (ix3 m s d)) (fun c => x9 (ix2 d c)) (x10 (ix1 d)) (x11 (ix1 d)))
        (fun d => x12 (ix2 h d)) (x13 (ix1 h)) (x14 (ix1 h)) := by
  refine (hostReduce_maximumf_axis1 (φ := .f32) (ReadP.val_main_v51 (F := Ideal) x0 x1 x2 x3 x5 x7 x8 x9 x10 x11 x12 x13 x14) (ReadP.val_main_cst_5 (F := Ideal))
    reducesTo_S16384x16x128_S16384x128_d1 reduces_a h_S_ m h).trans ?_
  rw [show ReadP.val_main_cst_5 (F := Ideal) (Shape.Idx.first h_S_) = ⊥ from ofBits_neginf_f32]
  simp only [act_a]
  rfl

/-! ## The scale with 32 neighbours -/

/-- The first normalisation's scale at channel `d`: the stored scale times `κ`. -/
theorem scale_b (m : Fin 16384) (s : Fin 32) (d : Fin 64) :
    ReadP.val_main_v69 (F := Ideal) x18 (ix3 m s d) = x18 (ix1 d) * Encoder.κ := by
  rw [ReadP.val_main_v69_apply, ReadP.val_main_v68_apply, ReadP.val_main_v67_apply, ReadP.val_main_v66_apply, ReadP.val_main_cst_8_apply]
  exact congrArg (fun j => x18 j * Encoder.κ) (by idx_rfl)

/-- The first normalisation's shift at channel `d`. -/
theorem shift_b (m : Fin 16384) (s : Fin 32) (d : Fin 64) :
    ReadP.val_main_v72 (F := Ideal) x19 (ix3 m s d) = x19 (ix1 d) := by
  rw [ReadP.val_main_v72_apply, ReadP.val_main_v71_apply]
  exact congrArg x19 (by idx_rfl)

/-- The two constants of the logistic function are the number one. -/
theorem one_b (i : S16384x32x64.Idx) : ReadP.val_main_call3_v2 (F := Ideal) i = 1 := by
  rw [ReadP.val_main_call3_v2_apply, ReadP.val_main_call3_cst_apply]; exact ofBits_one_f32
theorem one'_b (i : S16384x32x64.Idx) : ReadP.val_main_call3_v4 (F := Ideal) i = 1 := by
  rw [ReadP.val_main_call3_v4_apply, ReadP.val_main_call3_cst_0_apply]; exact ofBits_one_f32

/-- The value a point without neighbours gets is zero. -/
theorem zero_b (i : S16384x32x64.Idx) : ReadP.val_main_call4_v2 (F := Ideal) i = 0 := by
  rw [ReadP.val_main_call4_v2_apply, ReadP.val_main_call4_v0_apply, ReadP.val_main_cst_11_apply]; exact Ideal.ofBits_zero_f32

/-- The rectifier's floor is zero. -/
theorem floor_b (i : S16384x32x128.Idx) : ReadP.val_main_call5_v0 (F := Ideal) i = 0 := by
  rw [ReadP.val_main_call5_v0_apply, ReadP.val_main_call5_cst_apply]; exact Ideal.ofBits_zero_f32

/-- The "no neighbours" flag is the destination point's, whatever the neighbour and the channel. -/
theorem flag_b (m : Fin 16384) (s : Fin 32) (d : Fin 64) :
    ReadP.val_main_call4_v1 (F := Ideal) x6 (ix3 m s d) = x6 (ix1 m) := by
  rw [ReadP.val_main_call4_v1_apply, ReadP.val_main_v83_apply]
  exact congrArg x6 (by idx_rfl)

/-- The first linear map: the six geometric numbers of neighbour `s` against row `d` of the weights. -/
theorem lin6_b (m : Fin 16384) (s : Fin 32) (d : Fin 64) :
    ReadP.val_main_v65 (F := Ideal) x0 x2 x4 x17 (ix3 m s d) = (∑ c : Fin 6, ReadP.val_main_v64 (F := Ideal) x0 x2 x4 (ix3 m s c) * x17 (ix2 d c)) := by
  rw [ReadP.val_main_v65_apply]
  refine Finset.sum_congr rfl fun c _ => ?_
  rw [show ReadP.lidx_main_v65 (ix3 m s d) c = ix3 m s c from by idx_rfl,
    show ReadP.ridx_main_v65 (ix3 m s d) c = ix2 d c from by idx_rfl]

/-- The normalised first linear map. -/
theorem pre_b (m : Fin 16384) (s : Fin 32) (d : Fin 64) :
    ReadP.val_main_v73 (F := Ideal) x0 x2 x4 x17 x18 x19 (ix3 m s d) = Encoder.bn (∑ c : Fin 6, ReadP.val_main_v64 (F := Ideal) x0 x2 x4 (ix3 m s c) * x17 (ix2 d c)) (x18 (ix1 d)) (x19 (ix1 d)) := by
  rw [ReadP.val_main_v73_apply, ReadP.val_main_v70_apply, lin6_b, scale_b, shift_b]
  rfl

/-- The host spells `x · σ(x)` as `x · (1 / (1 + exp (-x)))`, which is the logistic function's definition. -/
theorem silu_b (i : S16384x32x64.Idx) :
    ReadP.val_main_v74 (F := Ideal) x0 x2 x4 x17 x18 x19 i = Encoder.silu (ReadP.val_main_v73 (F := Ideal) x0 x2 x4 x17 x18 x19 i) := by
  rw [ReadP.val_main_v74_apply, ReadP.val_main_call3_v5_apply, one'_b, ReadP.val_main_call3_v3_apply, one_b, ReadP.val_main_call3_v1_apply,
    ReadP.val_main_call3_v0_apply]
  rfl

/-- One neighbour's feature: zero at a point without neighbours, else the activated geometric part plus the gathered row. -/
theorem nbr_b (m : Fin 16384) (s : Fin 32) (d : Fin 64) :
    ReadP.val_main_v84 (F := Ideal) x0 x1 x2 x4 x6 x15 x16 x17 x18 x19 (ix3 m s d)
      = Encoder.nbr (x6 (ix1 m) ≠ 1) (fun c => ReadP.val_main_v64 (F := Ideal) x0 x2 x4 (ix3 m s c))
        (ReadP.val_main_v81 (F := Ideal) x1 x4 x15 x16 (ix3 m s d)) (fun c => x17 (ix2 d c)) (x18 (ix1 d)) (x19 (ix1 d)) := by
  rw [ReadP.val_main_v84_apply, flag_b, zero_b, ReadP.val_main_v82_apply, silu_b, pre_b]
  unfold Encoder.nbr Scalar.select
  rw [ite_not]
  rfl

/-- The second normalisation's scale and shift at channel `h`. -/
theorem scale2_b (m : Fin 16384) (s : Fin 32) (h : Fin 128) :
    ReadP.val_main_v89 (F := Ideal) x21 (ix3 m s h) = x21 (ix1 h) * Encoder.κ := by
  rw [ReadP.val_main_v89_apply, ReadP.val_main_v88_apply, ReadP.val_main_v87_apply, ReadP.val_main_v86_apply, ReadP.val_main_cst_12_apply]
  exact congrArg (fun j => x21 j * Encoder.κ) (by idx_rfl)
theorem shift2_b (m : Fin 16384) (s : Fin 32) (h : Fin 128) :
    ReadP.val_main_v92 (F := Ideal) x22 (ix3 m s h) = x22 (ix1 h) := by
  rw [ReadP.val_main_v92_apply, ReadP.val_main_v91_apply]
  exact congrArg x22 (by idx_rfl)

/-- The second linear map: neighbour `s`'s 64 features against row `h` of the weights. -/
theorem lin64_b (m : Fin 16384) (s : Fin 32) (h : Fin 128) :
    ReadP.val_main_v85 (F := Ideal) x0 x1 x2 x4 x6 x15 x16 x17 x18 x19 x20 (ix3 m s h)
      = (∑ d : Fin 64, Encoder.nbr (x6 (ix1 m) ≠ 1) (fun c => ReadP.val_main_v64 (F := Ideal) x0 x2 x4 (ix3 m s c))
        (ReadP.val_main_v81 (F := Ideal) x1 x4 x15 x16 (ix3 m s d)) (fun c => x17 (ix2 d c)) (x18 (ix1 d)) (x19 (ix1 d)) * x20 (ix2 h d)) := by
  rw [ReadP.val_main_v85_apply]
  refine Finset.sum_congr rfl fun d _ => ?_
  rw [show ReadP.lidx_main_v85 (ix3 m s h) d = ix3 m s d from by idx_rfl,
    show ReadP.ridx_main_v85 (ix3 m s h) d = ix2 h d from by idx_rfl, nbr_b]

/-- Neighbour `s`'s value in channel `h` before pooling: normalised and rectified. -/
theorem act_b (m : Fin 16384) (s : Fin 32) (h : Fin 128) :
    ReadP.val_main_v94 (F := Ideal) x0 x1 x2 x4 x6 x15 x16 x17 x18 x19 x20 x21 x22 (ix3 m s h)
      = max (Encoder.bn (∑ d : Fin 64, Encoder.nbr (x6 (ix1 m) ≠ 1) (fun c => ReadP.val_main_v64 (F := Ideal) x0 x2 x4 (ix3 m s c))
        (ReadP.val_main_v81 (F := Ideal) x1 x4 x15 x16 (ix3 m s d)) (fun c => x17 (ix2 d c)) (x18 (ix1 d)) (x19 (ix1 d)) * x20 (ix2 h d)) (x21 (ix1 h)) (x22 (ix1 h))) 0 := by
  rw [ReadP.val_main_v94_apply, floor_b, ReadP.val_main_v93_apply, ReadP.val_main_v90_apply, lin64_b, scale2_b, shift2_b]
  rfl

/-- The pooled row: the maximum over the 32 neighbours, from -∞. -/
theorem pooled_b (m : Fin 16384) (h : Fin 128) :
    ReadP.val_main_v95 (F := Ideal) x0 x1 x2 x4 x6 x15 x16 x17 x18 x19 x20 x21 x22 (ix2 m h)
      = Encoder.pooled (fun (s : Fin 32) (d : Fin 64) => Encoder.nbr (x6 (ix1 m) ≠ 1) (fun c => ReadP.val_main_v64 (F := Ideal) x0 x2 x4 (ix3 m s c))
        (ReadP.val_main_v81 (F := Ideal) x1 x4 x15 x16 (ix3 m s d)) (fun c => x17 (ix2 d c)) (x18 (ix1 d)) (x19 (ix1 d)))
        (fun d => x20 (ix2 h d)) (x21 (ix1 h)) (x22 (ix1 h)) := by
  refine (hostReduce_maximumf_axis1 (φ := .f32) (ReadP.val_main_v94 (F := Ideal) x0 x1 x2 x4 x6 x15 x16 x17 x18 x19 x20 x21 x22) (ReadP.val_main_cst_13 (F := Ideal))
    reducesTo_S16384x32x128_S16384x128_d1 reduces_b h_S_ m h).trans ?_
  rw [show ReadP.val_main_cst_13 (F := Ideal) (Shape.Idx.first h_S_) = ⊥ from ofBits_neginf_f32]
  simp only [act_b]
  rfl

/-! ## The head -/

/-- The two pooled rows side by side. -/
theorem side_at (m : Fin 16384) (j : Fin 256) :
    ReadP.val_main_v96 (F := Ideal) x0 x1 x2 x3 x4 x5 x6 x7 x8 x9 x10 x11 x12 x13 x14 x15 x16 x17 x18 x19 x20 x21 x22 (ix2 m j)
      = Encoder.side (fun h => ReadP.val_main_v52 (F := Ideal) x0 x1 x2 x3 x5 x7 x8 x9 x10 x11 x12 x13 x14 (ix2 m h))
        (fun h => ReadP.val_main_v95 (F := Ideal) x0 x1 x2 x4 x6 x15 x16 x17 x18 x19 x20 x21 x22 (ix2 m h)) j := by
  unfold ReadP.val_main_v96 Encoder.side
  exact concat_cols_apply _ _ concatenates_S16384x128_S16384x128_S16384x256_d1 m j rfl

/-- The last normalisation's scale and shift at channel `o`. -/
theorem scale3 (m : Fin 16384) (o : Fin 256) :
    ReadP.val_main_v102 (F := Ideal) x24 (ix2 m o) = x24 (ix1 o) * Encoder.κ := by
  rw [ReadP.val_main_v102_apply, ReadP.val_main_v101_apply, ReadP.val_main_v100_apply, ReadP.val_main_v99_apply, ReadP.val_main_cst_14_apply]
  exact congrArg (fun j => x24 j * Encoder.κ) (by idx_rfl)
theorem shift3 (m : Fin 16384) (o : Fin 256) :
    ReadP.val_main_v105 (F := Ideal) x25 (ix2 m o) = x25 (ix1 o) := by
  rw [ReadP.val_main_v105_apply, ReadP.val_main_v104_apply]
  exact congrArg x25 (by idx_rfl)
theorem floor3 (i : S16384x256.Idx) : ReadP.val_main_call6_v0 (F := Ideal) i = 0 := by
  rw [ReadP.val_main_call6_v0_apply, ReadP.val_main_call6_cst_apply]; exact Ideal.ofBits_zero_f32

/-- The last linear map: the 256 pooled channels of point `m` against row `o` of the weights (the program transposes
    the weights and contracts over the transposed matrix's first axis). -/
theorem lin256 (m : Fin 16384) (o : Fin 256) :
    ReadP.val_main_v98 (F := Ideal) x0 x1 x2 x3 x4 x5 x6 x7 x8 x9 x10 x11 x12 x13 x14 x15 x16 x17 x18 x19 x20 x21 x22 x23 (ix2 m o)
      = ∑ j : Fin 256, ReadP.val_main_v96 (F := Ideal) x0 x1 x2 x3 x4 x5 x6 x7 x8 x9 x10 x11 x12 x13 x14 x15 x16 x17 x18 x19 x20 x21 x22 (ix2 m j) * x23 (ix2 o j) := by
  rw [ReadP.val_main_v98_apply]
  refine Finset.sum_congr rfl fun j _ => ?_
  rw [ReadP.val_main_v97_apply, show ReadP.lidx_main_v98 (ix2 m o) j = ix2 m j from by idx_rfl,
    show ReadP.idx_main_v97 (ReadP.ridx_main_v98 (ix2 m o) j) = ix2 o j from by idx_rfl]

/-- The reference's result at point `m`, channel `o`, is the specification's row of that point's own data. -/
theorem ref_row (m : Fin 16384) (o : Fin 256) :
    ReadP.val_main_v107 (F := Ideal) x0 x1 x2 x3 x4 x5 x6 x7 x8 x9 x10 x11 x12 x13 x14 x15 x16 x17 x18 x19 x20 x21 x22 x23 x24 x25 (ix2 m o)
      = Cert.Encoder.row (x5 (ix1 m) ≠ 1) (x6 (ix1 m) ≠ 1)
          (fun s c => ReadP.val_main_v21 (F := Ideal) x0 x2 x3 (ix3 m s c)) (fun s c => ReadP.val_main_v64 (F := Ideal) x0 x2 x4 (ix3 m s c))
          (fun s d => ReadP.val_main_v38 (F := Ideal) x1 x3 x7 x8 (ix3 m s d)) (fun s d => ReadP.val_main_v81 (F := Ideal) x1 x4 x15 x16 (ix3 m s d))
          (fun d c => x9 (ix2 d c)) (fun d => x10 (ix1 d)) (fun d => x11 (ix1 d)) (fun h d => x12 (ix2 h d)) (fun h => x13 (ix1 h)) (fun h => x14 (ix1 h))
          (fun d c => x17 (ix2 d c)) (fun d => x18 (ix1 d)) (fun d => x19 (ix1 d)) (fun h d => x20 (ix2 h d)) (fun h => x21 (ix1 h)) (fun h => x22 (ix1 h))
          (fun o' j => x23 (ix2 o' j)) (fun o' => x24 (ix1 o')) (fun o' => x25 (ix1 o')) o := by
  rw [ReadP.val_main_v107_apply, floor3, ReadP.val_main_v106_apply, ReadP.val_main_v103_apply, lin256, scale3, shift3]
  simp only [side_at, pooled_a, pooled_b]
  rfl

end Cert.ReferenceIdeal.RefValue

end
-- ==== Proof.FcValue.lean ====
/-
  The first region of the kernel program: a linear layer on the 65536 source rows, both halves at once.

  Before the region the host stacks the two 64 × 64 weight matrices along the rows (128 × 64), transposes the stack
  (64 × 128) and lays the two biases end to end (128). The region walks 16 grid points; point t loads rows
  4096·t … 4096·t + 4095 of the input (all 64 channels), the whole weights and the whole bias, and leaves in the output's
  block the rows' product with the weights, from a zero accumulator, plus the bias spread over the rows; over the
  extended reals the narrowing conversions are the identity. Each point writes its block back, and the 16 blocks tile
  the 65536 × 128 output, so the output ends as ONE function of the arrays the region finds: entry (r, q) is
  ∑ₖ input (r, k) · weights (k, q) + bias q. Read through the transposition and the two concatenations, column d < 64 is
  the linear layer with the first weight matrix and the first bias, and column 64 + d the one with the second pair.

  The steps: the body's result at an index of a block (`pay_apply`, `pay_block`); each window's block as entries of its
  array, from the block index maps decided once over the 16 points (`idx_facts`, `blk_rows`, `blk_w`, `blk_b`); what a
  point writes back (`flushed_eq`); membership in a block and the cover (`mem_blk`, `cover`); the array after the region
  for any entry contents (`final`); the transposed stack and the joined biases at an index (`wt_lo`, `wt_hi`, `bias_lo`,
  `bias_hi`); the entry contents from the launch memory (`entry_rows`, `entry_w`, `entry_b`); the two halves
  (`fcArr_lo`, `fcArr_hi`, `final_launch`, `fc_lo`, `fc_hi`).
-/
import proofs.«141855_j52682068853185_2_alg».proof.Proof.Gen.KernelIdeal.Frame
import proofs.«141855_j52682068853185_2_alg».proof.Proof.Encoder
import proofs.«141855_j52682068853185_2_alg».proof.Proof.LibPlainMatmul
import Idealize.ShloMosaic.Lib.Pipeline.Value
import Idealize.ShloMosaic.Lib.ValueIdx
import Idealize.ShloMosaic.Lib.Tactic

noncomputable section

open Idealize.ShloMosaic Idealize.ShloMosaic.TcCoe Idealize.ShloMosaic.ValueIdx Idealize.SL.Sem
open Idealize.ShloMosaic.Pipeline (Dat)
open scoped BigOperators

namespace Cert.KernelIdeal.FcValue

open Cert.KernelIdeal Cert.KernelIdeal.Gen Cert.LibPlainMatmul

/-- The body's result at row p, column q of a block: row p of the loaded rows against column q of the weights,
    summed over the 64 shared channels (the product starts from a zero accumulator, and the narrowing conversions are
    the identity over the extended reals), plus entry q of the bias, which is spread over the rows. -/
theorem pay_apply (x0 : Vec Ideal S4096x64 .f32) (x1 : Vec Ideal S64x128 .f32) (x2 : Vec Ideal S128 .f32)
    (p : Fin 4096) (q : Fin 128) :
    k0_pay1 x0 x1 x2 (ix2 p q) = (∑ k : Fin 64, x0 (ix2 p k) * x1 (ix2 k q)) + x2 (ix1 q) := by
  unfold k0_pay1
  rw [truncf_apply, addf_apply]
  refine congrArg₂ (· + ·) ?_ ?_
  · refine (matmul_zero_plain _ _ _ p q).trans ?_
    refine Finset.sum_congr rfl fun k _ => ?_
    rw [truncf_apply, truncf_apply, shapeCast_self]
  · rw [shapeCast_self]
    refine (broadcastTo_apply _ _ (ix2 p q) (ix2 (0 : Fin 1) q) fun a => ?_).trans ?_
    · match a with
      | ⟨0, _⟩ => rfl
      | ⟨1, _⟩ => rfl
    · refine shapeCast_apply _ _ _ (ix1 q) ?_
      rw [Shape.rowMajor_val_one, Shape.rowMajor_val_two]
      show q.val = (0 : Fin 1).val * 128 + q.val
      simp

theorem hz2 : (![0, 0] : Fin 2 → Nat) = fun _ => 0 := funext fun a => by fin_cases a <;> rfl
theorem hz1 : (![0] : Fin 1 → Nat) = fun _ => 0 := funext fun a => by fin_cases a; rfl

/-- The linear layer over the whole array: entry (r, q) is row r of the input against column q of the weights, summed
    over the 64 shared channels, plus entry q of the bias. -/
def fcArr (a : S65536x64.Idx → EReal) (w : S64x128.Idx → EReal) (b : S128.Idx → EReal) : S65536x128.Idx → EReal :=
  fun i => (∑ k : Fin 64, a (ix2 (i 0) k) * w (ix2 k (i 1))) + b (ix1 (i 1))

/-- The block index maps over the 16 grid points: the input rows and the output rows move together, one block of 4096
    rows per point; the weights and the bias are whole at every point. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-- A block entry from the array: when row p of the loaded rows is row r of the input array, and the loaded weights and
    bias are the whole arrays, the body's result at (p, q) is the layer's entry (r, q). -/
theorem pay_block (a : S65536x64.Idx → EReal) (w : S64x128.Idx → EReal) (b : S128.Idx → EReal)
    (x0 : Vec Ideal S4096x64 .f32) (x1 : Vec Ideal S64x128 .f32) (x2 : Vec Ideal S128 .f32)
    (p : Fin 4096) (q : Fin 128) (r : Fin 65536)
    (h0 : ∀ k : Fin 64, x0 (ix2 p k) = a (ix2 r k)) (h1 : x1 = w) (h2 : x2 = b) :
    k0_pay1 x0 x1 x2 (ix2 p q) = fcArr a w b (ix2 r q) := by
  subst h1 h2
  rw [pay_apply]
  show _ = (∑ k : Fin 64, a (ix2 r k) * x1 (ix2 k q)) + x2 (ix1 q)
  simp only [h0]

variable (V : (c : Dev nD) → (b : Ref sig .tc) → Buf (Elt Ideal) ((c : Thread nD τ).loc b))

/-- The input window's block at point t is rows 4096·t … 4096·t + 4095 of the input array. -/
theorem blk_rows (c : Dev nD) (t : Fin cfg0.N) (p : Fin 4096) (k : Fin 64) (r : Fin 65536)
    (hr : r.val = t.val * 4096 + p.val) :
    (iblk0 (F := Ideal) V c 0 t : Vec Ideal S4096x64 .f32) (ix2 p k) = (V c main_arg1 : S65536x64.Idx → EReal) (ix2 r k) := by
  obtain ⟨e0, e1, -⟩ := idx_facts t
  unfold iblk0
  rw [View.read_apply]
  show V c main_arg1 _ = V c main_arg1 _
  congr 1
  funext a; apply Fin.ext
  match a with
  | ⟨0, _⟩ => show win0_0.index t (0 : Fin 2) * 4096 + 1 * p.val = r.val; rw [e0, hr]; omega
  | ⟨1, _⟩ => show win0_0.index t (1 : Fin 2) * 64 + 1 * k.val = k.val; rw [e1]; omega

/-- The weights' window is the whole weight array at every point. -/
theorem blk_w (c : Dev nD) (t : Fin cfg0.N) :
    (iblk0 (F := Ideal) V c 1 t : Vec Ideal S64x128 .f32) = (V c main_v1 : S64x128.Idx → EReal) := by
  obtain ⟨-, -, e2, e3, -⟩ := idx_facts t
  funext x
  unfold iblk0
  rw [View.read_apply]
  show V c main_v1 _ = V c main_v1 x
  congr 1
  funext a; apply Fin.ext
  match a with
  | ⟨0, _⟩ => show win0_1.index t (0 : Fin 2) * 64 + 1 * (x 0).val = (x 0).val; rw [e2]; omega
  | ⟨1, _⟩ => show win0_1.index t (1 : Fin 2) * 128 + 1 * (x 1).val = (x 1).val; rw [e3]; omega

/-- The bias's window is the whole bias array at every point. -/
theorem blk_b (c : Dev nD) (t : Fin cfg0.N) :
    (iblk0 (F := Ideal) V c 2 t : Vec Ideal S128 .f32) = (V c main_v2 : S128.Idx → EReal) := by
  obtain ⟨-, -, -, -, e4, -⟩ := idx_facts t
  funext x
  unfold iblk0
  rw [View.read_apply]
  show V c main_v2 _ = V c main_v2 x
  congr 1
  funext a; apply Fin.ext
  match a with
  | ⟨0, _⟩ => show win0_2.index t (0 : Fin 1) * 128 + 1 * (x 0).val = (x 0).val; rw [e4]; omega

/-- What point t writes back is block t of the layer over the whole arrays as the region finds them: the output's
    block is rows 4096·t … 4096·t + 4095, all 128 columns, and its entry (p, q) is the layer's entry (4096·t + p, q). -/
theorem flushed_eq (c : Dev nD) (t : Fin cfg0.N) :
    (dat0 (F := Ideal) V c).flushed 3 t
      = ((cfg0.win 3).blk t).view.read (Elt Ideal) (fcArr (V c main_arg1) (V c main_v1) (V c main_v2)) := by
  show (cfg0.win 3).cut (grid0.coords t) ((dat0 V c).after 3 t) = _
  rw [after0_3]
  unfold out0_3
  rw [View.canon_unit_zero hz2]
  simp only [View.ld_unit_zero (S := S4096x64) hz2, View.ld_unit_zero (S := S64x128) hz2, View.ld_unit_zero (S := S128) hz1]
  obtain ⟨-, -, -, -, -, e5, e6⟩ := idx_facts t
  have key : ∀ y : S4096x128.Idx, k0_pay1 (iblk0 V c 0 t) (iblk0 V c 1 t) (iblk0 V c 2 t) y
      = fcArr (V c main_arg1) (V c main_v1) (V c main_v2) (((cfg0.win 3).blk t).view.emb y) := by
    intro y
    obtain ⟨p, q, rfl⟩ : ∃ (p : Fin 4096) (q : Fin 128), y = ix2 p q := ⟨y 0, y 1, eq_ix2 y⟩
    have hN : cfg0.N = 16 := N_0
    have hr : t.val * 4096 + p.val < 65536 := by have := t.isLt; omega
    have he : ((cfg0.win 3).blk t).view.emb (ix2 p q) = ix2 (⟨t.val * 4096 + p.val, hr⟩ : Fin 65536) q := by
      funext a; apply Fin.ext
      match a with
      | ⟨0, _⟩ => show win0_3.index t (0 : Fin 2) * 4096 + 1 * p.val = t.val * 4096 + p.val; rw [e5]; omega
      | ⟨1, _⟩ => show win0_3.index t (1 : Fin 2) * 128 + 1 * q.val = q.val; rw [e6]; omega
    rw [he]
    exact pay_block (V c main_arg1) (V c main_v1) (V c main_v2) (iblk0 V c 0 t) (iblk0 V c 1 t) (iblk0 V c 2 t) p q
      ⟨t.val * 4096 + p.val, hr⟩ (fun k => blk_rows V c t p k ⟨t.val * 4096 + p.val, hr⟩ rfl) (blk_w V c t) (blk_b V c t)
  funext j
  exact key j

/-- An index of the output array is in point t's block iff each coordinate is in the block's range on its axis. -/
theorem mem_blk (t : Fin cfg0.N) (i : S65536x128.Idx) :
    i ∈ ((cfg0.win 3).blk t).view.set ↔ ∀ a : Fin 2, win0_3.index t a * S4096x128.size a ≤ (i a).val
      ∧ (i a).val < win0_3.index t a * S4096x128.size a + S4096x128.size a := by
  show i ∈ ((View.whole main_v3).slice (win0_3.rect t)).set ↔ _
  rw [View.set_slice_whole, Rect.mem_set_unit]
  exact Iff.rfl

/-- Every index of the output array is in some point's block: row r is covered by point r / 4096, and every point
    writes its block back. -/
theorem cover (i : S65536x128.Idx) :
    ∃ t : Fin cfg0.N, (cfg0.win 3).flush t = true ∧ i ∈ ((cfg0.win 3).blk t).view.set := by
  have h0 : (i 0).val < 65536 := (i 0).isLt
  have h1 : (i 1).val < 128 := (i 1).isLt
  have hN : cfg0.N = 16 := N_0
  obtain ⟨t, ht⟩ : ∃ t : Fin cfg0.N, t.val = (i 0).val / 4096 := ⟨⟨(i 0).val / 4096, by omega⟩, rfl⟩
  obtain ⟨-, -, -, -, -, e5, e6⟩ := idx_facts t
  refine ⟨t, flush0_3 t, ?_⟩
  rw [mem_blk]
  intro a
  match a with
  | ⟨0, _⟩ =>
    show win0_3.index t (0 : Fin 2) * 4096 ≤ (i 0).val ∧ (i 0).val < win0_3.index t (0 : Fin 2) * 4096 + 4096
    rw [e5, ht]; omega
  | ⟨1, _⟩ =>
    show win0_3.index t (1 : Fin 2) * 128 ≤ (i 1).val ∧ (i 1).val < win0_3.index t (1 : Fin 2) * 128 + 128
    rw [e6]; omega

/-- The output array after the region: the layer over the whole arrays as the region finds them. -/
theorem final (c : Dev nD) :
    (dat0 (F := Ideal) V c).arrAt 3 cfg0.N = fcArr (V c main_arg1) (V c main_v1) (V c main_v2) :=
  (dat0 V c).arrAt_eq_of_cover 3 (fcArr (V c main_arg1) (V c main_v1) (V c main_v2)) (fun t _ => flushed_eq V c t) cover

/-! ## The weights and the bias as the host operations before the region leave them -/

/-- Column d < 64 of the transposed stack of the two weight matrices is row d of the first. -/
theorem wt_lo (a7 a15 : S64x64.Idx → EReal) (k d : Fin 64) :
    transpose S64x128 [1, 0] (concatenate S128x64 0 [⟨S64x64, a7⟩, ⟨S64x64, a15⟩] concatenates_S64x64_S64x64_S128x64_d0)
        transposes_S128x64_S64x128_1_0 (ix2 k (⟨d.val, by omega⟩ : Fin 128)) = a7 (ix2 d k) := by
  refine (transpose_apply _ _ _ _ (ix2 (⟨d.val, by omega⟩ : Fin 128) k) fun b => ?_).trans ?_
  · match b with
    | ⟨0, _⟩ => rfl
    | ⟨1, _⟩ => rfl
  · refine concatenate_pair_apply_left (t := S128x64) (s₁ := S64x64) (s₂ := S64x64) (0 : Fin 2) a7 a15 concatenates_S64x64_S64x64_S128x64_d0 _ rfl (ix2 d k) fun b => ?_
    match b with
    | ⟨0, _⟩ => rfl
    | ⟨1, _⟩ => rfl

/-- Column 64 + d of the transposed stack is row d of the second weight matrix. -/
theorem wt_hi (a7 a15 : S64x64.Idx → EReal) (k d : Fin 64) :
    transpose S64x128 [1, 0] (concatenate S128x64 0 [⟨S64x64, a7⟩, ⟨S64x64, a15⟩] concatenates_S64x64_S64x64_S128x64_d0)
        transposes_S128x64_S64x128_1_0 (ix2 k (⟨64 + d.val, by omega⟩ : Fin 128)) = a15 (ix2 d k) := by
  refine (transpose_apply _ _ _ _ (ix2 (⟨64 + d.val, by omega⟩ : Fin 128) k) fun b => ?_).trans ?_
  · match b with
    | ⟨0, _⟩ => rfl
    | ⟨1, _⟩ => rfl
  · refine concatenate_pair_apply_right (t := S128x64) (s₁ := S64x64) (s₂ := S64x64) (0 : Fin 2) a7 a15 concatenates_S64x64_S64x64_S128x64_d0 _ rfl rfl (ix2 d k) (fun b hb => ?_) ?_
    · match b with
      | ⟨0, _⟩ => exact absurd rfl hb
      | ⟨1, _⟩ => rfl
    · show d.val + 64 = 64 + d.val
      omega

/-- Entry d < 64 of the two biases laid end to end is entry d of the first. -/
theorem bias_lo (a8 a16 : S64.Idx → EReal) (d : Fin 64) :
    concatenate S128 0 [⟨S64, a8⟩, ⟨S64, a16⟩] concatenates_S64_S64_S128_d0 (ix1 (⟨d.val, by omega⟩ : Fin 128)) = a8 (ix1 d) := by
  refine concatenate_pair_apply_left (t := S128) (s₁ := S64) (s₂ := S64) (0 : Fin 1) a8 a16 concatenates_S64_S64_S128_d0 _ rfl (ix1 d) fun b => ?_
  match b with
  | ⟨0, _⟩ => rfl

/-- Entry 64 + d is entry d of the second. -/
theorem bias_hi (a8 a16 : S64.Idx → EReal) (d : Fin 64) :
    concatenate S128 0 [⟨S64, a8⟩, ⟨S64, a16⟩] concatenates_S64_S64_S128_d0 (ix1 (⟨64 + d.val, by omega⟩ : Fin 128)) = a16 (ix1 d) := by
  refine concatenate_pair_apply_right (t := S128) (s₁ := S64) (s₂ := S64) (0 : Fin 1) a8 a16 concatenates_S64_S64_S128_d0 _ rfl rfl (ix1 d) (fun b hb => ?_) ?_
  · match b with
    | ⟨0, _⟩ => exact absurd rfl hb
  · show d.val + 64 = 64 + d.val
    omega

/-! ## The region-entry contents from the launch memory, and the layer's two halves -/

variable (m : (ℓ : Loc nD τ sig) → Buf (Elt Ideal) ℓ) (ρ : Dev nD → PrngReg)

/-- No host operation before the region writes the input array: the region finds it as launched. -/
theorem entry_rows (c : Dev nD) : V1 m ρ c main_arg1 = m ((c : Thread nD τ).loc main_arg1) :=
  (StableHlo.after_of_forall_not_mem (b := Proc.devRef .tc main_arg1) _ _ (List.forall_iff_forall_mem.mp (by
      simp only [hostOps0, List.Forall, StableHlo.unary_writes, StableHlo.binary_writes, Finset.mem_singleton]
      repeat' apply And.intro
      all_goals exact StableHlo.devRef_ne_of_ne (by decide)))).trans rfl

/-- The weights the region finds: the two launched weight matrices stacked along the rows, then transposed. -/
theorem entry_w (c : Dev nD) : (V1 m ρ c main_v1 : S64x128.Idx → EReal)
    = transpose S64x128 [1, 0] (concatenate S128x64 0
        [⟨S64x64, (m ((c : Thread nD τ).loc main_arg7) : S64x64.Idx → EReal)⟩,
         ⟨S64x64, (m ((c : Thread nD τ).loc main_arg15) : S64x64.Idx → EReal)⟩] concatenates_S64x64_S64x64_S128x64_d0)
        transposes_S128x64_S64x128_1_0 := by
  dsimp only [V1, W1, hostOps0]
  after_results

/-- The bias the region finds: the two launched biases laid end to end. -/
theorem entry_b (c : Dev nD) : (V1 m ρ c main_v2 : S128.Idx → EReal)
    = concatenate S128 0 [⟨S64, (m ((c : Thread nD τ).loc main_arg8) : S64.Idx → EReal)⟩,
        ⟨S64, (m ((c : Thread nD τ).loc main_arg16) : S64.Idx → EReal)⟩] concatenates_S64_S64_S128_d0 := by
  dsimp only [V1, W1, hostOps0]
  after_results

/-- The layer's entry (n, d) for d < 64, when the weights are the transposed stack and the bias the two biases end to
    end: the first weight matrix's row d against input row n, plus the first bias's entry d. -/
theorem fcArr_lo (a1 : S65536x64.Idx → EReal) (a7 a15 : S64x64.Idx → EReal) (a8 a16 : S64.Idx → EReal)
    (n : Fin 65536) (d : Fin 64) :
    fcArr a1
        (transpose S64x128 [1, 0] (concatenate S128x64 0 [⟨S64x64, a7⟩, ⟨S64x64, a15⟩] concatenates_S64x64_S64x64_S128x64_d0)
          transposes_S128x64_S64x128_1_0)
        (concatenate S128 0 [⟨S64, a8⟩, ⟨S64, a16⟩] concatenates_S64_S64_S128_d0)
        (ix2 n (⟨d.val, by omega⟩ : Fin 128))
      = Cert.Encoder.fc (fun k : Fin 64 => a1 (ix2 n k)) (fun k => a7 (ix2 d k)) (a8 (ix1 d)) := by
  unfold fcArr Cert.Encoder.fc
  exact congrArg₂ (· + ·) (Finset.sum_congr rfl fun k _ => congrArg (a1 (ix2 n k) * ·) (wt_lo a7 a15 k d)) (bias_lo a8 a16 d)

/-- The same for column 64 + d: the second weight matrix and the second bias. -/
theorem fcArr_hi (a1 : S65536x64.Idx → EReal) (a7 a15 : S64x64.Idx → EReal) (a8 a16 : S64.Idx → EReal)
    (n : Fin 65536) (d : Fin 64) :
    fcArr a1
        (transpose S64x128 [1, 0] (concatenate S128x64 0 [⟨S64x64, a7⟩, ⟨S64x64, a15⟩] concatenates_S64x64_S64x64_S128x64_d0)
          transposes_S128x64_S64x128_1_0)
        (concatenate S128 0 [⟨S64, a8⟩, ⟨S64, a16⟩] concatenates_S64_S64_S128_d0)
        (ix2 n (⟨64 + d.val, by omega⟩ : Fin 128))
      = Cert.Encoder.fc (fun k : Fin 64 => a1 (ix2 n k)) (fun k => a15 (ix2 d k)) (a16 (ix1 d)) := by
  unfold fcArr Cert.Encoder.fc
  exact congrArg₂ (· + ·) (Finset.sum_congr rfl fun k _ => congrArg (a1 (ix2 n k) * ·) (wt_hi a7 a15 k d)) (bias_hi a8 a16 d)

/-- The output array after the first region, as one function of the launch memory. -/
theorem final_launch (c : Dev nD) :
    (dat0 (F := Ideal) (V1 m ρ) c).arrAt 3 cfg0.N
      = fcArr (m ((c : Thread nD τ).loc main_arg1))
          (transpose S64x128 [1, 0] (concatenate S128x64 0
            [⟨S64x64, (m ((c : Thread nD τ).loc main_arg7) : S64x64.Idx → EReal)⟩,
             ⟨S64x64, (m ((c : Thread nD τ).loc main_arg15) : S64x64.Idx → EReal)⟩] concatenates_S64x64_S64x64_S128x64_d0)
            transposes_S128x64_S64x128_1_0)
          (concatenate S128 0 [⟨S64, (m ((c : Thread nD τ).loc main_arg8) : S64.Idx → EReal)⟩,
            ⟨S64, (m ((c : Thread nD τ).loc main_arg16) : S64.Idx → EReal)⟩] concatenates_S64_S64_S128_d0) := by
  rw [final (V1 m ρ) c, entry_rows m ρ c, entry_w m ρ c, entry_b m ρ c]

/-- COLUMNS 0 … 63 of the first region's output: row n, column d is the linear layer with the first weight matrix and
    the first bias, on input row n. -/
theorem fc_lo (c : Dev nD) (n : Fin 65536) (d : Fin 64) :
    ((dat0 (F := Ideal) (V1 m ρ) c).arrAt 3 cfg0.N : S65536x128.Idx → EReal) (ix2 n (⟨d.val, by omega⟩ : Fin 128))
      = Cert.Encoder.fc (fun k : Fin 64 => (m ((c : Thread nD τ).loc main_arg1) : S65536x64.Idx → EReal) (ix2 n k))
          (fun k => (m ((c : Thread nD τ).loc main_arg7) : S64x64.Idx → EReal) (ix2 d k))
          ((m ((c : Thread nD τ).loc main_arg8) : S64.Idx → EReal) (ix1 d)) := by
  rw [final_launch m ρ c]
  exact fcArr_lo _ _ _ _ _ n d

/-- COLUMNS 64 … 127: the second weight matrix and the second bias. -/
theorem fc_hi (c : Dev nD) (n : Fin 65536) (d : Fin 64) :
    ((dat0 (F := Ideal) (V1 m ρ) c).arrAt 3 cfg0.N : S65536x128.Idx → EReal) (ix2 n (⟨64 + d.val, by omega⟩ : Fin 128))
      = Cert.Encoder.fc (fun k : Fin 64 => (m ((c : Thread nD τ).loc main_arg1) : S65536x64.Idx → EReal) (ix2 n k))
          (fun k => (m ((c : Thread nD τ).loc main_arg15) : S64x64.Idx → EReal) (ix2 d k))
          ((m ((c : Thread nD τ).loc main_arg16) : S64.Idx → EReal) (ix1 d)) := by
  rw [final_launch m ρ c]
  exact fcArr_hi _ _ _ _ _ n d

end Cert.KernelIdeal.FcValue

end
-- ==== Proof.RefCur.lean ====
/-
  The reference program's per-row linear layer, once for each scale.

  For the first scale the reference transposes the 64 × 64 weight matrix, contracts each of the 65536 input rows with it
  over the 64 shared channels, and adds the bias spread over the rows (first to a 1 × 64 row, then over all rows); the
  second scale does the same with its own weights and bias. Read at row n and channel d: the contraction reads the
  input at (n, k) and the transposed weights at (k, d), which is the stored matrix at (d, k); the spread bias reads
  entry d. So the value is ∑ₖ input (n, k) · weights (d, k) + bias d, the specification's linear layer on row n with
  row d of the weights. Each statement is the chain of the operations' reads, outermost first, then the three index
  equations that name the composed index maps by coordinates.
-/
import proofs.«141855_j52682068853185_2_alg».proof.Proof.RefReadP
import proofs.«141855_j52682068853185_2_alg».proof.Proof.Encoder
import Idealize.ShloMosaic.Lib.ValueIdx

noncomputable section

open Idealize.ShloMosaic Idealize.ShloMosaic.ValueIdx
open scoped BigOperators

namespace Cert.ReferenceIdeal.RefCur

open Cert.ReferenceIdeal Cert.ReferenceIdeal.ReadP

/-- The first scale's layer at row n, channel d: row d of the stored weights against input row n, plus bias d. -/
theorem ref_cur0 (x1 : (⟨S65536x64, .f32⟩ : BufTy).Contents (Elt Ideal)) (x7 : (⟨S64x64, .f32⟩ : BufTy).Contents (Elt Ideal))
    (x8 : (⟨S64, .f32⟩ : BufTy).Contents (Elt Ideal)) (n : Fin 65536) (d : Fin 64) :
    val_main_v4 (F := Ideal) x1 x7 x8 (ix2 n d)
      = Cert.Encoder.fc (fun k : Fin 64 => x1 (ix2 n k)) (fun k => x7 (ix2 d k)) (x8 (ix1 d)) := by
  -- the contraction's left operand is read at (n, k)
  have el : ∀ k : Fin 64, lidx_main_v1 (ix2 n d) k = ix2 n k := fun k => funext fun a => Fin.ext (by
    match a with
    | ⟨0, _⟩ => rfl
    | ⟨1, _⟩ => rfl)
  -- its right operand at (k, d) of the transposed weights: (d, k) of the stored ones
  have er : ∀ k : Fin 64, idx_main_v0 (ridx_main_v1 (ix2 n d) k) = ix2 d k := fun k => funext fun a => Fin.ext (by
    match a with
    | ⟨0, _⟩ => rfl
    | ⟨1, _⟩ => rfl)
  -- the bias, spread twice, is read at d
  have eb : idx_main_v2 (idx_main_v3 (ix2 n d)) = ix1 d := funext fun a => Fin.ext (by
    match a with
    | ⟨0, _⟩ => rfl)
  rw [val_main_v4_apply, val_main_v1_apply, val_main_v3_apply, val_main_v2_apply, eb]
  simp only [val_main_v0_apply, el, er]
  rfl

/-- The second scale's layer at row n, channel d, with its own weights and bias. -/
theorem ref_cur1 (x1 : (⟨S65536x64, .f32⟩ : BufTy).Contents (Elt Ideal)) (x15 : (⟨S64x64, .f32⟩ : BufTy).Contents (Elt Ideal))
    (x16 : (⟨S64, .f32⟩ : BufTy).Contents (Elt Ideal)) (n : Fin 65536) (d : Fin 64) :
    val_main_v9 (F := Ideal) x1 x15 x16 (ix2 n d)
      = Cert.Encoder.fc (fun k : Fin 64 => x1 (ix2 n k)) (fun k => x15 (ix2 d k)) (x16 (ix1 d)) := by
  have el : ∀ k : Fin 64, lidx_main_v6 (ix2 n d) k = ix2 n k := fun k => funext fun a => Fin.ext (by
    match a with
    | ⟨0, _⟩ => rfl
    | ⟨1, _⟩ => rfl)
  have er : ∀ k : Fin 64, idx_main_v5 (ridx_main_v6 (ix2 n d) k) = ix2 d k := fun k => funext fun a => Fin.ext (by
    match a with
    | ⟨0, _⟩ => rfl
    | ⟨1, _⟩ => rfl)
  have eb : idx_main_v7 (idx_main_v8 (ix2 n d)) = ix1 d := funext fun a => Fin.ext (by
    match a with
    | ⟨0, _⟩ => rfl)
  rw [val_main_v9_apply, val_main_v6_apply, val_main_v8_apply, val_main_v7_apply, eb]
  simp only [val_main_v5_apply, el, er]
  rfl

end Cert.ReferenceIdeal.RefCur

end
-- ==== Proof.LibRowGather3.lean ====
/-
  A gather of rows at a two-axis array of row numbers, read at an index.

  A matrix `x : [N, C]` gathered at the row numbers `idx : [A, B, 1]` (offset axis 2 over slices `[1, C]`, operand
  axis 0 collapsed, the index vector on axis 2, of length one, naming operand axis 0) gives the array `[A, B, C]`
  whose row `(a, b)` is the row of `x` numbered `idx[a, b, 0]`, read signed and clamped into `[0, N - 1]`.
-/
import Idealize.ShloMosaic.PureOps.Ideal
import Idealize.ShloMosaic.Lib.ValueIdx

noncomputable section

namespace Cert.LibRowGather3

open Idealize.ShloMosaic Idealize.ShloMosaic.ValueIdx

section Gather
variable {α : Type}

/-- The dimension numbers of a row gather at a two-axis array of row numbers: operand `[N, C]`, start indices
    `[A, B, 1]` (the index vector on axis 2, of length one, naming operand axis 0), result `[A, B, C]` whose axis 2
    is the offset axis over slices `[1, C]` with operand axis 0 collapsed. Their conditions `wf` are decided on a
    program's literal shapes. -/
abbrev rowGather3Dims (N A B C : Nat)
    (wf : GatherDims.WF ⟨2, ![N, C]⟩ ⟨3, ![A, B, 1]⟩ ⟨3, ![A, B, C]⟩ [2] [0] [] [0] [] 2 ![1, C]) :
    GatherDims ⟨2, ![N, C]⟩ ⟨3, ![A, B, 1]⟩ ⟨3, ![A, B, C]⟩ where
  offsetDims := [2]
  collapsedSliceDims := [0]
  operandBatchingDims := []
  startIndicesBatchingDims := []
  startIndexMap := [0]
  indexVectorDim := 2
  sliceSizes := ![1, C]
  wf := wf

/-- THE ROW GATHER READ AT `(a, b, c)`: the operand at row `idx[a, b, 0]` (read signed, clamped into
    `[0, N - 1]`), column `c`. -/
theorem gather_row3_apply {N A B C w : Nat} (hN : 0 < N)
    (wf : GatherDims.WF ⟨2, ![N, C]⟩ ⟨3, ![A, B, 1]⟩ ⟨3, ![A, B, C]⟩ [2] [0] [] [0] [] 2 ![1, C])
    (x : (⟨2, ![N, C]⟩ : Shape).Idx → α) (idx : IVec ⟨3, ![A, B, 1]⟩ w) (a : Fin A) (b : Fin B) (c : Fin C) :
    Host.gather (rowGather3Dims N A B C wf) x idx (ix3 a b c)
      = x (ix2 (⟨min (idx (ix3 a b (0 : Fin 1))).toInt.toNat (N - 1), by omega⟩ : Fin N) c) := by
  unfold Host.gather
  congr 1
  funext ax
  refine Fin.ext ?_
  match ax with
  | ⟨0, _⟩ =>
    -- the row axis: the clamped start index, no batching and no offset coordinate
    show (rowGather3Dims N A B C wf).start (ix3 a b c) idx 0 + (rowGather3Dims N A B C wf).batchCoord (ix3 a b c) 0
      + (rowGather3Dims N A B C wf).offCoord (ix3 a b c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather3Dims N A B C wf).startIndexMap from List.mem_singleton.mpr rfl)]
    have hsi : (rowGather3Dims N A B C wf).siIdx (ix3 a b c)
        ⟨List.idxOf (0 : Fin 2) (rowGather3Dims N A B C wf).startIndexMap,
          List.idxOf_lt_length_iff.2 (List.mem_singleton.mpr rfl)⟩ = ix3 a b (0 : Fin 1) := by
      funext e; refine Fin.ext ?_
      match e with
      | ⟨0, _⟩ => rfl
      | ⟨1, _⟩ => rfl
      | ⟨2, _⟩ => rfl
    rw [hsi]
    rfl
  | ⟨1, _⟩ =>
    -- the column axis: start 0, no batching coordinate, the offset coordinate `c`
    show (rowGather3Dims N A B C wf).start (ix3 a b c) idx 1 + (rowGather3Dims N A B C wf).batchCoord (ix3 a b c) 1
      + (rowGather3Dims N A B C wf).offCoord (ix3 a b c) 1 = c.val
    rw [GatherDims.batchCoord_eq_zero _ _ _ List.not_mem_nil]
    have hs : (rowGather3Dims N A B C wf).start (ix3 a b c) idx 1 = 0 := by
      unfold GatherDims.start
      rw [dif_neg (show ¬ (1 : Fin 2) ∈ (rowGather3Dims N A B C wf).startIndexMap from
        (by decide : (1 : Fin 2) ∉ [(0 : Fin 2)]))]
    rw [hs]
    have hk : (1 : Fin 2) ∈ (rowGather3Dims N A B C wf).sKept :=
      (GatherDims.mem_sKept _ _).mpr ⟨(by decide : (1 : Fin 2) ∉ [(0 : Fin 2)]), List.not_mem_nil⟩
    unfold GatherDims.offCoord
    rw [dif_pos hk]
    simp only [Nat.zero_add, Nat.add_zero]
    rfl

/-- The row gather at an in-range row number: if `idx[a, b, 0]`, read signed, is the row number `r`, the result's
    row `(a, b)` is the operand's row `r`. -/
theorem gather_row3_apply_of_eq {N A B C w : Nat}
    (wf : GatherDims.WF ⟨2, ![N, C]⟩ ⟨3, ![A, B, 1]⟩ ⟨3, ![A, B, C]⟩ [2] [0] [] [0] [] 2 ![1, C])
    (x : (⟨2, ![N, C]⟩ : Shape).Idx → α) (idx : IVec ⟨3, ![A, B, 1]⟩ w) (a : Fin A) (b : Fin B) (c : Fin C) (r : Fin N)
    (h : (idx (ix3 a b (0 : Fin 1))).toInt = (r.val : Int)) :
    Host.gather (rowGather3Dims N A B C wf) x idx (ix3 a b c) = x (ix2 r c) := by
  have hN : 0 < N := Nat.lt_of_le_of_lt (Nat.zero_le _) r.isLt
  rw [gather_row3_apply hN wf x idx a b c]
  congr 2
  refine Fin.ext ?_
  show min (idx (ix3 a b (0 : Fin 1))).toInt.toNat (N - 1) = r.val
  rw [h]
  have := r.isLt
  simp only [Int.toNat_natCast]
  omega

end Gather

end Cert.LibRowGather3

end
-- ==== Proof.BridgeFeat.lean ====
/-
  The neighbours' feature rows are the same numbers in both programs.

  Both programs pick, for destination point r and neighbour s, a row of the per-source-point linear layer by the SAME
  table of row numbers: the neighbour table with negative entries wrapped (n ↦ n + 65536), read signed and clamped
  into 0 … 65535. The kernel program takes the row from one half of the first region's 65536 × 128 result — columns
  0 … 63 for the 16-neighbour scale, columns 64 … 127 for the 32-neighbour scale — and the reference from its own
  65536 × 64 layer of that scale. At row n and channel d both are the specification's linear layer on input row n with
  row d of the scale's weights and entry d of its bias, so the gathered entries agree.
-/
import proofs.«141855_j52682068853185_2_alg».proof.Proof.KHost
import proofs.«141855_j52682068853185_2_alg».proof.Proof.FcValue
import proofs.«141855_j52682068853185_2_alg».proof.Proof.RefCur
import proofs.«141855_j52682068853185_2_alg».proof.Proof.RefReadP
import proofs.«141855_j52682068853185_2_alg».proof.Proof.LibRowGather3
import Idealize.ShloMosaic.Lib.Pipeline.Value
import Idealize.ShloMosaic.Lib.ValueIdx

noncomputable section

open Idealize.ShloMosaic Idealize.ShloMosaic.TcCoe Idealize.ShloMosaic.ValueIdx Idealize.SL.Sem

namespace Cert.Bridge

open Cert.KernelIdeal Cert.KernelIdeal.Gen Cert.LibRowGather3

/-! ## The two programs wrap the neighbour tables by the same operations -/

theorem rows16_eq (a3 : IVec S16384x16 32) :
    Cert.KernelIdeal.Host.rows16 a3 = Cert.ReferenceIdeal.ReadP.val_main_v37 (F := Ideal) a3 := rfl

theorem rows32_eq (a4 : IVec S16384x32 32) :
    Cert.KernelIdeal.Host.rows32 a4 = Cert.ReferenceIdeal.ReadP.val_main_v80 (F := Ideal) a4 := rfl

/-! ## The kernel program's gathered rows, read at an index -/

/-- 16-neighbour scale: entry (r, s, d) is the first region's result at the row the table names, column d. -/
theorem feat16_apply (cur : FVec Ideal S65536x128 .bf16) (a3 : IVec S16384x16 32) (r : Fin 16384) (s : Fin 16) (d : Fin 64) :
    Cert.KernelIdeal.Host.feat16 cur a3 (ix3 r s d)
      = cur (ix2 (⟨min (Cert.KernelIdeal.Host.rows16 a3 (ix3 r s (0 : Fin 1))).toInt.toNat (65536 - 1), by omega⟩ : Fin 65536)
          (⟨d.val, by omega⟩ : Fin 128)) := by
  unfold Cert.KernelIdeal.Host.feat16
  refine (gather_row3_apply (N := 65536) (A := 16384) (B := 16) (C := 64) (by decide) _ _ _ r s d).trans ?_
  refine extractStridedSlice_apply _ _ _ _ _ fun a => ?_
  match a with
  | ⟨0, _⟩ => exact (Nat.zero_add _).symm
  | ⟨1, _⟩ => exact (Nat.zero_add _).symm

/-- 32-neighbour scale: the same at column 64 + d. -/
theorem feat32_apply (cur : FVec Ideal S65536x128 .bf16) (a4 : IVec S16384x32 32) (r : Fin 16384) (s : Fin 32) (d : Fin 64) :
    Cert.KernelIdeal.Host.feat32 cur a4 (ix3 r s d)
      = cur (ix2 (⟨min (Cert.KernelIdeal.Host.rows32 a4 (ix3 r s (0 : Fin 1))).toInt.toNat (65536 - 1), by omega⟩ : Fin 65536)
          (⟨64 + d.val, by omega⟩ : Fin 128)) := by
  unfold Cert.KernelIdeal.Host.feat32
  refine (gather_row3_apply (N := 65536) (A := 16384) (B := 32) (C := 64) (by decide) _ _ _ r s d).trans ?_
  refine extractStridedSlice_apply _ _ _ _ _ fun a => ?_
  match a with
  | ⟨0, _⟩ => exact (Nat.zero_add _).symm
  | ⟨1, _⟩ => rfl

/-! ## The reference's gathered rows, read at an index -/

theorem v38_apply (x1 : (⟨Cert.ReferenceIdeal.S65536x64, .f32⟩ : BufTy).Contents (Elt Ideal))
    (x3 : (⟨Cert.ReferenceIdeal.S16384x16, .i32⟩ : BufTy).Contents (Elt Ideal))
    (x7 : (⟨Cert.ReferenceIdeal.S64x64, .f32⟩ : BufTy).Contents (Elt Ideal))
    (x8 : (⟨Cert.ReferenceIdeal.S64, .f32⟩ : BufTy).Contents (Elt Ideal)) (r : Fin 16384) (s : Fin 16) (d : Fin 64) :
    Cert.ReferenceIdeal.ReadP.val_main_v38 (F := Ideal) x1 x3 x7 x8 (ix3 r s d)
      = Cert.ReferenceIdeal.ReadP.val_main_v4 (F := Ideal) x1 x7 x8
          (ix2 (⟨min (Cert.ReferenceIdeal.ReadP.val_main_v37 (F := Ideal) x3 (ix3 r s (0 : Fin 1))).toInt.toNat (65536 - 1), by omega⟩ : Fin 65536) d) := by
  unfold Cert.ReferenceIdeal.ReadP.val_main_v38
  exact gather_row3_apply (N := 65536) (A := 16384) (B := 16) (C := 64) (by decide) _ _ _ r s d

theorem v81_apply (x1 : (⟨Cert.ReferenceIdeal.S65536x64, .f32⟩ : BufTy).Contents (Elt Ideal))
    (x4 : (⟨Cert.ReferenceIdeal.S16384x32, .i32⟩ : BufTy).Contents (Elt Ideal))
    (x15 : (⟨Cert.ReferenceIdeal.S64x64, .f32⟩ : BufTy).Contents (Elt Ideal))
    (x16 : (⟨Cert.ReferenceIdeal.S64, .f32⟩ : BufTy).Contents (Elt Ideal)) (r : Fin 16384) (s : Fin 32) (d : Fin 64) :
    Cert.ReferenceIdeal.ReadP.val_main_v81 (F := Ideal) x1 x4 x15 x16 (ix3 r s d)
      = Cert.ReferenceIdeal.ReadP.val_main_v9 (F := Ideal) x1 x15 x16
          (ix2 (⟨min (Cert.ReferenceIdeal.ReadP.val_main_v80 (F := Ideal) x4 (ix3 r s (0 : Fin 1))).toInt.toNat (65536 - 1), by omega⟩ : Fin 65536) d) := by
  unfold Cert.ReferenceIdeal.ReadP.val_main_v81
  exact gather_row3_apply (N := 65536) (A := 16384) (B := 32) (C := 64) (by decide) _ _ _ r s d

/-! ## The gathered rows agree -/

variable (m : (ℓ : Loc nD τ sig) → Buf (Elt Ideal) ℓ) (ρ : Dev nD → PrngReg)

/-- 16-neighbour scale: both sides are the linear layer with the first weights and bias on the row the table names. -/
theorem feat16_eq (c : Dev nD) (r : Fin 16384) (s : Fin 16) (d : Fin 64) :
    (Cert.KernelIdeal.Host.feat16 ((dat0 (F := Ideal) (V1 m ρ) c).arrAt 3 cfg0.N) (m ((c : Thread nD τ).loc main_arg3)) (ix3 r s d) : EReal)
      = Cert.ReferenceIdeal.ReadP.val_main_v38 (F := Ideal) (m ((c : Thread nD τ).loc main_arg1)) (m ((c : Thread nD τ).loc main_arg3))
          (m ((c : Thread nD τ).loc main_arg7)) (m ((c : Thread nD τ).loc main_arg8)) (ix3 r s d) := by
  refine (feat16_apply ((dat0 (F := Ideal) (V1 m ρ) c).arrAt 3 cfg0.N) (m ((c : Thread nD τ).loc main_arg3)) r s d).trans ?_
  refine (Cert.KernelIdeal.FcValue.fc_lo m ρ c _ d).trans ?_
  refine Eq.trans ?_ (v38_apply (m ((c : Thread nD τ).loc main_arg1)) (m ((c : Thread nD τ).loc main_arg3))
    (m ((c : Thread nD τ).loc main_arg7)) (m ((c : Thread nD τ).loc main_arg8)) r s d).symm
  exact (Cert.ReferenceIdeal.RefCur.ref_cur0 (m ((c : Thread nD τ).loc main_arg1)) (m ((c : Thread nD τ).loc main_arg7))
    (m ((c : Thread nD τ).loc main_arg8)) _ d).symm

/-- 32-neighbour scale: the second weights and bias. -/
theorem feat32_eq (c : Dev nD) (r : Fin 16384) (s : Fin 32) (d : Fin 64) :
    (Cert.KernelIdeal.Host.feat32 ((dat0 (F := Ideal) (V1 m ρ) c).arrAt 3 cfg0.N) (m ((c : Thread nD τ).loc main_arg4)) (ix3 r s d) : EReal)
      = Cert.ReferenceIdeal.ReadP.val_main_v81 (F := Ideal) (m ((c : Thread nD τ).loc main_arg1)) (m ((c : Thread nD τ).loc main_arg4))
          (m ((c : Thread nD τ).loc main_arg15)) (m ((c : Thread nD τ).loc main_arg16)) (ix3 r s d) := by
  refine (feat32_apply ((dat0 (F := Ideal) (V1 m ρ) c).arrAt 3 cfg0.N) (m ((c : Thread nD τ).loc main_arg4)) r s d).trans ?_
  refine (Cert.KernelIdeal.FcValue.fc_hi m ρ c _ d).trans ?_
  refine Eq.trans ?_ (v81_apply (m ((c : Thread nD τ).loc main_arg1)) (m ((c : Thread nD τ).loc main_arg4))
    (m ((c : Thread nD τ).loc main_arg15)) (m ((c : Thread nD τ).loc main_arg16)) r s d).symm
  exact (Cert.ReferenceIdeal.RefCur.ref_cur1 (m ((c : Thread nD τ).loc main_arg1)) (m ((c : Thread nD τ).loc main_arg15))
    (m ((c : Thread nD τ).loc main_arg16)) _ d).symm

end Cert.Bridge

end
-- ==== Proof.BridgeGeom.lean ====
import proofs.«141855_j52682068853185_2_alg».proof.Proof.KHost
import proofs.«141855_j52682068853185_2_alg».proof.Proof.RefReadP

/-!
  The operand arrays the two programs prepare before the encoder proper, compared.

  For each neighbourhood scale both programs wrap negative neighbour numbers (`n ↦ n + 65536`), gather the neighbours'
  positions, subtract the destination point's own position, and lay the difference and the position side by side: the
  same operations, in the same order, on the same arrays. One program then rounds the six numbers to a narrower
  format, which over the extended reals is the identity. So the two arrays are equal.

  The "kept" column is `0` where a point's "no neighbours" flag is set and `1` elsewhere, so it differs from zero
  exactly where the flag is not set.
-/

noncomputable section

namespace Cert.Bridge

open Idealize.ShloMosaic Idealize.ShloMosaic.ValueIdx

/-! ## The six geometric numbers per neighbour -/

/-- The two programs' descriptions of the 16-neighbour position gather have the same fields. -/
theorem gatherDims16_eq :
    Cert.KernelIdeal.gather_S65536x3_S16384x16x1_S16384x16x3_2_0_n_n_0_2_13
      = Cert.ReferenceIdeal.gather_S65536x3_S16384x16x1_S16384x16x3_2_0_n_n_0_2_13 := rfl

/-- The two programs' descriptions of the 32-neighbour position gather have the same fields. -/
theorem gatherDims32_eq :
    Cert.KernelIdeal.gather_S65536x3_S16384x32x1_S16384x32x3_2_0_n_n_0_2_13
      = Cert.ReferenceIdeal.gather_S65536x3_S16384x32x1_S16384x32x3_2_0_n_n_0_2_13 := rfl

/-- 16-neighbour scale: the two programs build the same array of geometric numbers. -/
theorem geom16_eq (a0 : FVec Ideal Cert.KernelIdeal.S65536x3 .f32) (a2 : FVec Ideal Cert.KernelIdeal.S16384x3 .f32)
    (a3 : IVec Cert.KernelIdeal.S16384x16 32) :
    Cert.KernelIdeal.Host.geom16 a0 a2 a3 = Cert.ReferenceIdeal.ReadP.val_main_v21 (F := Ideal) a0 a2 a3 := by
  unfold Cert.KernelIdeal.Host.geom16 Cert.KernelIdeal.Host.rows16
  unfold Cert.ReferenceIdeal.ReadP.val_main_v21 Cert.ReferenceIdeal.ReadP.val_main_v19 Cert.ReferenceIdeal.ReadP.val_main_v20
    Cert.ReferenceIdeal.ReadP.val_main_v18 Cert.ReferenceIdeal.ReadP.val_main_v17 Cert.ReferenceIdeal.ReadP.val_main_v16
    Cert.ReferenceIdeal.ReadP.val_main_v15 Cert.ReferenceIdeal.ReadP.val_main_v14 Cert.ReferenceIdeal.ReadP.val_main_v13
    Cert.ReferenceIdeal.ReadP.val_main_v12 Cert.ReferenceIdeal.ReadP.val_main_v11 Cert.ReferenceIdeal.ReadP.val_main_v10
    Cert.ReferenceIdeal.ReadP.val_main_c Cert.ReferenceIdeal.ReadP.val_main_c_0
  rw [gatherDims16_eq]
  rfl

/-- 32-neighbour scale: the two programs build the same array of geometric numbers. -/
theorem geom32_eq (a0 : FVec Ideal Cert.KernelIdeal.S65536x3 .f32) (a2 : FVec Ideal Cert.KernelIdeal.S16384x3 .f32)
    (a4 : IVec Cert.KernelIdeal.S16384x32 32) :
    Cert.KernelIdeal.Host.geom32 a0 a2 a4 = Cert.ReferenceIdeal.ReadP.val_main_v64 (F := Ideal) a0 a2 a4 := by
  unfold Cert.KernelIdeal.Host.geom32 Cert.KernelIdeal.Host.rows32
  unfold Cert.ReferenceIdeal.ReadP.val_main_v64 Cert.ReferenceIdeal.ReadP.val_main_v62 Cert.ReferenceIdeal.ReadP.val_main_v63
    Cert.ReferenceIdeal.ReadP.val_main_v61 Cert.ReferenceIdeal.ReadP.val_main_v60 Cert.ReferenceIdeal.ReadP.val_main_v59
    Cert.ReferenceIdeal.ReadP.val_main_v58 Cert.ReferenceIdeal.ReadP.val_main_v57 Cert.ReferenceIdeal.ReadP.val_main_v56
    Cert.ReferenceIdeal.ReadP.val_main_v55 Cert.ReferenceIdeal.ReadP.val_main_v54 Cert.ReferenceIdeal.ReadP.val_main_v53
    Cert.ReferenceIdeal.ReadP.val_main_c_6 Cert.ReferenceIdeal.ReadP.val_main_c_7
  rw [gatherDims32_eq]
  rfl

/-! ## The "kept" column -/

/-- The binary32 pattern `0x3F800000` (sign 0, exponent 127, significand 0) is the number one. -/
theorem ofBits_one_f32 : Ideal.ofBits .f32 0x3F800000#32 = 1 := by
  simp [Ideal.ofBits, Ideal.ieee]
  rw [← EReal.coe_mul, ← EReal.coe_one, EReal.coe_eq_coe_iff]
  norm_num

/-- A vector viewed as a one-column matrix: the entry `(r, 0)` is the vector's entry `r`. -/
theorem shapeCast_a_a1_apply {α : Type} {a : ℕ} (x : (⟨1, ![a]⟩ : Shape).Idx → α)
    (h : (⟨1, ![a]⟩ : Shape).ShapeCasts ⟨2, ![a, 1]⟩) (r : Fin a) (u : Fin 1) :
    shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A scalar repeated over a vector reads the scalar everywhere. -/
theorem broadcastScalar_apply {α : Type} {a : ℕ} (x : (⟨0, ![]⟩ : Shape).Idx → α)
    (h : (⟨0, ![]⟩ : Shape).BroadcastsInDim ⟨1, ![a]⟩ (![] : Fin 0 → Fin 1)) (r : Fin a) :
    broadcastInDim ⟨1, ![a]⟩ ![] h x (ix1 r) = x ix0 :=
  broadcastInDim_apply _ h x (ix1 r) ix0 (fun b => b.elim0)

/-- The column is `0` at a point whose flag is set and `1` at every other point. -/
theorem kept_apply (a5 : IVec Cert.KernelIdeal.S16384 1) (r : Fin 16384) :
    Cert.KernelIdeal.Host.kept a5 (ix2 r (0 : Fin 1)) = if a5 (ix1 r) = 1 then (0 : EReal) else 1 := by
  unfold Cert.KernelIdeal.Host.kept
  refine (shapeCast_a_a1_apply _ _ r 0).trans ?_
  show Scalar.select (a5 (ix1 r)) _ _ = _
  unfold Scalar.select
  refine if_congr Iff.rfl ?_ ?_
  · exact (broadcastScalar_apply _ _ r).trans Ideal.ofBits_zero_f32
  · exact (broadcastScalar_apply _ _ r).trans ofBits_one_f32

/-- So the column differs from zero exactly at the points whose flag is not set. -/
theorem kept_ne_zero (a5 : IVec Cert.KernelIdeal.S16384 1) (r : Fin 16384) :
    ((Cert.KernelIdeal.Host.kept a5 (ix2 r (0 : Fin 1)) : EReal) ≠ 0) ↔ (a5 (ix1 r) ≠ 1) := by
  rw [kept_apply]
  by_cases h : a5 (ix1 r) = 1
  · rw [if_pos h]; exact ⟨fun hh => absurd rfl hh, fun hh => absurd h hh⟩
  · rw [if_neg h]; exact ⟨fun _ => h, fun _ => one_ne_zero⟩

end Cert.Bridge

end
-- ==== Proof.KValue.lean ====
/-
  The idealized kernel program's result array is the reference's last stage of the same argument arrays.

  After the second region the result array holds, at (r, o), the encoder's output for destination point r, channel o,
  computed from the region's operand arrays (the blocks-to-array module). Those operand arrays are the host
  operations' terms of the argument arrays: the six geometric numbers per neighbour are the very arrays the reference
  forms; the gathered feature rows are rows of the first region's linear layer, which is the reference's linear layer
  entry by entry; the "kept" column is nonzero exactly where the flag is not set; the weights were transposed on the way
  in and are read back channel-first. The reference's last stage at (r, o) is the same encoder output (read off its
  stages), so the two arrays agree index by index.
-/
import proofs.«141855_j52682068853185_2_alg».proof.Proof.KBlocks
import proofs.«141855_j52682068853185_2_alg».proof.Proof.KHost2
import proofs.«141855_j52682068853185_2_alg».proof.Proof.RefRow
import proofs.«141855_j52682068853185_2_alg».proof.Proof.BridgeFeat
import proofs.«141855_j52682068853185_2_alg».proof.Proof.BridgeGeom

set_option maxRecDepth 16384

noncomputable section

namespace Cert.KernelIdeal.Value

open Cert.KernelIdeal Cert.KernelIdeal.Gen
open Idealize.ShloMosaic Idealize.ShloMosaic.TcCoe Idealize.SL.Sem Idealize.ShloMosaic.ValueIdx

/-! ## A transposed matrix read at an index -/

theorem tr_6x64 (a : S64x6.Idx → EReal) (k : Fin 6) (d : Fin 64) :
    transpose S6x64 [1, 0] a transposes_S64x6_S6x64_1_0 (ix2 k d) = a (ix2 d k) :=
  transpose_apply [1, 0] a transposes_S64x6_S6x64_1_0 (ix2 k d) (ix2 d k) (fun b => match b with
    | ⟨0, _⟩ => rfl
    | ⟨1, _⟩ => rfl)

theorem tr_64x128 (a : S128x64.Idx → EReal) (d : Fin 64) (h : Fin 128) :
    transpose S64x128 [1, 0] a transposes_S128x64_S64x128_1_0 (ix2 d h) = a (ix2 h d) :=
  transpose_apply [1, 0] a transposes_S128x64_S64x128_1_0 (ix2 d h) (ix2 h d) (fun b => match b with
    | ⟨0, _⟩ => rfl
    | ⟨1, _⟩ => rfl)

theorem tr_256x256 (a : S256x256.Idx → EReal) (j o : Fin 256) :
    transpose S256x256 [1, 0] a transposes_S256x256_S256x256_1_0 (ix2 j o) = a (ix2 o j) :=
  transpose_apply [1, 0] a transposes_S256x256_S256x256_1_0 (ix2 j o) (ix2 o j) (fun b => match b with
    | ⟨0, _⟩ => rfl
    | ⟨1, _⟩ => rfl)

/-! ## The encoder's output depends on its data only through their values -/

/-- Two evaluations of `Cert.Encoder.row` agree when the "kept" conditions are equivalent and the data are equal. -/
theorem row_congr {k0 k0' k1 k1' : Prop} [Decidable k0] [Decidable k0'] [Decidable k1] [Decidable k1']
    (h0 : k0 ↔ k0') (h1 : k1 ↔ k1')
    {f60 f60' : Fin 16 → Fin 6 → EReal} (e1 : f60 = f60') {f61 f61' : Fin 32 → Fin 6 → EReal} (e2 : f61 = f61')
    {c0 c0' : Fin 16 → Fin 64 → EReal} (e3 : c0 = c0') {c1 c1' : Fin 32 → Fin 64 → EReal} (e4 : c1 = c1')
    {p0w p0w' : Fin 64 → Fin 6 → EReal} (e5 : p0w = p0w') {p0g p0g' : Fin 64 → EReal} (e6 : p0g = p0g') {p0b p0b' : Fin 64 → EReal} (e7 : p0b = p0b')
    {m0w m0w' : Fin 128 → Fin 64 → EReal} (e8 : m0w = m0w') {m0g m0g' : Fin 128 → EReal} (e9 : m0g = m0g') {m0b m0b' : Fin 128 → EReal} (e10 : m0b = m0b')
    {p1w p1w' : Fin 64 → Fin 6 → EReal} (e11 : p1w = p1w') {p1g p1g' : Fin 64 → EReal} (e12 : p1g = p1g') {p1b p1b' : Fin 64 → EReal} (e13 : p1b = p1b')
    {m1w m1w' : Fin 128 → Fin 64 → EReal} (e14 : m1w = m1w') {m1g m1g' : Fin 128 → EReal} (e15 : m1g = m1g') {m1b m1b' : Fin 128 → EReal} (e16 : m1b = m1b')
    {ow ow' : Fin 256 → Fin 256 → EReal} (e17 : ow = ow') {og og' : Fin 256 → EReal} (e18 : og = og') {ob ob' : Fin 256 → EReal} (e19 : ob = ob')
    (o : Fin 256) :
    Cert.Encoder.row k0 k1 f60 f61 c0 c1 p0w p0g p0b m0w m0g m0b p1w p1g p1b m1w m1g m1b ow og ob o
      = Cert.Encoder.row k0' k1' f60' f61' c0' c1' p0w' p0g' p0b' m0w' m0g' m0b' p1w' p1g' p1b' m1w' m1g' m1b' ow' og' ob' o := by
  subst e1 e2 e3 e4 e5 e6 e7 e8 e9 e10 e11 e12 e13 e14 e15 e16 e17 e18 e19
  exact Cert.Encoder.row_congr_keep h0 h1 _ _ _ _ _ _ _ _ _ _ _ _ _ _ _ _ _ _ _ _

variable (m : (ℓ : Loc nD τ sig) → Buf (Elt Ideal) ℓ) (ρ : Dev nD → PrngReg) (c : Dev nD)

set_option maxHeartbeats 8000000 in
/-- The result buffer at the end of the run is the second region's result array after its write-backs (the region's
    last window stands on the result buffer). -/
theorem result_is_array : W8 m ρ c (Proc.devRef .tc main_v56) = (dat1 (V7 m ρ) c).arrAt 21 cfg1.N := W8_arr m ρ c 21

set_option maxHeartbeats 4000000 in
/-- THE KERNEL PROGRAM'S VALUE: its result array is the reference's last stage of the argument arrays. -/
theorem result_eq :
    (W8 m ρ c (Proc.devRef .tc main_v56) : S16384x256.Idx → EReal)
      = Cert.ReferenceIdeal.ReadP.val_main_v107 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) := by
  rw [result_is_array, Cert.KernelIdeal.Blocks.final]
  funext i
  obtain ⟨r, o, rfl⟩ : ∃ (r : Fin 16384) (o : Fin 256), i = ix2 r o := ⟨i 0, i 1, eq_ix2 i⟩
  rw [Cert.ReferenceIdeal.RefValue.ref_row]
  show Cert.Encoder.row _ _ _ _ _ _ _ _ _ _ _ _ _ _ _ _ _ _ _ _ _ o = _
  rw [Host.entry_geom16, Host.entry_geom32, Host.entry_feat16, Host.entry_feat32, Host.entry_kept16, Host.entry_kept32,
    Host.entry_p0w, Host.entry_p1w, Host.entry_m0w, Host.entry_m1w, Host.entry_ow,
    Host.entry_arg10, Host.entry_arg11, Host.entry_arg13, Host.entry_arg14, Host.entry_arg18, Host.entry_arg19,
    Host.entry_arg21, Host.entry_arg22, Host.entry_arg24, Host.entry_arg25,
    Cert.Bridge.geom16_eq, Cert.Bridge.geom32_eq]
  refine row_congr (Cert.Bridge.kept_ne_zero _ r) (Cert.Bridge.kept_ne_zero _ r) rfl rfl ?_ ?_ ?_ rfl rfl ?_ rfl rfl ?_ rfl rfl ?_ rfl rfl ?_ rfl rfl o
  · funext s d; exact Cert.Bridge.feat16_eq m ρ c r s d
  · funext s d; exact Cert.Bridge.feat32_eq m ρ c r s d
  · funext d k; exact tr_6x64 _ k d
  · funext h d; exact tr_64x128 _ d h
  · funext d k; exact tr_6x64 _ k d
  · funext h d; exact tr_64x128 _ d h
  · funext o' j; exact tr_256x256 _ j o'

end Cert.KernelIdeal.Value

end
-- ==== Proof.LibFoldSteps.lean ====
/-
  A straight-line program in single-assignment form, read one operation at a time at the END valuation.

  A line of operations runs from given buffer contents; each operation rewrites the one buffer it writes, as a
  function of the contents of its operand buffers at that moment, and leaves every other buffer alone. Suppose each
  buffer is written by at most one operation of the line, and an operation's operands are written before it (or not
  at all). Then an operand is never written again after the operation has read it, and neither is the operation's
  own result: so at the END of the line the operation's buffer holds its function of the END contents of its
  operands. That is one equation per operation about one and the same valuation — the contents after the whole
  line — and the end contents of every buffer follow in program order, each from the equations of its operands; no
  composed term is ever built.

  The line is a list `ops`; `wrs` names, in order, the buffer each operation writes (one fact, `hw`, ties the two
  lists together), and "not written from the `k`-th operation on" is non-membership in `wrs.drop k`, decided over the
  references. `step_nullary … step_ternary` are the equation for an operation of zero to three operands, given which
  operation stands at position `k`. The variants `step_nullaryT … step_ternaryT` are the same for the operations of a
  called function, which carry each buffer with the type of the value it holds and move contents between that type and
  the buffer's own along the equation of the two: at a literal buffer that equation is `rfl`, the moves are the
  identity, and the variants' conclusion is the operation's own function at the operands' end contents, with no
  move left in it.
-/
import Idealize.ShloMosaic.Lib.StableHlo.Run

noncomputable section

namespace Cert.LibFoldSteps

open Idealize.ShloMosaic Idealize.ShloMosaic.TcCoe Idealize.SL.Sem Idealize.ShloMosaic.StableHlo

section General

variable {τ : Topo} {sig : RefSig} {Val : EltTy → Type}

/-- Running two lines one after the other is running their concatenation. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

variable {ops : List (HloOp τ sig Val)} {wrs : List (Ref sig .tc)}

/-- A buffer that none of the operations from the `k`-th on writes keeps its contents through them: `wrs` names, in
    order, the one buffer each operation writes. -/
theorem after_drop_frame (hw : ops.map HloOp.writes = wrs.map fun r => ({Proc.devRef .tc r} : Finset (DevRef τ sig)))
    (k : ℕ) (X : Valuation τ sig Val) (r : Ref sig .tc) (hr : r ∉ wrs.drop k) :
    after (ops.drop k) X (Proc.devRef .tc r) = X (Proc.devRef .tc r) := by
  refine after_of_forall_not_mem _ X fun op hop hmem => hr ?_
  have h1 : op.writes ∈ ((ops.map HloOp.writes).drop k) := by
    rw [← List.map_drop]; exact List.mem_map_of_mem hop
  rw [hw, ← List.map_drop] at h1
  obtain ⟨r', hr', he⟩ := List.mem_map.mp h1
  rw [← he, Finset.mem_singleton] at hmem
  exact (Proc.devRef_injective _ hmem) ▸ hr'

/-- The line split at its `k`-th operation. -/
theorem after_split {k : ℕ} {op : HloOp τ sig Val} (hk : ops[k]? = some op) (V₀ : Valuation τ sig Val) :
    after ops V₀ = after (ops.drop (k + 1)) (op.result (after (ops.take k) V₀)) := by
  obtain ⟨h, rfl⟩ := List.getElem?_eq_some_iff.mp hk
  conv_lhs => rw [← List.take_append_drop k ops, after_append, List.drop_eq_getElem_cons h, after_cons]

/-- An operand of the `k`-th operation, not written from there on, holds at the end what it held before the operation. -/
theorem read_operand (hw : ops.map HloOp.writes = wrs.map fun r => ({Proc.devRef .tc r} : Finset (DevRef τ sig)))
    (k : ℕ) (V₀ : Valuation τ sig Val) (a : Ref sig .tc) (ha : a ∉ wrs.drop k) :
    after (ops.take k) V₀ (Proc.devRef .tc a) = after ops V₀ (Proc.devRef .tc a) := by
  conv_rhs => rw [← List.take_append_drop k ops, after_append]
  exact (after_drop_frame hw k _ a ha).symm

/-- The end contents of the buffer of a `k`-th operation without operands. -/
theorem step_nullary (hw : ops.map HloOp.writes = wrs.map fun r => ({Proc.devRef .tc r} : Finset (DevRef τ sig)))
    (k : ℕ) {y : Ref sig .tc} {v : y.ty.Contents Val} {hy}
    (hk : ops[k]? = some (nullary y v hy)) (hy' : y ∉ wrs.drop (k + 1)) (V₀ : Valuation τ sig Val) :
    after ops V₀ (Proc.devRef .tc y) = v := by
  rw [after_split hk V₀, after_drop_frame hw (k + 1) _ y hy', nullary_result]

/-- The end contents of the buffer of a `k`-th operation of one operand, from the operand's. -/
theorem step_unary (hw : ops.map HloOp.writes = wrs.map fun r => ({Proc.devRef .tc r} : Finset (DevRef τ sig)))
    (k : ℕ) {x y : Ref sig .tc} {f : x.ty.Contents Val → y.ty.Contents Val} {hx hy}
    (hk : ops[k]? = some (unary x y f hx hy)) (hy' : y ∉ wrs.drop (k + 1)) (hx' : x ∉ wrs.drop k)
    (V₀ : Valuation τ sig Val) {vx : x.ty.Contents Val} (Hx : after ops V₀ (Proc.devRef .tc x) = vx) :
    after ops V₀ (Proc.devRef .tc y) = f vx := by
  rw [after_split hk V₀, after_drop_frame hw (k + 1) _ y hy', unary_result, read_operand hw k V₀ x hx', Hx]

/-- The same for two operands. -/
theorem step_binary (hw : ops.map HloOp.writes = wrs.map fun r => ({Proc.devRef .tc r} : Finset (DevRef τ sig)))
    (k : ℕ) {a b y : Ref sig .tc} {f : a.ty.Contents Val → b.ty.Contents Val → y.ty.Contents Val} {ha hb hy}
    (hk : ops[k]? = some (binary a b y f ha hb hy)) (hy' : y ∉ wrs.drop (k + 1)) (ha' : a ∉ wrs.drop k)
    (hb' : b ∉ wrs.drop k) (V₀ : Valuation τ sig Val) {va : a.ty.Contents Val} {vb : b.ty.Contents Val}
    (Ha : after ops V₀ (Proc.devRef .tc a) = va) (Hb : after ops V₀ (Proc.devRef .tc b) = vb) :
    after ops V₀ (Proc.devRef .tc y) = f va vb := by
  rw [after_split hk V₀, after_drop_frame hw (k + 1) _ y hy', binary_result, read_operand hw k V₀ a ha',
    read_operand hw k V₀ b hb', Ha, Hb]

/-- The same for three operands. -/
theorem step_ternary (hw : ops.map HloOp.writes = wrs.map fun r => ({Proc.devRef .tc r} : Finset (DevRef τ sig)))
    (k : ℕ) {c a b y : Ref sig .tc} {f : c.ty.Contents Val → a.ty.Contents Val → b.ty.Contents Val → y.ty.Contents Val}
    {hc ha hb hy}
    (hk : ops[k]? = some (ternary c a b y f hc ha hb hy)) (hy' : y ∉ wrs.drop (k + 1)) (hc' : c ∉ wrs.drop k)
    (ha' : a ∉ wrs.drop k) (hb' : b ∉ wrs.drop k) (V₀ : Valuation τ sig Val)
    {vc : c.ty.Contents Val} {va : a.ty.Contents Val} {vb : b.ty.Contents Val}
    (Hc : after ops V₀ (Proc.devRef .tc c) = vc) (Ha : after ops V₀ (Proc.devRef .tc a) = va)
    (Hb : after ops V₀ (Proc.devRef .tc b) = vb) :
    after ops V₀ (Proc.devRef .tc y) = f vc va vb := by
  rw [after_split hk V₀, after_drop_frame hw (k + 1) _ y hy', ternary_result, read_operand hw k V₀ c hc',
    read_operand hw k V₀ a ha', read_operand hw k V₀ b hb', Hc, Ha, Hb]

/-! A called function's operations carry each buffer with the type of the value it holds, and move contents between
that type and the buffer's own along the equation of the two; at a literal buffer the equation is `rfl` and the
moves are the identity. The four steps again for such operations, stated without the moves, so that what a step
concludes is the operation's own function at the operands' end contents. -/

/-- The end contents of the buffer of a `k`-th operation without operands, in a called function. -/
theorem step_nullaryT (hw : ops.map HloOp.writes = wrs.map fun r => ({Proc.devRef .tc r} : Finset (DevRef τ sig)))
    (k : ℕ) {ry : Ref sig .tc} {hdy : ry.space ≠ .host} {huy : ry.isScoped = false} {v : ry.ty.Contents Val}
    (hk : ops[k]? = some (TRef.nullary (TRef.of (T := ry.ty) ry rfl hdy huy) v))
    (hy' : ry ∉ wrs.drop (k + 1)) (V₀ : Valuation τ sig Val) :
    after ops V₀ (Proc.devRef .tc ry) = v :=
  step_nullary hw k hk hy' V₀

/-- One operand. -/
theorem step_unaryT (hw : ops.map HloOp.writes = wrs.map fun r => ({Proc.devRef .tc r} : Finset (DevRef τ sig)))
    (k : ℕ) {rx ry : Ref sig .tc} {hdx : rx.space ≠ .host} {hux : rx.isScoped = false}
    {hdy : ry.space ≠ .host} {huy : ry.isScoped = false} {f : rx.ty.Contents Val → ry.ty.Contents Val}
    (hk : ops[k]? = some (TRef.unary (TRef.of (T := rx.ty) rx rfl hdx hux) (TRef.of (T := ry.ty) ry rfl hdy huy) f))
    (hy' : ry ∉ wrs.drop (k + 1)) (hx' : rx ∉ wrs.drop k) (V₀ : Valuation τ sig Val)
    {vx : rx.ty.Contents Val} (Hx : after ops V₀ (Proc.devRef .tc rx) = vx) :
    after ops V₀ (Proc.devRef .tc ry) = f vx :=
  step_unary hw k hk hy' hx' V₀ Hx

/-- Two operands. -/
theorem step_binaryT (hw : ops.map HloOp.writes = wrs.map fun r => ({Proc.devRef .tc r} : Finset (DevRef τ sig)))
    (k : ℕ) {ra rb ry : Ref sig .tc} {hda : ra.space ≠ .host} {hua : ra.isScoped = false}
    {hdb : rb.space ≠ .host} {hub : rb.isScoped = false} {hdy : ry.space ≠ .host} {huy : ry.isScoped = false}
    {f : ra.ty.Contents Val → rb.ty.Contents Val → ry.ty.Contents Val}
    (hk : ops[k]? = some (TRef.binary (TRef.of (T := ra.ty) ra rfl hda hua) (TRef.of (T := rb.ty) rb rfl hdb hub)
      (TRef.of (T := ry.ty) ry rfl hdy huy) f))
    (hy' : ry ∉ wrs.drop (k + 1)) (ha' : ra ∉ wrs.drop k) (hb' : rb ∉ wrs.drop k) (V₀ : Valuation τ sig Val)
    {va : ra.ty.Contents Val} {vb : rb.ty.Contents Val}
    (Ha : after ops V₀ (Proc.devRef .tc ra) = va) (Hb : after ops V₀ (Proc.devRef .tc rb) = vb) :
    after ops V₀ (Proc.devRef .tc ry) = f va vb :=
  step_binary hw k hk hy' ha' hb' V₀ Ha Hb

/-- Three operands. -/
theorem step_ternaryT (hw : ops.map HloOp.writes = wrs.map fun r => ({Proc.devRef .tc r} : Finset (DevRef τ sig)))
    (k : ℕ) {rc ra rb ry : Ref sig .tc} {hdc : rc.space ≠ .host} {huc : rc.isScoped = false}
    {hda : ra.space ≠ .host} {hua : ra.isScoped = false}
    {hdb : rb.space ≠ .host} {hub : rb.isScoped = false} {hdy : ry.space ≠ .host} {huy : ry.isScoped = false}
    {f : rc.ty.Contents Val → ra.ty.Contents Val → rb.ty.Contents Val → ry.ty.Contents Val}
    (hk : ops[k]? = some (TRef.ternary (TRef.of (T := rc.ty) rc rfl hdc huc) (TRef.of (T := ra.ty) ra rfl hda hua)
      (TRef.of (T := rb.ty) rb rfl hdb hub) (TRef.of (T := ry.ty) ry rfl hdy huy) f))
    (hy' : ry ∉ wrs.drop (k + 1)) (hc' : rc ∉ wrs.drop k) (ha' : ra ∉ wrs.drop k) (hb' : rb ∉ wrs.drop k)
    (V₀ : Valuation τ sig Val)
    {vc : rc.ty.Contents Val} {va : ra.ty.Contents Val} {vb : rb.ty.Contents Val}
    (Hc : after ops V₀ (Proc.devRef .tc rc) = vc) (Ha : after ops V₀ (Proc.devRef .tc ra) = va)
    (Hb : after ops V₀ (Proc.devRef .tc rb) = vb) :
    after ops V₀ (Proc.devRef .tc ry) = f vc va vb :=
  step_ternary hw k hk hy' hc' ha' hb' V₀ Hc Ha Hb

end General

end Cert.LibFoldSteps

end
-- ==== Proof.RefFold.lean ====
/-
  The reference program's run, as a fold over its list of operations, read at its result buffer.

  The program is a straight line of operations, each writing ONE buffer that no other operation writes, and reading
  buffers written before it (or the program's arguments, which nothing writes). For such a line the contents at the
  end satisfy one equation per operation: the operation's buffer holds its function of the END contents of its
  operands — the operands are not written again after the operation, and neither is its result. The imported general
  lemmas state this for a list of operations and a list naming, in order, the buffer each one writes; which buffer is
  which is decided over the references. Here are this program's tables: the list of written buffers, and the end
  contents of every buffer in program order, one operation at a time from the equations of its operands, each as the
  stage that the operation-by-operation reading of the program names; no term grows along the way.
-/
import proofs.«141855_j52682068853185_2_alg».proof.Proof.RefRunP
import proofs.«141855_j52682068853185_2_alg».proof.Proof.RefReadP
import proofs.«141855_j52682068853185_2_alg».proof.Proof.LibFoldSteps

noncomputable section

namespace Cert.ReferenceIdeal.RefFold

open Cert.LibFoldSteps Cert.ReferenceIdeal Cert.ReferenceIdeal.Gen Idealize.ShloMosaic Idealize.ShloMosaic.TcCoe Idealize.SL.Sem Idealize.ShloMosaic.StableHlo

/-! ## The reference program -/

/-- The buffer each of the program's operations writes, in program order. -/
noncomputable def wrs : List (Ref sig .tc) :=
  [main_v0, main_v1, main_v2, main_v3, main_v4, main_v5, main_v6, main_v7,
   main_v8, main_v9, main_c, main_v10, main_v11, main_c_0, main_v12, main_v13,
   main_v14, main_v15, main_v16, main_v17, main_v18, main_v19, main_v20, main_v21,
   main_v22, main_cst, main_v23, main_v24, main_v25, main_v26, main_v27, main_v28,
   main_v29, main_v30, main_call0_v0, main_call0_v1, main_call0_cst, main_call0_v2, main_call0_v3, main_call0_cst_0,
   main_call0_v4, main_call0_v5, main_v31, main_c_1, main_v32, main_v33, main_c_2, main_v34,
   main_v35, main_v36, main_v37, main_v38, main_v39, main_v40, main_cst_3, main_call1_v0,
   main_call1_v1, main_call1_v2, main_v41, main_v42, main_cst_4, main_v43, main_v44, main_v45,
   main_v46, main_v47, main_v48, main_v49, main_v50, main_call2_cst, main_call2_v0, main_v51,
   main_cst_5, main_v52, main_c_6, main_v53, main_v54, main_c_7, main_v55, main_v56,
   main_v57, main_v58, main_v59, main_v60, main_v61, main_v62, main_v63, main_v64,
   main_v65, main_cst_8, main_v66, main_v67, main_v68, main_v69, main_v70, main_v71,
   main_v72, main_v73, main_call3_v0, main_call3_v1, main_call3_cst, main_call3_v2, main_call3_v3, main_call3_cst_0,
   main_call3_v4, main_call3_v5, main_v74, main_c_9, main_v75, main_v76, main_c_10, main_v77,
   main_v78, main_v79, main_v80, main_v81, main_v82, main_v83, main_cst_11, main_call4_v0,
   main_call4_v1, main_call4_v2, main_v84, main_v85, main_cst_12, main_v86, main_v87, main_v88,
   main_v89, main_v90, main_v91, main_v92, main_v93, main_call5_cst, main_call5_v0, main_v94,
   main_cst_13, main_v95, main_v96, main_v97, main_v98, main_cst_14, main_v99, main_v100,
   main_v101, main_v102, main_v103, main_v104, main_v105, main_v106, main_call6_cst, main_call6_v0,
   main_v107]

set_option maxRecDepth 8192 in
/-- Each operation writes exactly the buffer `wrs` names for it. -/
theorem hw : (ValueP.ops (F := Ideal)).map HloOp.writes
    = wrs.map fun r => ({Proc.devRef .tc r} : Finset (DevRef τ sig)) := rfl

variable (m : (ℓ : Loc nD τ sig) → Buf (Elt Ideal) ℓ) (c : Dev nD)

/-! ### The arguments: no operation writes them -/

theorem A0 : after (ValueP.ops (F := Ideal)) (launchContents m c) (Proc.devRef .tc main_arg0) = (m ((c.tc : Thread nD τ).loc main_arg0)) :=
  after_drop_frame hw 0 (launchContents m c) main_arg0 (by decide)
theorem A1 : after (ValueP.ops (F := Ideal)) (launchContents m c) (Proc.devRef .tc main_arg1) = (m ((c.tc : Thread nD τ).loc main_arg1)) :=
  after_drop_frame hw 0 (launchContents m c) main_arg1 (by decide)
theorem A2 : after (ValueP.ops (F := Ideal)) (launchContents m c) (Proc.devRef .tc main_arg2) = (m ((c.tc : Thread nD τ).loc main_arg2)) :=
  after_drop_frame hw 0 (launchContents m c) main_arg2 (by decide)
theorem A3 : after (ValueP.ops (F := Ideal)) (launchContents m c) (Proc.devRef .tc main_arg3) = (m ((c.tc : Thread nD τ).loc main_arg3)) :=
  after_drop_frame hw 0 (launchContents m c) main_arg3 (by decide)
theorem A4 : after (ValueP.ops (F := Ideal)) (launchContents m c) (Proc.devRef .tc main_arg4) = (m ((c.tc : Thread nD τ).loc main_arg4)) :=
  after_drop_frame hw 0 (launchContents m c) main_arg4 (by decide)
theorem A5 : after (ValueP.ops (F := Ideal)) (launchContents m c) (Proc.devRef .tc main_arg5) = (m ((c.tc : Thread nD τ).loc main_arg5)) :=
  after_drop_frame hw 0 (launchContents m c) main_arg5 (by decide)
theorem A6 : after (ValueP.ops (F := Ideal)) (launchContents m c) (Proc.devRef .tc main_arg6) = (m ((c.tc : Thread nD τ).loc main_arg6)) :=
  after_drop_frame hw 0 (launchContents m c) main_arg6 (by decide)
theorem A7 : after (ValueP.ops (F := Ideal)) (launchContents m c) (Proc.devRef .tc main_arg7) = (m ((c.tc : Thread nD τ).loc main_arg7)) :=
  after_drop_frame hw 0 (launchContents m c) main_arg7 (by decide)
theorem A8 : after (ValueP.ops (F := Ideal)) (launchContents m c) (Proc.devRef .tc main_arg8) = (m ((c.tc : Thread nD τ).loc main_arg8)) :=
  after_drop_frame hw 0 (launchContents m c) main_arg8 (by decide)
theorem A9 : after (ValueP.ops (F := Ideal)) (launchContents m c) (Proc.devRef .tc main_arg9) = (m ((c.tc : Thread nD τ).loc main_arg9)) :=
  after_drop_frame hw 0 (launchContents m c) main_arg9 (by decide)
theorem A10 : after (ValueP.ops (F := Ideal)) (launchContents m c) (Proc.devRef .tc main_arg10) = (m ((c.tc : Thread nD τ).loc main_arg10)) :=
  after_drop_frame hw 0 (launchContents m c) main_arg10 (by decide)
theorem A11 : after (ValueP.ops (F := Ideal)) (launchContents m c) (Proc.devRef .tc main_arg11) = (m ((c.tc : Thread nD τ).loc main_arg11)) :=
  after_drop_frame hw 0 (launchContents m c) main_arg11 (by decide)
theorem A12 : after (ValueP.ops (F := Ideal)) (launchContents m c) (Proc.devRef .tc main_arg12) = (m ((c.tc : Thread nD τ).loc main_arg12)) :=
  after_drop_frame hw 0 (launchContents m c) main_arg12 (by decide)
theorem A13 : after (ValueP.ops (F := Ideal)) (launchContents m c) (Proc.devRef .tc main_arg13) = (m ((c.tc : Thread nD τ).loc main_arg13)) :=
  after_drop_frame hw 0 (launchContents m c) main_arg13 (by decide)
theorem A14 : after (ValueP.ops (F := Ideal)) (launchContents m c) (Proc.devRef .tc main_arg14) = (m ((c.tc : Thread nD τ).loc main_arg14)) :=
  after_drop_frame hw 0 (launchContents m c) main_arg14 (by decide)
theorem A15 : after (ValueP.ops (F := Ideal)) (launchContents m c) (Proc.devRef .tc main_arg15) = (m ((c.tc : Thread nD τ).loc main_arg15)) :=
  after_drop_frame hw 0 (launchContents m c) main_arg15 (by decide)
theorem A16 : after (ValueP.ops (F := Ideal)) (launchContents m c) (Proc.devRef .tc main_arg16) = (m ((c.tc : Thread nD τ).loc main_arg16)) :=
  after_drop_frame hw 0 (launchContents m c) main_arg16 (by decide)
theorem A17 : after (ValueP.ops (F := Ideal)) (launchContents m c) (Proc.devRef .tc main_arg17) = (m ((c.tc : Thread nD τ).loc main_arg17)) :=
  after_drop_frame hw 0 (launchContents m c) main_arg17 (by decide)
theorem A18 : after (ValueP.ops (F := Ideal)) (launchContents m c) (Proc.devRef .tc main_arg18) = (m ((c.tc : Thread nD τ).loc main_arg18)) :=
  after_drop_frame hw 0 (launchContents m c) main_arg18 (by decide)
theorem A19 : after (ValueP.ops (F := Ideal)) (launchContents m c) (Proc.devRef .tc main_arg19) = (m ((c.tc : Thread nD τ).loc main_arg19)) :=
  after_drop_frame hw 0 (launchContents m c) main_arg19 (by decide)
theorem A20 : after (ValueP.ops (F := Ideal)) (launchContents m c) (Proc.devRef .tc main_arg20) = (m ((c.tc : Thread nD τ).loc main_arg20)) :=
  after_drop_frame hw 0 (launchContents m c) main_arg20 (by decide)
theorem A21 : after (ValueP.ops (F := Ideal)) (launchContents m c) (Proc.devRef .tc main_arg21) = (m ((c.tc : Thread nD τ).loc main_arg21)) :=
  after_drop_frame hw 0 (launchContents m c) main_arg21 (by decide)
theorem A22 : after (ValueP.ops (F := Ideal)) (launchContents m c) (Proc.devRef .tc main_arg22) = (m ((c.tc : Thread nD τ).loc main_arg22)) :=
  after_drop_frame hw 0 (launchContents m c) main_arg22 (by decide)
theorem A23 : after (ValueP.ops (F := Ideal)) (launchContents m c) (Proc.devRef .tc main_arg23) = (m ((c.tc : Thread nD τ).loc main_arg23)) :=
  after_drop_frame hw 0 (launchContents m c) main_arg23 (by decide)
theorem A24 : after (ValueP.ops (F := Ideal)) (launchContents m c) (Proc.devRef .tc main_arg24) = (m ((c.tc : Thread nD τ).loc main_arg24)) :=
  after_drop_frame hw 0 (launchContents m c) main_arg24 (by decide)
theorem A25 : after (ValueP.ops (F := Ideal)) (launchContents m c) (Proc.devRef .tc main_arg25) = (m ((c.tc : Thread nD τ).loc main_arg25)) :=
  after_drop_frame hw 0 (launchContents m c) main_arg25 (by decide)

/-! ### The operations, in program order: each buffer's end contents from its operands' -/

theorem H_v0 : after (ValueP.ops (F := Ideal)) (launchContents m c) (Proc.devRef .tc main_v0)
    = ReadP.val_main_v0 (F := Ideal) (m ((c.tc : Thread nD τ).loc main_arg7)) :=
  (step_unary hw 0 rfl (by decide) (by decide) (launchContents m c) (A7 m c) :)
theorem H_v1 : after (ValueP.ops (F := Ideal)) (launchContents m c) (Proc.devRef .tc main_v1)
    = ReadP.val_main_v1 (F := Ideal) (m ((c.tc : Thread nD τ).loc main_arg1)) (m ((c.tc : Thread nD τ).loc main_arg7)) :=
  (step_binary hw 1 rfl (by decide) (by decide) (by decide) (launchContents m c) (A1 m c) (H_v0 m c) :)
theorem H_v2 : after (ValueP.ops (F := Ideal)) (launchContents m c) (Proc.devRef .tc main_v2)
    = ReadP.val_main_v2 (F := Ideal) (m ((c.tc : Thread nD τ).loc main_arg8)) :=
  (step_unary hw 2 rfl (by decide) (by decide) (launchContents m c) (A8 m c) :)
theorem H_v3 : after (ValueP.ops (F := Ideal)) (launchContents m c) (Proc.devRef .tc main_v3)
    = ReadP.val_main_v3 (F := Ideal) (m ((c.tc : Thread nD τ).loc main_arg8)) :=
  (step_unary hw 3 rfl (by decide) (by decide) (launchContents m c) (H_v2 m c) :)
theorem H_v4 : after (ValueP.ops (F := Ideal)) (launchContents m c) (Proc.devRef .tc main_v4)
    = ReadP.val_main_v4 (F := Ideal) (m ((c.tc : Thread nD τ).loc main_arg1)) (m ((c.tc : Thread nD τ).loc main_arg7)) (m ((c.tc : Thread nD τ).loc main_arg8)) :=
  (step_binary hw 4 rfl (by decide) (by decide) (by decide) (launchContents m c) (H_v1 m c) (H_v3 m c) :)
theorem H_v5 : after (ValueP.ops (F := Ideal)) (launchContents m c) (Proc.devRef .tc main_v5)
    = ReadP.val_main_v5 (F := Ideal) (m ((c.tc : Thread nD τ).loc main_arg15)) :=
  (step_unary hw 5 rfl (by decide) (by decide) (launchContents m c) (A15 m c) :)
theorem H_v6 : after (ValueP.ops (F := Ideal)) (launchContents m c) (Proc.devRef .tc main_v6)
    = ReadP.val_main_v6 (F := Ideal) (m ((c.tc : Thread nD τ).loc main_arg1)) (m ((c.tc : Thread nD τ).loc main_arg15)) :=
  (step_binary hw 6 rfl (by decide) (by decide) (by decide) (launchContents m c) (A1 m c) (H_v5 m c) :)
theorem H_v7 : after (ValueP.ops (F := Ideal)) (launchContents m c) (Proc.devRef .tc main_v7)
    = ReadP.val_main_v7 (F := Ideal) (m ((c.tc : Thread nD τ).loc main_arg16)) :=
  (step_unary hw 7 rfl (by decide) (by decide) (launchContents m c) (A16 m c) :)
theorem H_v8 : after (ValueP.ops (F := Ideal)) (launchContents m c) (Proc.devRef .tc main_v8)
    = ReadP.val_main_v8 (F := Ideal) (m ((c.tc : Thread nD τ).loc main_arg16)) :=
  (step_unary hw 8 rfl (by decide) (by decide) (launchContents m c) (H_v7 m c) :)
theorem H_v9 : after (ValueP.ops (F := Ideal)) (launchContents m c) (Proc.devRef .tc main_v9)
    = ReadP.val_main_v9 (F := Ideal) (m ((c.tc : Thread nD τ).loc main_arg1)) (m ((c.tc : Thread nD τ).loc main_arg15)) (m ((c.tc : Thread nD τ).loc main_arg16)) :=
  (step_binary hw 9 rfl (by decide) (by decide) (by decide) (launchContents m c) (H_v6 m c) (H_v8 m c) :)
theorem H_c : after (ValueP.ops (F := Ideal)) (launchContents m c) (Proc.devRef .tc main_c)
    = ReadP.val_main_c (F := Ideal)  :=
  (step_nullary hw 10 rfl (by decide) (launchContents m c)  :)
theorem H_v10 : after (ValueP.ops (F := Ideal)) (launchContents m c) (Proc.devRef .tc main_v10)
    = ReadP.val_main_v10 (F := Ideal)  :=
  (step_unary hw 11 rfl (by decide) (by decide) (launchContents m c) (H_c m c) :)
theorem H_v11 : after (ValueP.ops (F := Ideal)) (launchContents m c) (Proc.devRef .tc main_v11)
    = ReadP.val_main_v11 (F := Ideal) (m ((c.tc : Thread nD τ).loc main_arg3)) :=
  (step_binary hw 12 rfl (by decide) (by decide) (by decide) (launchContents m c) (A3 m c) (H_v10 m c) :)
theorem H_c_0 : after (ValueP.ops (F := Ideal)) (launchContents m c) (Proc.devRef .tc main_c_0)
    = ReadP.val_main_c_0 (F := Ideal)  :=
  (step_nullary hw 13 rfl (by decide) (launchContents m c)  :)
theorem H_v12 : after (ValueP.ops (F := Ideal)) (launchContents m c) (Proc.devRef .tc main_v12)
    = ReadP.val_main_v12 (F := Ideal)  :=
  (step_unary hw 14 rfl (by decide) (by decide) (launchContents m c) (H_c_0 m c) :)
theorem H_v13 : after (ValueP.ops (F := Ideal)) (launchContents m c) (Proc.devRef .tc main_v13)
    = ReadP.val_main_v13 (F := Ideal) (m ((c.tc : Thread nD τ).loc main_arg3)) :=
  (step_binary hw 15 rfl (by decide) (by decide) (by decide) (launchContents m c) (A3 m c) (H_v12 m c) :)
theorem H_v14 : after (ValueP.ops (F := Ideal)) (launchContents m c) (Proc.devRef .tc main_v14)
    = ReadP.val_main_v14 (F := Ideal) (m ((c.tc : Thread nD τ).loc main_arg3)) :=
  (step_ternary hw 16 rfl (by decide) (by decide) (by decide) (by decide) (launchContents m c) (H_v11 m c) (H_v13 m c) (A3 m c) :)
theorem H_v15 : after (ValueP.ops (F := Ideal)) (launchContents m c) (Proc.devRef .tc main_v15)
    = ReadP.val_main_v15 (F := Ideal) (m ((c.tc : Thread nD τ).loc main_arg3)) :=
  (step_unary hw 17 rfl (by decide) (by decide) (launchContents m c) (H_v14 m c) :)
theorem H_v16 : after (ValueP.ops (F := Ideal)) (launchContents m c) (Proc.devRef .tc main_v16)
    = ReadP.val_main_v16 (F := Ideal) (m ((c.tc : Thread nD τ).loc main_arg0)) (m ((c.tc : Thread nD τ).loc main_arg3)) :=
  (step_binary hw 18 rfl (by decide) (by decide) (by decide) (launchContents m c) (A0 m c) (H_v15 m c) :)
theorem H_v17 : after (ValueP.ops (F := Ideal)) (launchContents m c) (Proc.devRef .tc main_v17)
    = ReadP.val_main_v17 (F := Ideal) (m ((c.tc : Thread nD τ).loc main_arg2)) :=
  (step_unary hw 19 rfl (by decide) (by decide) (launchContents m c) (A2 m c) :)
theorem H_v18 : after (ValueP.ops (F := Ideal)) (launchContents m c) (Proc.devRef .tc main_v18)
    = ReadP.val_main_v18 (F := Ideal) (m ((c.tc : Thread nD τ).loc main_arg2)) :=
  (step_unary hw 20 rfl (by decide) (by decide) (launchContents m c) (H_v17 m c) :)
theorem H_v19 : after (ValueP.ops (F := Ideal)) (launchContents m c) (Proc.devRef .tc main_v19)
    = ReadP.val_main_v19 (F := Ideal) (m ((c.tc : Thread nD τ).loc main_arg0)) (m ((c.tc : Thread nD τ).loc main_arg2)) (m ((c.tc : Thread nD τ).loc main_arg3)) :=
  (step_binary hw 21 rfl (by decide) (by decide) (by decide) (launchContents m c) (H_v16 m c) (H_v18 m c) :)
theorem H_v20 : after (ValueP.ops (F := Ideal)) (launchContents m c) (Proc.devRef .tc main_v20)
    = ReadP.val_main_v20 (F := Ideal) (m ((c.tc : Thread nD τ).loc main_arg2)) :=
  (step_unary hw 22 rfl (by decide) (by decide) (launchContents m c) (H_v17 m c) :)
theorem H_v21 : after (ValueP.ops (F := Ideal)) (launchContents m c) (Proc.devRef .tc main_v21)
    = ReadP.val_main_v21 (F := Ideal) (m ((c.tc : Thread nD τ).loc main_arg0)) (m ((c.tc : Thread nD τ).loc main_arg2)) (m ((c.tc : Thread nD τ).loc main_arg3)) :=
  (step_binary hw 23 rfl (by decide) (by decide) (by decide) (launchContents m c) (H_v19 m c) (H_v20 m c) :)
theorem H_v22 : after (ValueP.ops (F := Ideal)) (launchContents m c) (Proc.devRef .tc main_v22)
    = ReadP.val_main_v22 (F := Ideal) (m ((c.tc : Thread nD τ).loc main_arg0)) (m ((c.tc : Thread nD τ).loc main_arg2)) (m ((c.tc : Thread nD τ).loc main_arg3)) (m ((c.tc : Thread nD τ).loc main_arg9)) :=
  (step_binary hw 24 rfl (by decide) (by decide) (by decide) (launchContents m c) (H_v21 m c) (A9 m c) :)
theorem H_cst : after (ValueP.ops (F := Ideal)) (launchContents m c) (Proc.devRef .tc main_cst)
    = ReadP.val_main_cst (F := Ideal)  :=
  (step_nullary hw 25 rfl (by decide) (launchContents m c)  :)
theorem H_v23 : after (ValueP.ops (F := Ideal)) (launchContents m c) (Proc.devRef .tc main_v23)
    = ReadP.val_main_v23 (F := Ideal)  :=
  (step_unary hw 26 rfl (by decide) (by decide) (launchContents m c) (H_cst m c) :)
theorem H_v24 : after (ValueP.ops (F := Ideal)) (launchContents m c) (Proc.devRef .tc main_v24)
    = ReadP.val_main_v24 (F := Ideal) (m ((c.tc : Thread nD τ).loc main_arg10)) :=
  (step_binary hw 27 rfl (by decide) (by decide) (by decide) (launchContents m c) (A10 m c) (H_v23 m c) :)
theorem H_v25 : after (ValueP.ops (F := Ideal)) (launchContents m c) (Proc.devRef .tc main_v25)
    = ReadP.val_main_v25 (F := Ideal) (m ((c.tc : Thread nD τ).loc main_arg10)) :=
  (step_unary hw 28 rfl (by decide) (by decide) (launchContents m c) (H_v24 m c) :)
theorem H_v26 : after (ValueP.ops (F := Ideal)) (launchContents m c) (Proc.devRef .tc main_v26)
    = ReadP.val_main_v26 (F := Ideal) (m ((c.tc : Thread nD τ).loc main_arg10)) :=
  (step_unary hw 29 rfl (by decide) (by decide) (launchContents m c) (H_v25 m c) :)
theorem H_v27 : after (ValueP.ops (F := Ideal)) (launchContents m c) (Proc.devRef .tc main_v27)
    = ReadP.val_main_v27 (F := Ideal) (m ((c.tc : Thread nD τ).loc main_arg0)) (m ((c.tc : Thread nD τ).loc main_arg2)) (m ((c.tc : Thread nD τ).loc main_arg3)) (m ((c.tc : Thread nD τ).loc main_arg9)) (m ((c.tc : Thread nD τ).loc main_arg10)) :=
  (step_binary hw 30 rfl (by decide) (by decide) (by decide) (launchContents m c) (H_v22 m c) (H_v26 m c) :)
theorem H_v28 : after (ValueP.ops (F := Ideal)) (launchContents m c) (Proc.devRef .tc main_v28)
    = ReadP.val_main_v28 (F := Ideal) (m ((c.tc : Thread nD τ).loc main_arg11)) :=
  (step_unary hw 31 rfl (by decide) (by decide) (launchContents m c) (A11 m c) :)
theorem H_v29 : after (ValueP.ops (F := Ideal)) (launchContents m c) (Proc.devRef .tc main_v29)
    = ReadP.val_main_v29 (F := Ideal) (m ((c.tc : Thread nD τ).loc main_arg11)) :=
  (step_unary hw 32 rfl (by decide) (by decide) (launchContents m c) (H_v28 m c) :)
theorem H_v30 : after (ValueP.ops (F := Ideal)) (launchContents m c) (Proc.devRef .tc main_v30)
    = ReadP.val_main_v30 (F := Ideal) (m ((c.tc : Thread nD τ).loc main_arg0)) (m ((c.tc : Thread nD τ).loc main_arg2)) (m ((c.tc : Thread nD τ).loc main_arg3)) (m ((c.tc : Thread nD τ).loc main_arg9)) (m ((c.tc : Thread nD τ).loc main_arg10)) (m ((c.tc : Thread nD τ).loc main_arg11)) :=
  (step_binary hw 33 rfl (by decide) (by decide) (by decide) (launchContents m c) (H_v27 m c) (H_v29 m c) :)
theorem H_call0_v0 : after (ValueP.ops (F := Ideal)) (launchContents m c) (Proc.devRef .tc main_call0_v0)
    = ReadP.val_main_call0_v0 (F := Ideal) (m ((c.tc : Thread nD τ).loc main_arg0)) (m ((c.tc : Thread nD τ).loc main_arg2)) (m ((c.tc : Thread nD τ).loc main_arg3)) (m ((c.tc : Thread nD τ).loc main_arg9)) (m ((c.tc : Thread nD τ).loc main_arg10)) (m ((c.tc : Thread nD τ).loc main_arg11)) :=
  (step_unaryT hw 34 rfl (by decide) (by decide) (launchContents m c) (H_v30 m c) :)
theorem H_call0_v1 : after (ValueP.ops (F := Ideal)) (launchContents m c) (Proc.devRef .tc main_call0_v1)
    = ReadP.val_main_call0_v1 (F := Ideal) (m ((c.tc : Thread nD τ).loc main_arg0)) (m ((c.tc : Thread nD τ).loc main_arg2)) (m ((c.tc : Thread nD τ).loc main_arg3)) (m ((c.tc : Thread nD τ).loc main_arg9)) (m ((c.tc : Thread nD τ).loc main_arg10)) (m ((c.tc : Thread nD τ).loc main_arg11)) :=
  (step_unaryT hw 35 rfl (by decide) (by decide) (launchContents m c) (H_call0_v0 m c) :)
theorem H_call0_cst : after (ValueP.ops (F := Ideal)) (launchContents m c) (Proc.devRef .tc main_call0_cst)
    = ReadP.val_main_call0_cst (F := Ideal)  :=
  (step_nullaryT hw 36 rfl (by decide) (launchContents m c)  :)
theorem H_call0_v2 : after (ValueP.ops (F := Ideal)) (launchContents m c) (Proc.devRef .tc main_call0_v2)
    = ReadP.val_main_call0_v2 (F := Ideal)  :=
  (step_unaryT hw 37 rfl (by decide) (by decide) (launchContents m c) (H_call0_cst m c) :)
theorem H_call0_v3 : after (ValueP.ops (F := Ideal)) (launchContents m c) (Proc.devRef .tc main_call0_v3)
    = ReadP.val_main_call0_v3 (F := Ideal) (m ((c.tc : Thread nD τ).loc main_arg0)) (m ((c.tc : Thread nD τ).loc main_arg2)) (m ((c.tc : Thread nD τ).loc main_arg3)) (m ((c.tc : Thread nD τ).loc main_arg9)) (m ((c.tc : Thread nD τ).loc main_arg10)) (m ((c.tc : Thread nD τ).loc main_arg11)) :=
  (step_binaryT hw 38 rfl (by decide) (by decide) (by decide) (launchContents m c) (H_call0_v2 m c) (H_call0_v1 m c) :)
theorem H_call0_cst_0 : after (ValueP.ops (F := Ideal)) (launchContents m c) (Proc.devRef .tc main_call0_cst_0)
    = ReadP.val_main_call0_cst_0 (F := Ideal)  :=
  (step_nullaryT hw 39 rfl (by decide) (launchContents m c)  :)
theorem H_call0_v4 : after (ValueP.ops (F := Ideal)) (launchContents m c) (Proc.devRef .tc main_call0_v4)
    = ReadP.val_main_call0_v4 (F := Ideal)  :=
  (step_unaryT hw 40 rfl (by decide) (by decide) (launchContents m c) (H_call0_cst_0 m c) :)
theorem H_call0_v5 : after (ValueP.ops (F := Ideal)) (launchContents m c) (Proc.devRef .tc main_call0_v5)
    = ReadP.val_main_call0_v5 (F := Ideal) (m ((c.tc : Thread nD τ).loc main_arg0)) (m ((c.tc : Thread nD τ).loc main_arg2)) (m ((c.tc : Thread nD τ).loc main_arg3)) (m ((c.tc : Thread nD τ).loc main_arg9)) (m ((c.tc : Thread nD τ).loc main_arg10)) (m ((c.tc : Thread nD τ).loc main_arg11)) :=
  (step_binaryT hw 41 rfl (by decide) (by decide) (by decide) (launchContents m c) (H_call0_v4 m c) (H_call0_v3 m c) :)
theorem H_v31 : after (ValueP.ops (F := Ideal)) (launchContents m c) (Proc.devRef .tc main_v31)
    = ReadP.val_main_v31 (F := Ideal) (m ((c.tc : Thread nD τ).loc main_arg0)) (m ((c.tc : Thread nD τ).loc main_arg2)) (m ((c.tc : Thread nD τ).loc main_arg3)) (m ((c.tc : Thread nD τ).loc main_arg9)) (m ((c.tc : Thread nD τ).loc main_arg10)) (m ((c.tc : Thread nD τ).loc main_arg11)) :=
  (step_binaryT hw 42 rfl (by decide) (by decide) (by decide) (launchContents m c) (H_v30 m c) (H_call0_v5 m c) :)
theorem H_c_1 : after (ValueP.ops (F := Ideal)) (launchContents m c) (Proc.devRef .tc main_c_1)
    = ReadP.val_main_c_1 (F := Ideal)  :=
  (step_nullary hw 43 rfl (by decide) (launchContents m c)  :)
theorem H_v32 : after (ValueP.ops (F := Ideal)) (launchContents m c) (Proc.devRef .tc main_v32)
    = ReadP.val_main_v32 (F := Ideal)  :=
  (step_unary hw 44 rfl (by decide) (by decide) (launchContents m c) (H_c_1 m c) :)
theorem H_v33 : after (ValueP.ops (F := Ideal)) (launchContents m c) (Proc.devRef .tc main_v33)
    = ReadP.val_main_v33 (F := Ideal) (m ((c.tc : Thread nD τ).loc main_arg3)) :=
  (step_binary hw 45 rfl (by decide) (by decide) (by decide) (launchContents m c) (A3 m c) (H_v32 m c) :)
theorem H_c_2 : after (ValueP.ops (F := Ideal)) (launchContents m c) (Proc.devRef .tc main_c_2)
    = ReadP.val_main_c_2 (F := Ideal)  :=
  (step_nullary hw 46 rfl (by decide) (launchContents m c)  :)
theorem H_v34 : after (ValueP.ops (F := Ideal)) (launchContents m c) (Proc.devRef .tc main_v34)
    = ReadP.val_main_v34 (F := Ideal)  :=
  (step_unary hw 47 rfl (by decide) (by decide) (launchContents m c) (H_c_2 m c) :)
theorem H_v35 : after (ValueP.ops (F := Ideal)) (launchContents m c) (Proc.devRef .tc main_v35)
    = ReadP.val_main_v35 (F := Ideal) (m ((c.tc : Thread nD τ).loc main_arg3)) :=
  (step_binary hw 48 rfl (by decide) (by decide) (by decide) (launchContents m c) (A3 m c) (H_v34 m c) :)
theorem H_v36 : after (ValueP.ops (F := Ideal)) (launchContents m c) (Proc.devRef .tc main_v36)
    = ReadP.val_main_v36 (F := Ideal) (m ((c.tc : Thread nD τ).loc main_arg3)) :=
  (step_ternary hw 49 rfl (by decide) (by decide) (by decide) (by decide) (launchContents m c) (H_v33 m c) (H_v35 m c) (A3 m c) :)
theorem H_v37 : after (ValueP.ops (F := Ideal)) (launchContents m c) (Proc.devRef .tc main_v37)
    = ReadP.val_main_v37 (F := Ideal) (m ((c.tc : Thread nD τ).loc main_arg3)) :=
  (step_unary hw 50 rfl (by decide) (by decide) (launchContents m c) (H_v36 m c) :)
theorem H_v38 : after (ValueP.ops (F := Ideal)) (launchContents m c) (Proc.devRef .tc main_v38)
    = ReadP.val_main_v38 (F := Ideal) (m ((c.tc : Thread nD τ).loc main_arg1)) (m ((c.tc : Thread nD τ).loc main_arg3)) (m ((c.tc : Thread nD τ).loc main_arg7)) (m ((c.tc : Thread nD τ).loc main_arg8)) :=
  (step_binary hw 51 rfl (by decide) (by decide) (by decide) (launchContents m c) (H_v4 m c) (H_v37 m c) :)
theorem H_v39 : after (ValueP.ops (F := Ideal)) (launchContents m c) (Proc.devRef .tc main_v39)
    = ReadP.val_main_v39 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) :=
  (step_binary hw 52 rfl (by decide) (by decide) (by decide) (launchContents m c) (H_v31 m c) (H_v38 m c) :)
theorem H_v40 : after (ValueP.ops (F := Ideal)) (launchContents m c) (Proc.devRef .tc main_v40)
    = ReadP.val_main_v40 (F := Ideal) (m ((c.tc : Thread nD τ).loc main_arg5)) :=
  (step_unary hw 53 rfl (by decide) (by decide) (launchContents m c) (A5 m c) :)
theorem H_cst_3 : after (ValueP.ops (F := Ideal)) (launchContents m c) (Proc.devRef .tc main_cst_3)
    = ReadP.val_main_cst_3 (F := Ideal)  :=
  (step_nullary hw 54 rfl (by decide) (launchContents m c)  :)
theorem H_call1_v0 : after (ValueP.ops (F := Ideal)) (launchContents m c) (Proc.devRef .tc main_call1_v0)
    = ReadP.val_main_call1_v0 (F := Ideal)  :=
  (step_unaryT hw 55 rfl (by decide) (by decide) (launchContents m c) (H_cst_3 m c) :)
theorem H_call1_v1 : after (ValueP.ops (F := Ideal)) (launchContents m c) (Proc.devRef .tc main_call1_v1)
    = ReadP.val_main_call1_v1 (F := Ideal) (m ((c.tc : Thread nD τ).loc main_arg5)) :=
  (step_unaryT hw 56 rfl (by decide) (by decide) (launchContents m c) (H_v40 m c) :)
theorem H_call1_v2 : after (ValueP.ops (F := Ideal)) (launchContents m c) (Proc.devRef .tc main_call1_v2)
    = ReadP.val_main_call1_v2 (F := Ideal)  :=
  (step_unaryT hw 57 rfl (by decide) (by decide) (launchContents m c) (H_call1_v0 m c) :)
theorem H_v41 : after (ValueP.ops (F := Ideal)) (launchContents m c) (Proc.devRef .tc main_v41)
    = ReadP.val_main_v41 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) :=
  (step_ternaryT hw 58 rfl (by decide) (by decide) (by decide) (by decide) (launchContents m c) (H_call1_v1 m c) (H_call1_v2 m c) (H_v39 m c) :)
theorem H_v42 : after (ValueP.ops (F := Ideal)) (launchContents m c) (Proc.devRef .tc main_v42)
    = ReadP.val_main_v42 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) :=
  (step_binary hw 59 rfl (by decide) (by decide) (by decide) (launchContents m c) (H_v41 m c) (A12 m c) :)
theorem H_cst_4 : after (ValueP.ops (F := Ideal)) (launchContents m c) (Proc.devRef .tc main_cst_4)
    = ReadP.val_main_cst_4 (F := Ideal)  :=
  (step_nullary hw 60 rfl (by decide) (launchContents m c)  :)
theorem H_v43 : after (ValueP.ops (F := Ideal)) (launchContents m c) (Proc.devRef .tc main_v43)
    = ReadP.val_main_v43 (F := Ideal)  :=
  (step_unary hw 61 rfl (by decide) (by decide) (launchContents m c) (H_cst_4 m c) :)
theorem H_v44 : after (ValueP.ops (F := Ideal)) (launchContents m c) (Proc.devRef .tc main_v44)
    = ReadP.val_main_v44 (F := Ideal) (m ((c.tc : Thread nD τ).loc main_arg13)) :=
  (step_binary hw 62 rfl (by decide) (by decide) (by decide) (launchContents m c) (A13 m c) (H_v43 m c) :)
theorem H_v45 : after (ValueP.ops (F := Ideal)) (launchContents m c) (Proc.devRef .tc main_v45)
    = ReadP.val_main_v45 (F := Ideal) (m ((c.tc : Thread nD τ).loc main_arg13)) :=
  (step_unary hw 63 rfl (by decide) (by decide) (launchContents m c) (H_v44 m c) :)
theorem H_v46 : after (ValueP.ops (F := Ideal)) (launchContents m c) (Proc.devRef .tc main_v46)
    = ReadP.val_main_v46 (F := Ideal) (m ((c.tc : Thread nD τ).loc main_arg13)) :=
  (step_unary hw 64 rfl (by decide) (by decide) (launchContents m c) (H_v45 m c) :)
theorem H_v47 : after (ValueP.ops (F := Ideal)) (launchContents m c) (Proc.devRef .tc main_v47)
    = ReadP.val_main_v47 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) :=
  (step_binary hw 65 rfl (by decide) (by decide) (by decide) (launchContents m c) (H_v42 m c) (H_v46 m c) :)
theorem H_v48 : after (ValueP.ops (F := Ideal)) (launchContents m c) (Proc.devRef .tc main_v48)
    = ReadP.val_main_v48 (F := Ideal) (m ((c.tc : Thread nD τ).loc main_arg14)) :=
  (step_unary hw 66 rfl (by decide) (by decide) (launchContents m c) (A14 m c) :)
theorem H_v49 : after (ValueP.ops (F := Ideal)) (launchContents m c) (Proc.devRef .tc main_v49)
    = ReadP.val_main_v49 (F := Ideal) (m ((c.tc : Thread nD τ).loc main_arg14)) :=
  (step_unary hw 67 rfl (by decide) (by decide) (launchContents m c) (H_v48 m c) :)
theorem H_v50 : after (ValueP.ops (F := Ideal)) (launchContents m c) (Proc.devRef .tc main_v50)
    = ReadP.val_main_v50 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) :=
  (step_binary hw 68 rfl (by decide) (by decide) (by decide) (launchContents m c) (H_v47 m c) (H_v49 m c) :)
theorem H_call2_cst : after (ValueP.ops (F := Ideal)) (launchContents m c) (Proc.devRef .tc main_call2_cst)
    = ReadP.val_main_call2_cst (F := Ideal)  :=
  (step_nullaryT hw 69 rfl (by decide) (launchContents m c)  :)
theorem H_call2_v0 : after (ValueP.ops (F := Ideal)) (launchContents m c) (Proc.devRef .tc main_call2_v0)
    = ReadP.val_main_call2_v0 (F := Ideal)  :=
  (step_unaryT hw 70 rfl (by decide) (by decide) (launchContents m c) (H_call2_cst m c) :)
theorem H_v51 : after (ValueP.ops (F := Ideal)) (launchContents m c) (Proc.devRef .tc main_v51)
    = ReadP.val_main_v51 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) :=
  (step_binaryT hw 71 rfl (by decide) (by decide) (by decide) (launchContents m c) (H_v50 m c) (H_call2_v0 m c) :)
theorem H_cst_5 : after (ValueP.ops (F := Ideal)) (launchContents m c) (Proc.devRef .tc main_cst_5)
    = ReadP.val_main_cst_5 (F := Ideal)  :=
  (step_nullary hw 72 rfl (by decide) (launchContents m c)  :)
theorem H_v52 : after (ValueP.ops (F := Ideal)) (launchContents m c) (Proc.devRef .tc main_v52)
    = ReadP.val_main_v52 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) :=
  (step_binary hw 73 rfl (by decide) (by decide) (by decide) (launchContents m c) (H_v51 m c) (H_cst_5 m c) :)
theorem H_c_6 : after (ValueP.ops (F := Ideal)) (launchContents m c) (Proc.devRef .tc main_c_6)
    = ReadP.val_main_c_6 (F := Ideal)  :=
  (step_nullary hw 74 rfl (by decide) (launchContents m c)  :)
theorem H_v53 : after (ValueP.ops (F := Ideal)) (launchContents m c) (Proc.devRef .tc main_v53)
    = ReadP.val_main_v53 (F := Ideal)  :=
  (step_unary hw 75 rfl (by decide) (by decide) (launchContents m c) (H_c_6 m c) :)
theorem H_v54 : after (ValueP.ops (F := Ideal)) (launchContents m c) (Proc.devRef .tc main_v54)
    = ReadP.val_main_v54 (F := Ideal) (m ((c.tc : Thread nD τ).loc main_arg4)) :=
  (step_binary hw 76 rfl (by decide) (by decide) (by decide) (launchContents m c) (A4 m c) (H_v53 m c) :)
theorem H_c_7 : after (ValueP.ops (F := Ideal)) (launchContents m c) (Proc.devRef .tc main_c_7)
    = ReadP.val_main_c_7 (F := Ideal)  :=
  (step_nullary hw 77 rfl (by decide) (launchContents m c)  :)
theorem H_v55 : after (ValueP.ops (F := Ideal)) (launchContents m c) (Proc.devRef .tc main_v55)
    = ReadP.val_main_v55 (F := Ideal)  :=
  (step_unary hw 78 rfl (by decide) (by decide) (launchContents m c) (H_c_7 m c) :)
theorem H_v56 : after (ValueP.ops (F := Ideal)) (launchContents m c) (Proc.devRef .tc main_v56)
    = ReadP.val_main_v56 (F := Ideal) (m ((c.tc : Thread nD τ).loc main_arg4)) :=
  (step_binary hw 79 rfl (by decide) (by decide) (by decide) (launchContents m c) (A4 m c) (H_v55 m c) :)
theorem H_v57 : after (ValueP.ops (F := Ideal)) (launchContents m c) (Proc.devRef .tc main_v57)
    = ReadP.val_main_v57 (F := Ideal) (m ((c.tc : Thread nD τ).loc main_arg4)) :=
  (step_ternary hw 80 rfl (by decide) (by decide) (by decide) (by decide) (launchContents m c) (H_v54 m c) (H_v56 m c) (A4 m c) :)
theorem H_v58 : after (ValueP.ops (F := Ideal)) (launchContents m c) (Proc.devRef .tc main_v58)
    = ReadP.val_main_v58 (F := Ideal) (m ((c.tc : Thread nD τ).loc main_arg4)) :=
  (step_unary hw 81 rfl (by decide) (by decide) (launchContents m c) (H_v57 m c) :)
theorem H_v59 : after (ValueP.ops (F := Ideal)) (launchContents m c) (Proc.devRef .tc main_v59)
    = ReadP.val_main_v59 (F := Ideal) (m ((c.tc : Thread nD τ).loc main_arg0)) (m ((c.tc : Thread nD τ).loc main_arg4)) :=
  (step_binary hw 82 rfl (by decide) (by decide) (by decide) (launchContents m c) (A0 m c) (H_v58 m c) :)
theorem H_v60 : after (ValueP.ops (F := Ideal)) (launchContents m c) (Proc.devRef .tc main_v60)
    = ReadP.val_main_v60 (F := Ideal) (m ((c.tc : Thread nD τ).loc main_arg2)) :=
  (step_unary hw 83 rfl (by decide) (by decide) (launchContents m c) (A2 m c) :)
theorem H_v61 : after (ValueP.ops (F := Ideal)) (launchContents m c) (Proc.devRef .tc main_v61)
    = ReadP.val_main_v61 (F := Ideal) (m ((c.tc : Thread nD τ).loc main_arg2)) :=
  (step_unary hw 84 rfl (by decide) (by decide) (launchContents m c) (H_v60 m c) :)
theorem H_v62 : after (ValueP.ops (F := Ideal)) (launchContents m c) (Proc.devRef .tc main_v62)
    = ReadP.val_main_v62 (F := Ideal) (m ((c.tc : Thread nD τ).loc main_arg0)) (m ((c.tc : Thread nD τ).loc main_arg2)) (m ((c.tc : Thread nD τ).loc main_arg4)) :=
  (step_binary hw 85 rfl (by decide) (by decide) (by decide) (launchContents m c) (H_v59 m c) (H_v61 m c) :)
theorem H_v63 : after (ValueP.ops (F := Ideal)) (launchContents m c) (Proc.devRef .tc main_v63)
    = ReadP.val_main_v63 (F := Ideal) (m ((c.tc : Thread nD τ).loc main_arg2)) :=
  (step_unary hw 86 rfl (by decide) (by decide) (launchContents m c) (H_v60 m c) :)
theorem H_v64 : after (ValueP.ops (F := Ideal)) (launchContents m c) (Proc.devRef .tc main_v64)
    = ReadP.val_main_v64 (F := Ideal) (m ((c.tc : Thread nD τ).loc main_arg0)) (m ((c.tc : Thread nD τ).loc main_arg2)) (m ((c.tc : Thread nD τ).loc main_arg4)) :=
  (step_binary hw 87 rfl (by decide) (by decide) (by decide) (launchContents m c) (H_v62 m c) (H_v63 m c) :)
theorem H_v65 : after (ValueP.ops (F := Ideal)) (launchContents m c) (Proc.devRef .tc main_v65)
    = ReadP.val_main_v65 (F := Ideal) (m ((c.tc : Thread nD τ).loc main_arg0)) (m ((c.tc : Thread nD τ).loc main_arg2)) (m ((c.tc : Thread nD τ).loc main_arg4)) (m ((c.tc : Thread nD τ).loc main_arg17)) :=
  (step_binary hw 88 rfl (by decide) (by decide) (by decide) (launchContents m c) (H_v64 m c) (A17 m c) :)
theorem H_cst_8 : after (ValueP.ops (F := Ideal)) (launchContents m c) (Proc.devRef .tc main_cst_8)
    = ReadP.val_main_cst_8 (F := Ideal)  :=
  (step_nullary hw 89 rfl (by decide) (launchContents m c)  :)
theorem H_v66 : after (ValueP.ops (F := Ideal)) (launchContents m c) (Proc.devRef .tc main_v66)
    = ReadP.val_main_v66 (F := Ideal)  :=
  (step_unary hw 90 rfl (by decide) (by decide) (launchContents m c) (H_cst_8 m c) :)
theorem H_v67 : after (ValueP.ops (F := Ideal)) (launchContents m c) (Proc.devRef .tc main_v67)
    = ReadP.val_main_v67 (F := Ideal) (m ((c.tc : Thread nD τ).loc main_arg18)) :=
  (step_binary hw 91 rfl (by decide) (by decide) (by decide) (launchContents m c) (A18 m c) (H_v66 m c) :)
theorem H_v68 : after (ValueP.ops (F := Ideal)) (launchContents m c) (Proc.devRef .tc main_v68)
    = ReadP.val_main_v68 (F := Ideal) (m ((c.tc : Thread nD τ).loc main_arg18)) :=
  (step_unary hw 92 rfl (by decide) (by decide) (launchContents m c) (H_v67 m c) :)
theorem H_v69 : after (ValueP.ops (F := Ideal)) (launchContents m c) (Proc.devRef .tc main_v69)
    = ReadP.val_main_v69 (F := Ideal) (m ((c.tc : Thread nD τ).loc main_arg18)) :=
  (step_unary hw 93 rfl (by decide) (by decide) (launchContents m c) (H_v68 m c) :)
theorem H_v70 : after (ValueP.ops (F := Ideal)) (launchContents m c) (Proc.devRef .tc main_v70)
    = ReadP.val_main_v70 (F := Ideal) (m ((c.tc : Thread nD τ).loc main_arg0)) (m ((c.tc : Thread nD τ).loc main_arg2)) (m ((c.tc : Thread nD τ).loc main_arg4)) (m ((c.tc : Thread nD τ).loc main_arg17)) (m ((c.tc : Thread nD τ).loc main_arg18)) :=
  (step_binary hw 94 rfl (by decide) (by decide) (by decide) (launchContents m c) (H_v65 m c) (H_v69 m c) :)
theorem H_v71 : after (ValueP.ops (F := Ideal)) (launchContents m c) (Proc.devRef .tc main_v71)
    = ReadP.val_main_v71 (F := Ideal) (m ((c.tc : Thread nD τ).loc main_arg19)) :=
  (step_unary hw 95 rfl (by decide) (by decide) (launchContents m c) (A19 m c) :)
theorem H_v72 : after (ValueP.ops (F := Ideal)) (launchContents m c) (Proc.devRef .tc main_v72)
    = ReadP.val_main_v72 (F := Ideal) (m ((c.tc : Thread nD τ).loc main_arg19)) :=
  (step_unary hw 96 rfl (by decide) (by decide) (launchContents m c) (H_v71 m c) :)
theorem H_v73 : after (ValueP.ops (F := Ideal)) (launchContents m c) (Proc.devRef .tc main_v73)
    = ReadP.val_main_v73 (F := Ideal) (m ((c.tc : Thread nD τ).loc main_arg0)) (m ((c.tc : Thread nD τ).loc main_arg2)) (m ((c.tc : Thread nD τ).loc main_arg4)) (m ((c.tc : Thread nD τ).loc main_arg17)) (m ((c.tc : Thread nD τ).loc main_arg18)) (m ((c.tc : Thread nD τ).loc main_arg19)) :=
  (step_binary hw 97 rfl (by decide) (by decide) (by decide) (launchContents m c) (H_v70 m c) (H_v72 m c) :)
theorem H_call3_v0 : after (ValueP.ops (F := Ideal)) (launchContents m c) (Proc.devRef .tc main_call3_v0)
    = ReadP.val_main_call3_v0 (F := Ideal) (m ((c.tc : Thread nD τ).loc main_arg0)) (m ((c.tc : Thread nD τ).loc main_arg2)) (m ((c.tc : Thread nD τ).loc main_arg4)) (m ((c.tc : Thread nD τ).loc main_arg17)) (m ((c.tc : Thread nD τ).loc main_arg18)) (m ((c.tc : Thread nD τ).loc main_arg19)) :=
  (step_unaryT hw 98 rfl (by decide) (by decide) (launchContents m c) (H_v73 m c) :)
theorem H_call3_v1 : after (ValueP.ops (F := Ideal)) (launchContents m c) (Proc.devRef .tc main_call3_v1)
    = ReadP.val_main_call3_v1 (F := Ideal) (m ((c.tc : Thread nD τ).loc main_arg0)) (m ((c.tc : Thread nD τ).loc main_arg2)) (m ((c.tc : Thread nD τ).loc main_arg4)) (m ((c.tc : Thread nD τ).loc main_arg17)) (m ((c.tc : Thread nD τ).loc main_arg18)) (m ((c.tc : Thread nD τ).loc main_arg19)) :=
  (step_unaryT hw 99 rfl (by decide) (by decide) (launchContents m c) (H_call3_v0 m c) :)
theorem H_call3_cst : after (ValueP.ops (F := Ideal)) (launchContents m c) (Proc.devRef .tc main_call3_cst)
    = ReadP.val_main_call3_cst (F := Ideal)  :=
  (step_nullaryT hw 100 rfl (by decide) (launchContents m c)  :)
theorem H_call3_v2 : after (ValueP.ops (F := Ideal)) (launchContents m c) (Proc.devRef .tc main_call3_v2)
    = ReadP.val_main_call3_v2 (F := Ideal)  :=
  (step_unaryT hw 101 rfl (by decide) (by decide) (launchContents m c) (H_call3_cst m c) :)
theorem H_call3_v3 : after (ValueP.ops (F := Ideal)) (launchContents m c) (Proc.devRef .tc main_call3_v3)
    = ReadP.val_main_call3_v3 (F := Ideal) (m ((c.tc : Thread nD τ).loc main_arg0)) (m ((c.tc : Thread nD τ).loc main_arg2)) (m ((c.tc : Thread nD τ).loc main_arg4)) (m ((c.tc : Thread nD τ).loc main_arg17)) (m ((c.tc : Thread nD τ).loc main_arg18)) (m ((c.tc : Thread nD τ).loc main_arg19)) :=
  (step_binaryT hw 102 rfl (by decide) (by decide) (by decide) (launchContents m c) (H_call3_v2 m c) (H_call3_v1 m c) :)
theorem H_call3_cst_0 : after (ValueP.ops (F := Ideal)) (launchContents m c) (Proc.devRef .tc main_call3_cst_0)
    = ReadP.val_main_call3_cst_0 (F := Ideal)  :=
  (step_nullaryT hw 103 rfl (by decide) (launchContents m c)  :)
theorem H_call3_v4 : after (ValueP.ops (F := Ideal)) (launchContents m c) (Proc.devRef .tc main_call3_v4)
    = ReadP.val_main_call3_v4 (F := Ideal)  :=
  (step_unaryT hw 104 rfl (by decide) (by decide) (launchContents m c) (H_call3_cst_0 m c) :)
theorem H_call3_v5 : after (ValueP.ops (F := Ideal)) (launchContents m c) (Proc.devRef .tc main_call3_v5)
    = ReadP.val_main_call3_v5 (F := Ideal) (m ((c.tc : Thread nD τ).loc main_arg0)) (m ((c.tc : Thread nD τ).loc main_arg2)) (m ((c.tc : Thread nD τ).loc main_arg4)) (m ((c.tc : Thread nD τ).loc main_arg17)) (m ((c.tc : Thread nD τ).loc main_arg18)) (m ((c.tc : Thread nD τ).loc main_arg19)) :=
  (step_binaryT hw 105 rfl (by decide) (by decide) (by decide) (launchContents m c) (H_call3_v4 m c) (H_call3_v3 m c) :)
theorem H_v74 : after (ValueP.ops (F := Ideal)) (launchContents m c) (Proc.devRef .tc main_v74)
    = ReadP.val_main_v74 (F := Ideal) (m ((c.tc : Thread nD τ).loc main_arg0)) (m ((c.tc : Thread nD τ).loc main_arg2)) (m ((c.tc : Thread nD τ).loc main_arg4)) (m ((c.tc : Thread nD τ).loc main_arg17)) (m ((c.tc : Thread nD τ).loc main_arg18)) (m ((c.tc : Thread nD τ).loc main_arg19)) :=
  (step_binaryT hw 106 rfl (by decide) (by decide) (by decide) (launchContents m c) (H_v73 m c) (H_call3_v5 m c) :)
theorem H_c_9 : after (ValueP.ops (F := Ideal)) (launchContents m c) (Proc.devRef .tc main_c_9)
    = ReadP.val_main_c_9 (F := Ideal)  :=
  (step_nullary hw 107 rfl (by decide) (launchContents m c)  :)
theorem H_v75 : after (ValueP.ops (F := Ideal)) (launchContents m c) (Proc.devRef .tc main_v75)
    = ReadP.val_main_v75 (F := Ideal)  :=
  (step_unary hw 108 rfl (by decide) (by decide) (launchContents m c) (H_c_9 m c) :)
theorem H_v76 : after (ValueP.ops (F := Ideal)) (launchContents m c) (Proc.devRef .tc main_v76)
    = ReadP.val_main_v76 (F := Ideal) (m ((c.tc : Thread nD τ).loc main_arg4)) :=
  (step_binary hw 109 rfl (by decide) (by decide) (by decide) (launchContents m c) (A4 m c) (H_v75 m c) :)
theorem H_c_10 : after (ValueP.ops (F := Ideal)) (launchContents m c) (Proc.devRef .tc main_c_10)
    = ReadP.val_main_c_10 (F := Ideal)  :=
  (step_nullary hw 110 rfl (by decide) (launchContents m c)  :)
theorem H_v77 : after (ValueP.ops (F := Ideal)) (launchContents m c) (Proc.devRef .tc main_v77)
    = ReadP.val_main_v77 (F := Ideal)  :=
  (step_unary hw 111 rfl (by decide) (by decide) (launchContents m c) (H_c_10 m c) :)
theorem H_v78 : after (ValueP.ops (F := Ideal)) (launchContents m c) (Proc.devRef .tc main_v78)
    = ReadP.val_main_v78 (F := Ideal) (m ((c.tc : Thread nD τ).loc main_arg4)) :=
  (step_binary hw 112 rfl (by decide) (by decide) (by decide) (launchContents m c) (A4 m c) (H_v77 m c) :)
theorem H_v79 : after (ValueP.ops (F := Ideal)) (launchContents m c) (Proc.devRef .tc main_v79)
    = ReadP.val_main_v79 (F := Ideal) (m ((c.tc : Thread nD τ).loc main_arg4)) :=
  (step_ternary hw 113 rfl (by decide) (by decide) (by decide) (by decide) (launchContents m c) (H_v76 m c) (H_v78 m c) (A4 m c) :)
theorem H_v80 : after (ValueP.ops (F := Ideal)) (launchContents m c) (Proc.devRef .tc main_v80)
    = ReadP.val_main_v80 (F := Ideal) (m ((c.tc : Thread nD τ).loc main_arg4)) :=
  (step_unary hw 114 rfl (by decide) (by decide) (launchContents m c) (H_v79 m c) :)
theorem H_v81 : after (ValueP.ops (F := Ideal)) (launchContents m c) (Proc.devRef .tc main_v81)
    = ReadP.val_main_v81 (F := Ideal) (m ((c.tc : Thread nD τ).loc main_arg1)) (m ((c.tc : Thread nD τ).loc main_arg4)) (m ((c.tc : Thread nD τ).loc main_arg15)) (m ((c.tc : Thread nD τ).loc main_arg16)) :=
  (step_binary hw 115 rfl (by decide) (by decide) (by decide) (launchContents m c) (H_v9 m c) (H_v80 m c) :)
theorem H_v82 : after (ValueP.ops (F := Ideal)) (launchContents m c) (Proc.devRef .tc main_v82)
    = ReadP.val_main_v82 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) :=
  (step_binary hw 116 rfl (by decide) (by decide) (by decide) (launchContents m c) (H_v74 m c) (H_v81 m c) :)
theorem H_v83 : after (ValueP.ops (F := Ideal)) (launchContents m c) (Proc.devRef .tc main_v83)
    = ReadP.val_main_v83 (F := Ideal) (m ((c.tc : Thread nD τ).loc main_arg6)) :=
  (step_unary hw 117 rfl (by decide) (by decide) (launchContents m c) (A6 m c) :)
theorem H_cst_11 : after (ValueP.ops (F := Ideal)) (launchContents m c) (Proc.devRef .tc main_cst_11)
    = ReadP.val_main_cst_11 (F := Ideal)  :=
  (step_nullary hw 118 rfl (by decide) (launchContents m c)  :)
theorem H_call4_v0 : after (ValueP.ops (F := Ideal)) (launchContents m c) (Proc.devRef .tc main_call4_v0)
    = ReadP.val_main_call4_v0 (F := Ideal)  :=
  (step_unaryT hw 119 rfl (by decide) (by decide) (launchContents m c) (H_cst_11 m c) :)
theorem H_call4_v1 : after (ValueP.ops (F := Ideal)) (launchContents m c) (Proc.devRef .tc main_call4_v1)
    = ReadP.val_main_call4_v1 (F := Ideal) (m ((c.tc : Thread nD τ).loc main_arg6)) :=
  (step_unaryT hw 120 rfl (by decide) (by decide) (launchContents m c) (H_v83 m c) :)
theorem H_call4_v2 : after (ValueP.ops (F := Ideal)) (launchContents m c) (Proc.devRef .tc main_call4_v2)
    = ReadP.val_main_call4_v2 (F := Ideal)  :=
  (step_unaryT hw 121 rfl (by decide) (by decide) (launchContents m c) (H_call4_v0 m c) :)
theorem H_v84 : after (ValueP.ops (F := Ideal)) (launchContents m c) (Proc.devRef .tc main_v84)
    = ReadP.val_main_v84 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg6)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) :=
  (step_ternaryT hw 122 rfl (by decide) (by decide) (by decide) (by decide) (launchContents m c) (H_call4_v1 m c) (H_call4_v2 m c) (H_v82 m c) :)
theorem H_v85 : after (ValueP.ops (F := Ideal)) (launchContents m c) (Proc.devRef .tc main_v85)
    = ReadP.val_main_v85 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg6)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) :=
  (step_binary hw 123 rfl (by decide) (by decide) (by decide) (launchContents m c) (H_v84 m c) (A20 m c) :)
theorem H_cst_12 : after (ValueP.ops (F := Ideal)) (launchContents m c) (Proc.devRef .tc main_cst_12)
    = ReadP.val_main_cst_12 (F := Ideal)  :=
  (step_nullary hw 124 rfl (by decide) (launchContents m c)  :)
theorem H_v86 : after (ValueP.ops (F := Ideal)) (launchContents m c) (Proc.devRef .tc main_v86)
    = ReadP.val_main_v86 (F := Ideal)  :=
  (step_unary hw 125 rfl (by decide) (by decide) (launchContents m c) (H_cst_12 m c) :)
theorem H_v87 : after (ValueP.ops (F := Ideal)) (launchContents m c) (Proc.devRef .tc main_v87)
    = ReadP.val_main_v87 (F := Ideal) (m ((c.tc : Thread nD τ).loc main_arg21)) :=
  (step_binary hw 126 rfl (by decide) (by decide) (by decide) (launchContents m c) (A21 m c) (H_v86 m c) :)
theorem H_v88 : after (ValueP.ops (F := Ideal)) (launchContents m c) (Proc.devRef .tc main_v88)
    = ReadP.val_main_v88 (F := Ideal) (m ((c.tc : Thread nD τ).loc main_arg21)) :=
  (step_unary hw 127 rfl (by decide) (by decide) (launchContents m c) (H_v87 m c) :)
theorem H_v89 : after (ValueP.ops (F := Ideal)) (launchContents m c) (Proc.devRef .tc main_v89)
    = ReadP.val_main_v89 (F := Ideal) (m ((c.tc : Thread nD τ).loc main_arg21)) :=
  (step_unary hw 128 rfl (by decide) (by decide) (launchContents m c) (H_v88 m c) :)
theorem H_v90 : after (ValueP.ops (F := Ideal)) (launchContents m c) (Proc.devRef .tc main_v90)
    = ReadP.val_main_v90 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg6)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) :=
  (step_binary hw 129 rfl (by decide) (by decide) (by decide) (launchContents m c) (H_v85 m c) (H_v89 m c) :)
theorem H_v91 : after (ValueP.ops (F := Ideal)) (launchContents m c) (Proc.devRef .tc main_v91)
    = ReadP.val_main_v91 (F := Ideal) (m ((c.tc : Thread nD τ).loc main_arg22)) :=
  (step_unary hw 130 rfl (by decide) (by decide) (launchContents m c) (A22 m c) :)
theorem H_v92 : after (ValueP.ops (F := Ideal)) (launchContents m c) (Proc.devRef .tc main_v92)
    = ReadP.val_main_v92 (F := Ideal) (m ((c.tc : Thread nD τ).loc main_arg22)) :=
  (step_unary hw 131 rfl (by decide) (by decide) (launchContents m c) (H_v91 m c) :)
theorem H_v93 : after (ValueP.ops (F := Ideal)) (launchContents m c) (Proc.devRef .tc main_v93)
    = ReadP.val_main_v93 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg6)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) :=
  (step_binary hw 132 rfl (by decide) (by decide) (by decide) (launchContents m c) (H_v90 m c) (H_v92 m c) :)
theorem H_call5_cst : after (ValueP.ops (F := Ideal)) (launchContents m c) (Proc.devRef .tc main_call5_cst)
    = ReadP.val_main_call5_cst (F := Ideal)  :=
  (step_nullaryT hw 133 rfl (by decide) (launchContents m c)  :)
theorem H_call5_v0 : after (ValueP.ops (F := Ideal)) (launchContents m c) (Proc.devRef .tc main_call5_v0)
    = ReadP.val_main_call5_v0 (F := Ideal)  :=
  (step_unaryT hw 134 rfl (by decide) (by decide) (launchContents m c) (H_call5_cst m c) :)
theorem H_v94 : after (ValueP.ops (F := Ideal)) (launchContents m c) (Proc.devRef .tc main_v94)
    = ReadP.val_main_v94 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg6)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) :=
  (step_binaryT hw 135 rfl (by decide) (by decide) (by decide) (launchContents m c) (H_v93 m c) (H_call5_v0 m c) :)
theorem H_cst_13 : after (ValueP.ops (F := Ideal)) (launchContents m c) (Proc.devRef .tc main_cst_13)
    = ReadP.val_main_cst_13 (F := Ideal)  :=
  (step_nullary hw 136 rfl (by decide) (launchContents m c)  :)
theorem H_v95 : after (ValueP.ops (F := Ideal)) (launchContents m c) (Proc.devRef .tc main_v95)
    = ReadP.val_main_v95 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg6)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) :=
  (step_binary hw 137 rfl (by decide) (by decide) (by decide) (launchContents m c) (H_v94 m c) (H_cst_13 m c) :)
theorem H_v96 : after (ValueP.ops (F := Ideal)) (launchContents m c) (Proc.devRef .tc main_v96)
    = ReadP.val_main_v96 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) :=
  (step_binary hw 138 rfl (by decide) (by decide) (by decide) (launchContents m c) (H_v52 m c) (H_v95 m c) :)
theorem H_v97 : after (ValueP.ops (F := Ideal)) (launchContents m c) (Proc.devRef .tc main_v97)
    = ReadP.val_main_v97 (F := Ideal) (m ((c.tc : Thread nD τ).loc main_arg23)) :=
  (step_unary hw 139 rfl (by decide) (by decide) (launchContents m c) (A23 m c) :)
theorem H_v98 : after (ValueP.ops (F := Ideal)) (launchContents m c) (Proc.devRef .tc main_v98)
    = ReadP.val_main_v98 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) :=
  (step_binary hw 140 rfl (by decide) (by decide) (by decide) (launchContents m c) (H_v96 m c) (H_v97 m c) :)
theorem H_cst_14 : after (ValueP.ops (F := Ideal)) (launchContents m c) (Proc.devRef .tc main_cst_14)
    = ReadP.val_main_cst_14 (F := Ideal)  :=
  (step_nullary hw 141 rfl (by decide) (launchContents m c)  :)
theorem H_v99 : after (ValueP.ops (F := Ideal)) (launchContents m c) (Proc.devRef .tc main_v99)
    = ReadP.val_main_v99 (F := Ideal)  :=
  (step_unary hw 142 rfl (by decide) (by decide) (launchContents m c) (H_cst_14 m c) :)
theorem H_v100 : after (ValueP.ops (F := Ideal)) (launchContents m c) (Proc.devRef .tc main_v100)
    = ReadP.val_main_v100 (F := Ideal) (m ((c.tc : Thread nD τ).loc main_arg24)) :=
  (step_binary hw 143 rfl (by decide) (by decide) (by decide) (launchContents m c) (A24 m c) (H_v99 m c) :)
theorem H_v101 : after (ValueP.ops (F := Ideal)) (launchContents m c) (Proc.devRef .tc main_v101)
    = ReadP.val_main_v101 (F := Ideal) (m ((c.tc : Thread nD τ).loc main_arg24)) :=
  (step_unary hw 144 rfl (by decide) (by decide) (launchContents m c) (H_v100 m c) :)
theorem H_v102 : after (ValueP.ops (F := Ideal)) (launchContents m c) (Proc.devRef .tc main_v102)
    = ReadP.val_main_v102 (F := Ideal) (m ((c.tc : Thread nD τ).loc main_arg24)) :=
  (step_unary hw 145 rfl (by decide) (by decide) (launchContents m c) (H_v101 m c) :)
theorem H_v103 : after (ValueP.ops (F := Ideal)) (launchContents m c) (Proc.devRef .tc main_v103)
    = ReadP.val_main_v103 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) :=
  (step_binary hw 146 rfl (by decide) (by decide) (by decide) (launchContents m c) (H_v98 m c) (H_v102 m c) :)
theorem H_v104 : after (ValueP.ops (F := Ideal)) (launchContents m c) (Proc.devRef .tc main_v104)
    = ReadP.val_main_v104 (F := Ideal) (m ((c.tc : Thread nD τ).loc main_arg25)) :=
  (step_unary hw 147 rfl (by decide) (by decide) (launchContents m c) (A25 m c) :)
theorem H_v105 : after (ValueP.ops (F := Ideal)) (launchContents m c) (Proc.devRef .tc main_v105)
    = ReadP.val_main_v105 (F := Ideal) (m ((c.tc : Thread nD τ).loc main_arg25)) :=
  (step_unary hw 148 rfl (by decide) (by decide) (launchContents m c) (H_v104 m c) :)
theorem H_v106 : after (ValueP.ops (F := Ideal)) (launchContents m c) (Proc.devRef .tc main_v106)
    = ReadP.val_main_v106 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) :=
  (step_binary hw 149 rfl (by decide) (by decide) (by decide) (launchContents m c) (H_v103 m c) (H_v105 m c) :)
theorem H_call6_cst : after (ValueP.ops (F := Ideal)) (launchContents m c) (Proc.devRef .tc main_call6_cst)
    = ReadP.val_main_call6_cst (F := Ideal)  :=
  (step_nullaryT hw 150 rfl (by decide) (launchContents m c)  :)
theorem H_call6_v0 : after (ValueP.ops (F := Ideal)) (launchContents m c) (Proc.devRef .tc main_call6_v0)
    = ReadP.val_main_call6_v0 (F := Ideal)  :=
  (step_unaryT hw 151 rfl (by decide) (by decide) (launchContents m c) (H_call6_cst m c) :)
theorem H_v107 : after (ValueP.ops (F := Ideal)) (launchContents m c) (Proc.devRef .tc main_v107)
    = ReadP.val_main_v107 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) :=
  (step_binaryT hw 152 rfl (by decide) (by decide) (by decide) (launchContents m c) (H_v106 m c) (H_call6_v0 m c) :)

/-- The program's result buffer at the end of the line is the last stage of the operation-by-operation reading, at the
    arguments' contents at launch. -/
theorem fold_v107 :
    after (ValueP.ops (F := Ideal)) (launchContents m c) (Proc.devRef .tc main_v107)
      = ReadP.val_main_v107 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) :=
  H_v107 m c

end Cert.ReferenceIdeal.RefFold

end
-- ==== Proof.lean ====
/-
  The certificate of the point-set encoder: the idealized kernel program and the idealized reference compute the same
  [16384, 256] array over the extended reals.

  The kernel program runs a linear layer on the accelerator (first region), gathers neighbours' positions and feature
  rows on the host, and fuses the two neighbourhood scales and the output layer in a second accelerator region. The
  reference does everything as whole-array host operations. Both end at the same function of the argument arrays:
  `Cert.Encoder.row` of each destination point's own data (KValue, RefRow), the reference's run reaching its last stage
  by folding its 153 operations in order (RefFold). The three frames are the programs' runs with the result dropped; the
  idealization rewrote nothing, so `preserves` is trivial.
-/
import proofs.«141855_j52682068853185_2_alg».proof.Defs
import proofs.«141855_j52682068853185_2_alg».proof.Proof.Gen.Kernel
import proofs.«141855_j52682068853185_2_alg».proof.Proof.Gen.Kernel.Skeleton
import proofs.«141855_j52682068853185_2_alg».proof.Proof.Gen.Kernel.Launch
import proofs.«141855_j52682068853185_2_alg».proof.Proof.Gen.Kernel.Points
import proofs.«141855_j52682068853185_2_alg».proof.Proof.Gen.Kernel.Frame
import proofs.«141855_j52682068853185_2_alg».proof.Proof.Gen.KernelIdeal
import proofs.«141855_j52682068853185_2_alg».proof.Proof.Gen.KernelIdeal.Skeleton
import proofs.«141855_j52682068853185_2_alg».proof.Proof.Gen.KernelIdeal.Launch
import proofs.«141855_j52682068853185_2_alg».proof.Proof.Gen.KernelIdeal.Points
import proofs.«141855_j52682068853185_2_alg».proof.Proof.Gen.KernelIdeal.Frame
import proofs.«141855_j52682068853185_2_alg».proof.Proof.Gen.ReferenceIdeal
import proofs.«141855_j52682068853185_2_alg».proof.Proof.Gen.Pre_finite_inputs
import proofs.«141855_j52682068853185_2_alg».proof.Proof.KRun
import proofs.«141855_j52682068853185_2_alg».proof.Proof.KValue
import proofs.«141855_j52682068853185_2_alg».proof.Proof.RefRunP
import proofs.«141855_j52682068853185_2_alg».proof.Proof.RefFold
import Idealize.ShloMosaic.Adequacy
import Idealize.ShloMosaic.Init

set_option maxRecDepth 16384

noncomputable section

namespace Cert.Proof

open Idealize.ShloMosaic Idealize.SL.Sem

/-- The word-level kernel program runs and leaves its arguments as launched. -/
theorem frame_kernel : Cert.frame_Kernel (hKernel := Cert.Kernel.Gen.facts) (hPre_finite_inputs := Cert.Pre_finite_inputs.Gen.facts) :=
  fun m ρ _ => Cert.Kernel.Gen.frame m ρ

/-- So does the idealized kernel program. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference runs too: its run with the result dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.ValueP.run (F := Ideal) m ρ)

/-- The idealization pass rewrote no operation. -/
theorem preserves : Cert.preserves_Kernel_KernelIdeal := trivial

/-- From memories agreeing on the arguments both programs end with the same result array: the kernel program's is the
    reference's last stage of its own arguments (`result_eq`), the reference's run folds to its last stage of ITS
    arguments (`fold_v107`), and the arguments agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Gen.W8 m ρ c (Proc.devRef .tc Cert.KernelIdeal.main_v56),
    Cert.KernelIdeal.Run.run_value (F := Ideal) m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h1, h2, h3, h4, h5, h6, h7, h8, h9, h10, h11, h12, h13, h14, h15, h16, h17, h18, h19, h20, h21, h22, h23, h24, h25⟩ := hagree c
  rw [Cert.ReferenceIdeal.RefFold.fold_v107, h0, h1, h2, h3, h4, h5, h6, h7, h8, h9, h10, h11, h12, h13, h14, h15, h16, h17, h18, h19, h20, h21, h22, h23, h24, h25]
  exact (Cert.KernelIdeal.Value.result_eq m ρ c).symm

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
